-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x512x1024 : Shape := ⟨3, ![1, 512, 1024]⟩
abbrev S1x512x1 : Shape := ⟨3, ![1, 512, 1]⟩
abbrev S1x512x512 : Shape := ⟨3, ![1, 512, 512]⟩
abbrev S1x512 : Shape := ⟨2, ![1, 512]⟩

abbrev nBuf : Space → Nat
  | .hbm => 15
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S4x2048x1024, .bf16⟩
  | .hbm, ⟨12, _⟩ => ⟨S4x2048x1024, .bf16⟩
  | .hbm, ⟨13, _⟩ => ⟨S4x2048x1024, .bf16⟩
  | .hbm, ⟨14, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1, .f32⟩
  | .local _ .vmem, ⟨20, _⟩ => ⟨S1x512x1, .f32⟩
  | .local _ .vmem, ⟨21, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  iota_S1x512x512_d1_w32 : S1x512x512.Iotas .tc 32 [1]
  iota_S1x512x512_d2_w32 : S1x512x512.Iotas .tc 32 [2]
  reduces_S1x512x512_S1x512 : S1x512x512.Reduces [2] S1x512
  shapeCasts_S1x512_S1x512x1 : S1x512.ShapeCasts S1x512x1
  broadcasts_S1x512x1_S1x512x512 : S1x512x1.Broadcasts S1x512x512
  broadcasts_S1x512x1_S1x512x1024 : S1x512x1.Broadcasts S1x512x1024
  dot_S512x1024_S1024x1024_S512x1024_1_1_0_0_n_n_wf : DotDims.WF S512x1024 S1024x1024 S512x1024 [1] [1] [0] [0] [] []
  dot_S1x512x1024_S1x512x1024_S1x512x512_2_2_1_1_0_0_wf : DotDims.WF S1x512x1024 S1x512x1024 S1x512x512 [2] [2] [1] [1] [0] [0]
  dot_S1x512x512_S1x512x1024_S1x512x1024_2_1_1_2_0_0_wf : DotDims.WF S1x512x512 S1x512x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1x512x1024_S1x512x1024_S1x512x512_2_2_1_1_0_0 : DotDims S1x512x1024 S1x512x1024 S1x512x512 where
  lhsContracting := [2]
  rhsContracting := [2]
  lhsNonContracting := [1]
  rhsNonContracting := [1]
  lhsBatch := [0]
  rhsBatch := [0]
  wf := dot_S1x512x1024_S1x512x1024_S1x512x512_2_2_1_1_0_0_wf
def dot_S1x512x512_S1x512x1024_S1x512x1024_2_1_1_2_0_0 : DotDims S1x512x512 S1x512x1024 S1x512x1024 where
  lhsContracting := [2]
  rhsContracting := [1]
  lhsNonContracting := [1]
  rhsNonContracting := [2]
  lhsBatch := [0]
  rhsBatch := [0]
  wf := dot_S1x512x512_S1x512x1024_S1x512x1024_2_1_1_2_0_0_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S4x2048x2048, .i1⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.IRegion0.lean ====
/- Region 0 of @main (the projection kernel: one block of x against three whole weight matrices, giving the
   q, k and v blocks) at a parameter `V`, the TensorCore's buffer contents when the region is entered: each
   window's block at a point, what the body leaves in each output's buffer (its one whole-buffer store, which is
   the store's payload of the blocks), the body's triple, the pipeline's proof data and its body obligation. -/
import proofs.«148900_j618475290737_2_alg».proof.Proof.Gen.KernelIdeal.Launch
import proofs.«148900_j618475290737_2_alg».proof.Proof.Gen.KernelIdeal.Skeleton
import proofs.«148900_j618475290737_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: where the window is not fetched its block
    index has not moved, so the block of the point before is this point's. Window 0 (the x block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the first weight matrix, whole, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the second weight matrix). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3 (the third weight matrix). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The whole 512×1024 buffer as a rectangle: unit strides, zero offsets, the buffer's own sizes. -/
abbrev r0_0 : Rect S512x1024 := Rect.unit (s := S512x1024) ![0, 0] S512x1024.size inb_S512x1024_S512x1024_0_0
/-- The whole 1024×1024 buffer likewise. -/
abbrev r0_1 : Rect S1024x1024 := Rect.unit (s := S1024x1024) ![0, 0] S1024x1024.size inb_S1024x1024_S1024x1024_0_0

/-- The zero offsets, as the constant function. -/
theorem zeros2 : (![0, 0] : Fin 2 → Nat) = fun _ => 0 := funext fun a => by fin_cases a <;> rfl

/-! ## What the body leaves in each output window's buffer -/

/-- The q block's staging buffer after the body, from the x block and the first weight matrix: its one store. -/
def out0_4 (x0 : Vec F S512x1024 .f32) (x1 : Vec F S1024x1024 .bf16) : Vec F S512x1024 .bf16 :=
  View.canon [⟨r0_0, k0_pay2 (View.ld x0 r0_0) (View.ld x1 r0_1)⟩]
/-- The k block's, from the x block and the second weight matrix. -/
def out0_5 (x0 : Vec F S512x1024 .f32) (x2 : Vec F S1024x1024 .bf16) : Vec F S512x1024 .bf16 :=
  View.canon [⟨r0_0, k0_pay3 (View.ld x0 r0_0) (View.ld x2 r0_1)⟩]
/-- The v block's, from the x block and the third weight matrix. -/
def out0_6 (x0 : Vec F S512x1024 .f32) (x3 : Vec F S1024x1024 .bf16) : Vec F S512x1024 .bf16 :=
  View.canon [⟨r0_0, k0_pay4 (View.ld x0 r0_0) (View.ld x3 r0_1)⟩]

/-- One store over the whole buffer leaves its payload, and a load of a whole buffer reads the buffer. -/
theorem out0_4_eq (x0 : Vec F S512x1024 .f32) (x1 : Vec F S1024x1024 .bf16) : out0_4 x0 x1 = k0_pay2 x0 x1 := by
  unfold out0_4
  rw [View.canon_unit_zero zeros2]
  simp only [View.ld_unit_zero (S := S512x1024) zeros2, View.ld_unit_zero (S := S1024x1024) zeros2]
theorem out0_5_eq (x0 : Vec F S512x1024 .f32) (x2 : Vec F S1024x1024 .bf16) : out0_5 x0 x2 = k0_pay3 x0 x2 := by
  unfold out0_5
  rw [View.canon_unit_zero zeros2]
  simp only [View.ld_unit_zero (S := S512x1024) zeros2, View.ld_unit_zero (S := S1024x1024) zeros2]
theorem out0_6_eq (x0 : Vec F S512x1024 .f32) (x3 : Vec F S1024x1024 .bf16) : out0_6 x0 x3 = k0_pay4 x0 x3 := by
  unfold out0_6
  rw [View.canon_unit_zero zeros2]
  simp only [View.ld_unit_zero (S := S512x1024) zeros2, View.ld_unit_zero (S := S1024x1024) zeros2]

/-- The one whole-buffer store covers the buffer: every index is in its rectangle. -/
theorem cover0 (p0 : Vec F S512x1024 .bf16) (y : S512x1024.Idx) :
    ∃ pc ∈ ([⟨r0_0, p0⟩] : List (View.Piece (Elt F) S512x1024 .bf16)), y ∈ pc.1.set :=
  ⟨_, List.mem_singleton_self _, View.mem_set_unit_zero zeros2 inb_S512x1024_S512x1024_0_0 y⟩

/-! ## The body's triple -/

set_option maxHeartbeats 1000000 in
/-- The kernel body on whole staging memrefs, the inputs' at read contents and the outputs' at anything, runs to the
    continuation holding the inputs' as they were and each output's at its one store's payload of the inputs'. The
    body loads each output buffer before storing it; what it reads there is never used. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of pipeline 0 on core `c`: the arrays as the region finds them (`V`); after the body at point
    `t` each input's buffer at its block and each output's at its store's payload of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IRegion1.lean ====
/- Region 1 of the frame certificate: the causal flash-attention kernel's half — the three scratch buffers' trajectory
   over the grid, what the output window's buffer holds after each point, the kernel body's triple in each of its
   control cases, the pipeline's proof data and its body obligation — at a parameter `V`, the TensorCore's buffer
   contents when the region is entered. -/
import proofs.«148900_j618475290737_2_alg».proof.Proof.Gen.KernelIdeal.Launch
import proofs.«148900_j618475290737_2_alg».proof.Proof.Gen.KernelIdeal.Skeleton
import proofs.«148900_j618475290737_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## Whole-buffer loads and stores

Every access of the kernel is through the unit rectangle at zero offsets of the buffer's own sizes: a load reads the
contents, a store leaves its payload whatever was stored before. -/

theorem zeros3 : (![0, 0, 0] : Fin 3 → ℕ) = fun _ => 0 := by funext a; fin_cases a <;> rfl

section Whole
variable {sig' : RefSig} {κ' : Kind} {sp' : Space} {S : Shape} {e : EltTy} {Val : EltTy → Type}

/-- Every index lies in the last-stored whole-buffer piece. -/
theorem cover_cons_whole {off : Fin S.rank → ℕ} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-- A whole-buffer load after a whole-buffer store reads that store's payload. -/
theorem readCov_cons_whole [∀ e, Nonempty (Val e)] (v : View sig' κ' sp' S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (cover_cons_whole h inb w L), View.canon_cons_unit_zero h inb, View.ld_unit_zero h inb]

/-- What a buffer reads after a whole-buffer store, the last of its stores: that store's payload. -/
theorem read_writes_cons_whole [∀ e, Nonempty (Val e)] (v : View sig' κ' sp' S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_cons_whole h inb w L), View.canon_cons_unit_zero h inb]

/-- A whole-buffer load of a whole memref held at the contents that read `X` reads `X`. -/
theorem readAt_whole_unread {m : Memref sig' κ' sp' S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h inb]

end Whole

/-- Closes `read (what the body left in a buffer) = the stated contents`: every whole-buffer load resolved to the
    contents it reads, every whole-buffer store to its payload. -/
macro "close_read" : tactic => `(tactic| (
  sl_unfold_run_names
  try simp only [read_writes_cons_whole (S := S1x512x1) _ _ zeros3, read_writes_cons_whole (S := S1x512x1024) _ _ zeros3,
    readCov_cons_whole (S := S1x512x1) _ zeros3, readCov_cons_whole (S := S1x512x1024) _ zeros3,
    View.readAt_eq_ld, Memref.view_whole, View.read_whole, Memref.IsWhole.read_unread,
    View.ld_unit_zero (S := S1x512x1) zeros3, View.ld_unit_zero (S := S1x512x1024) zeros3, View.writes_nil]
  try assumption))

section Region1

variable (V : (c : Dev nD) → (b : Ref sig .tc) → Buf (Elt F) ((c : Thread nD τ).loc b))

/-! ## The body's three tests on the grid coordinates -/

/-- The key block is the first (`ki = 0`): the scratch buffers are reset. As the kernel computes it. -/
abbrev cond1_1 (i : grid1.Coords) : Prop :=
  (Scalar.cmpi .ne (Scalar.extui (Scalar.cmpi .eq (BitVec.ofNat 32 (i 2).val) 0#32)) 0#32) = 1#1
/-- The key block is not after the query block (`ki ≤ qi`): it is folded into the scratch buffers. -/
abbrev cond1_2 (i : grid1.Coords) : Prop :=
  (Scalar.cmpi .ne (Scalar.extui (Scalar.cmpi .sle (BitVec.ofNat 32 (i 2).val) (BitVec.ofNat 32 (i 1).val))) 0#32) = 1#1
/-- The key block is the query block's own (`ki = qi`, the diagonal): the output block is stored. -/
abbrev cond1_3 (i : grid1.Coords) : Prop := k1_cond3 i = 1#1

/-- The three tests in closed form over the point's position, decided over the 64 points. -/
theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 ≤ t.val / 4 % 4 :=
  (by decide +kernel : ∀ t : Fin grid1.N, cond1_2 (grid1.coords t) ↔ t.val % 4 ≤ t.val / 4 % 4)
theorem hcond1_3 : ∀ t : Fin cfg1.N, cond1_3 (grid1.coords t) ↔ t.val % 4 = t.val / 4 % 4 :=
  (by decide +kernel : ∀ t : Fin grid1.N, cond1_3 (grid1.coords t) ↔ t.val % 4 = t.val / 4 % 4)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch buffers' trajectory -/

/-- The contents of the three scratch buffers: the running maximum `m`, the normalizer `l`, the accumulator `acc`. -/
abbrev Sc (F : FTy → Type) : Type := FVec F S1x512x1 .f32 × FVec F S1x512x1 .f32 × FVec F S1x512x1024 .f32

/-- ONE POINT'S EFFECT on the scratch buffers, at coordinates `i`, from the query, key and value blocks: reset where
    `ki = 0`; then, where `ki ≤ qi`, the new maximum, the rescaled normalizer plus this block's row sums, the rescaled
    accumulator plus this block's weighted values — each from the contents the reset left. -/
def stepSc (i : grid1.Coords) (q k v : Vec F S1x512x1024 .bf16) (s : Sc F) : Sc F :=
  let a1 : BitVec 32 := BitVec.ofNat 32 (i 1).val
  let a2 : BitVec 32 := BitVec.ofNat 32 (i 2).val
  let s0 : Sc F := if cond1_1 i then (k1_pay1, k1_pay2, k1_pay3) else s
  if cond1_2 i then
    (k1_pay5 (k1_pay8 a1 a2 q k s0.1),
     k1_pay11 a1 a2 q k s0.1 s0.1 s0.2.1,
     k1_pay4 (k1_pay9 a1 a2 q k s0.1 s0.1) (k1_pay10 a1 a2 q k s0.1) s0.2.2 v)
  else s0

/-- The scratch buffers BEFORE the point at position `n` (after the one at `n - 1`): before the first point anything
    (that point resets them), then one step per point over the windows' blocks. -/
def scAt (c : Dev nD) : ℕ → Sc F
  | 0 => (k1_pay1, k1_pay2, k1_pay3)
  | n + 1 =>
    if h : n < cfg1.N then
      stepSc (grid1.coords ⟨n, h⟩) (iblk1 V c 0 ⟨n, h⟩) (iblk1 V c 1 ⟨n, h⟩) (iblk1 V c 2 ⟨n, h⟩) (scAt c n)
    else scAt c n

theorem scAt_succ (c : Dev nD) (t : Fin cfg1.N) :
    scAt V c (t.val + 1) = stepSc (grid1.coords t) (iblk1 V c 0 t) (iblk1 V c 1 t) (iblk1 V c 2 t) (scAt V c t.val) := by
  rw [scAt, dif_pos t.isLt]

/-! ## The output window's buffer -/

/-- What the output window's current buffer holds after the body at position `n`: on the diagonal the accumulator over
    the normalizer, as the point leaves them; elsewhere what it held (the body stores nothing into it there). -/
def out1N (c : Dev nD) : ℕ → FVec F S1x512x1024 .f32
  | 0 => k1_pay6 (scAt V c 1).2.2 (scAt V c 1).2.1
  | n + 1 =>
    if h : n + 1 < cfg1.N then
      if cond1_3 (grid1.coords ⟨n + 1, h⟩) then k1_pay6 (scAt V c (n + 2)).2.2 (scAt V c (n + 2)).2.1 else out1N c n
    else out1N c n

/-- The same at a point. -/
def out1 (c : Dev nD) (t : Fin cfg1.N) : FVec F S1x512x1024 .f32 := out1N V c t.val

/-- On the diagonal: this point's quotient. -/
theorem out1_diag (c : Dev nD) (t : Fin cfg1.N) (h : cond1_3 (grid1.coords t)) :
    out1 V c t = k1_pay6 (scAt V c (t.val + 1)).2.2 (scAt V c (t.val + 1)).2.1 := by
  obtain ⟨n, hn⟩ := t
  cases n with
  | zero => unfold out1; rw [out1N]
  | succ n => unfold out1; rw [out1N, dif_pos hn, if_pos h]

/-- Off the diagonal: what the point before left. -/
theorem out1_off (c : Dev nD) (t : Fin cfg1.N) (h : ¬cond1_3 (grid1.coords t)) :
    out1 V c t = out1N V c (t.val - 1) := by
  obtain ⟨n, hn⟩ := t
  cases n with
  | zero => exact absurd ((hcond1_3 ⟨0, hn⟩).mpr (show (0 : ℕ) % 4 = 0 / 4 % 4 from by decide)) h
  | succ n => unfold out1; rw [out1N, dif_pos hn, if_neg h]; rfl

/-! ## The pipeline's proof data -/

/-- The scratch operands: whole scoped buffers of the kernel's own, passed beside the windows. -/
abbrev scM0 : Memref sig .tc .vmem S1x512x1 .f32 := Memref.whole cc1_scratch0
abbrev scM1 : Memref sig .tc .vmem S1x512x1 .f32 := Memref.whole cc1_scratch1
abbrev scM2 : Memref sig .tc .vmem S1x512x1024 .f32 := Memref.whole cc1_scratch2

/-- The core's scoped buffers that are neither a staging buffer of this pipeline nor a scratch buffer of its kernel
    (the other pipeline's staging buffers), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region invariant before position `n`: the scratch buffers at contents `s` that are the trajectory's unless
    `n = 0` (nothing is known of them when the region is entered), the other scoped buffers at some contents, the
    generator register at some state. -/
def Phi1 (c : Dev nD) (n : ℕ) : sProp 𝕄 :=
  iprop(∃ s : Sc F, ⌜n = 0 ∨ s = scAt V c n⌝ ∗ (rest1 (F := F) c ∗ (∃ r, prngReg c r))
    ∗ owns (c : Thread nD τ) scM0 fullShare s.1 ∗ owns (c : Thread nD τ) scM1 fullShare s.2.1 ∗ owns (c : Thread nD τ) scM2 fullShare s.2.2)

/-- The proof data of pipeline 1 on core `c`: the arrays as the region finds them (`V`); after the body at point `t`
    each input's buffer at its block and the output's at `out1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-! ## The body's triple, case by case

Each case's triple states what the body leaves in terms of `stepSc`, whose conditionals the case's hypotheses decide. -/

set_option maxHeartbeats 4000000 in
theorem run1_TTT (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : cond1_1 i) (hc2 : cond1_2 i) (hc3 : cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (k1_pay5 (k1_pay8 (BitVec.ofNat 32 (i 1).val) (BitVec.ofNat 32 (i 2).val) q k k1_pay1),
      k1_pay11 (BitVec.ofNat 32 (i 1).val) (BitVec.ofNat 32 (i 2).val) q k k1_pay1 k1_pay1 k1_pay2,
      k1_pay4 (k1_pay9 (BitVec.ofNat 32 (i 1).val) (BitVec.ofNat 32 (i 2).val) q k k1_pay1 k1_pay1) (k1_pay10 (BitVec.ofNat 32 (i 1).val) (BitVec.ofNat 32 (i 2).val) q k k1_pay1) k1_pay3 v) := by
    unfold stepSc; simp only [if_pos hc1, if_pos hc2]
  rw [hstep, if_pos hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

set_option maxHeartbeats 4000000 in
theorem run1_TTF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : cond1_1 i) (hc2 : cond1_2 i) (hc3 : ¬cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (k1_pay5 (k1_pay8 (BitVec.ofNat 32 (i 1).val) (BitVec.ofNat 32 (i 2).val) q k k1_pay1),
      k1_pay11 (BitVec.ofNat 32 (i 1).val) (BitVec.ofNat 32 (i 2).val) q k k1_pay1 k1_pay1 k1_pay2,
      k1_pay4 (k1_pay9 (BitVec.ofNat 32 (i 1).val) (BitVec.ofNat 32 (i 2).val) q k k1_pay1 k1_pay1) (k1_pay10 (BitVec.ofNat 32 (i 1).val) (BitVec.ofNat 32 (i 2).val) q k k1_pay1) k1_pay3 v) := by
    unfold stepSc; simp only [if_pos hc1, if_pos hc2]
  rw [hstep, if_neg hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

set_option maxHeartbeats 4000000 in
theorem run1_FTT (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : ¬cond1_1 i) (hc2 : cond1_2 i) (hc3 : cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (k1_pay5 (k1_pay8 (BitVec.ofNat 32 (i 1).val) (BitVec.ofNat 32 (i 2).val) q k m),
      k1_pay11 (BitVec.ofNat 32 (i 1).val) (BitVec.ofNat 32 (i 2).val) q k m m l,
      k1_pay4 (k1_pay9 (BitVec.ofNat 32 (i 1).val) (BitVec.ofNat 32 (i 2).val) q k m m) (k1_pay10 (BitVec.ofNat 32 (i 1).val) (BitVec.ofNat 32 (i 2).val) q k m) a v) := by
    unfold stepSc; simp only [if_neg hc1, if_pos hc2]
  rw [hstep, if_pos hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

set_option maxHeartbeats 4000000 in
theorem run1_FTF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : ¬cond1_1 i) (hc2 : cond1_2 i) (hc3 : ¬cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (k1_pay5 (k1_pay8 (BitVec.ofNat 32 (i 1).val) (BitVec.ofNat 32 (i 2).val) q k m),
      k1_pay11 (BitVec.ofNat 32 (i 1).val) (BitVec.ofNat 32 (i 2).val) q k m m l,
      k1_pay4 (k1_pay9 (BitVec.ofNat 32 (i 1).val) (BitVec.ofNat 32 (i 2).val) q k m m) (k1_pay10 (BitVec.ofNat 32 (i 1).val) (BitVec.ofNat 32 (i 2).val) q k m) a v) := by
    unfold stepSc; simp only [if_neg hc1, if_pos hc2]
  rw [hstep, if_neg hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

set_option maxHeartbeats 4000000 in
theorem run1_FFF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : ¬cond1_1 i) (hc2 : ¬cond1_2 i) (hc3 : ¬cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (m, l, a) := by
    unfold stepSc; simp only [if_neg hc1, if_neg hc2]
  rw [hstep, if_neg hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

/-! ## The body's triple, whatever the case -/

/-- The kernel body at coordinates whose tests are related as on the grid (`ki = 0` or `ki = qi` gives `ki ≤ qi`), on
    whole staging memrefs — the inputs' at `q`, `k`, `v`, the output's at `o` — and the scratch buffers at `s`, runs to
    the continuation holding the inputs' as they were, the scratch buffers one step on (`s'`), the output's at the
    quotient of the new accumulator by the new normalizer on the diagonal and as it was elsewhere (`o'`). -/
theorem sound_kernel1 (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hp1 : cond1_1 i → cond1_2 i) (hp3 : cond1_3 i → cond1_2 i)
    (q k v : Vec F S1x512x1024 .bf16) (o : Vec F S1x512x1024 .f32) (s : Sc F)
    (s' : Sc F) (hs' : s' = stepSc i q k v s) (o' : Vec F S1x512x1024 .f32)
    (ho' : o' = if cond1_3 i then k1_pay6 (stepSc i q k v s).2.2 (stepSc i q k v s).2.1 else o)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare o'
            ∗ owns (c : Thread nD τ) scM0 fullShare s'.1 ∗ owns (c : Thread nD τ) scM1 fullShare s'.2.1
            ∗ owns (c : Thread nD τ) scM2 fullShare s'.2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  subst hs' ho'
  by_cases hc1 : cond1_1 i
  · have hc2 := hp1 hc1
    by_cases hc3 : cond1_3 i
    · exact run1_TTT c E i arg3 harg3 arg4 harg4 arg5 harg5 arg6 harg6 hc1 hc2 hc3 q k v o s K
    · exact run1_TTF c E i arg3 harg3 arg4 harg4 arg5 harg5 arg6 harg6 hc1 hc2 hc3 q k v o s K
  · by_cases hc2 : cond1_2 i
    · by_cases hc3 : cond1_3 i
      · exact run1_FTT c E i arg3 harg3 arg4 harg4 arg5 harg5 arg6 harg6 hc1 hc2 hc3 q k v o s K
      · exact run1_FTF c E i arg3 harg3 arg4 harg4 arg5 harg5 arg6 harg6 hc1 hc2 hc3 q k v o s K
    · exact run1_FFF c E i arg3 harg3 arg4 harg4 arg5 harg5 arg6 harg6 hc1 hc2 (fun h => hc2 (hp3 h)) q k v o s K

/-! ## The scratch trajectory at a point -/

/-- Where the scratch buffers are reset the step does not read them. -/
theorem stepSc_reset (i : grid1.Coords) (h : cond1_1 i) (q k v : Vec F S1x512x1024 .bf16) (s s' : Sc F) :
    stepSc i q k v s = stepSc i q k v s' := by
  unfold stepSc; simp only [if_pos h]

/-- One step from contents that are the trajectory's — or anything at the first point, which resets them — is the
    trajectory's next. -/
theorem step_eq (c : Dev nD) (t : Fin cfg1.N) (s : Sc F) (hs : t.val = 0 ∨ s = scAt V c t.val) :
    scAt V c (t.val + 1) = stepSc (grid1.coords t) (iblk1 V c 0 t) (iblk1 V c 1 t) (iblk1 V c 2 t) s := by
  rw [scAt_succ]
  rcases hs with h0 | rfl
  · exact stepSc_reset _ ((hcond1_1 t).mpr (by rw [h0])) _ _ _ _ _
  · rfl

/-! ## Where the output window is idle, and what its buffer holds there -/

/-- The output window is live exactly on the diagonal (the printed configuration's table). -/
theorem live1_3 (i : grid1.Coords) (h : cond1_3 i) : cfg1.idle 3 i = false := by
  show (!(k1_cond3 i == 1#1)) = false
  rw [h]; rfl
theorem idle1_3 (i : grid1.Coords) (h : ¬cond1_3 i) : cfg1.idle 3 i = true := by
  show (!(k1_cond3 i == 1#1)) = true
  rw [Bool.not_eq_true', beq_eq_false_iff_ne]; exact h
theorem not_cond_of_idle1_3 (i : grid1.Coords) (h : cfg1.idle 3 i = true) : ¬cond1_3 i := fun hc => by
  rw [live1_3 i hc] at h; exact Bool.false_ne_true h

/-- Where the output window is idle and yet written back (the group's last point, past the diagonal), its buffer is
    not fresh: the diagonal's store is in it. Decided over the grid. -/
theorem notFresh1_3 : ∀ t : Fin cfg1.N, cfg1.idle 3 (grid1.coords t) = true → (cfg1.win 3).flush t = true → cfg1.fresh 3 t.val = false :=
  (by decide +kernel : ∀ t : Fin grid1.N, cfg1.idle 3 (grid1.coords t) = true → win1_3.flush t = true → cfg1.fresh 3 t.val = false)

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The output's current buffer when the body runs: anything where nothing was stored since the last write-back, else
    what the point before left — the stated contents carry through the idle points. -/
theorem before1_3 (c : Dev nD) (t : Fin cfg1.N) (d) :
    (dat1 V c).before 3 t d = if cfg1.fresh 3 t.val then d else (dat1 V c).after 3 ⟨t.val - 1, Nat.lt_of_le_of_lt (Nat.sub_le _ _) t.isLt⟩ :=
  (dat1 V c).before_out_traj 3 rfl (fun _ _ => rfl)
    (fun t ht hi _ => by rw [after1_3, after1_3, out1_off V c t (not_cond_of_idle1_3 _ hi)]; rfl) t.val t rfl d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point, given what the output window's buffer is to be left at (`o'`: the quotient on the diagonal,
    what it held elsewhere): the inputs' memrefs hold their blocks, the invariant hands over the scratch buffers at the
    trajectory's contents (anything at the first point, which resets them) and takes them back one step on. -/
theorem sound_body1_at (c : Dev nD) (t : Fin cfg1.N) (Q : sProp 𝕄)
    (o' : (Vec F S1x512x1024 .f32) → Vec F S1x512x1024 .f32)
    (ho' : ∀ d, o' d = if cond1_3 (grid1.coords t) then k1_pay6 (scAt V c (t.val + 1)).2.2 (scAt V c (t.val + 1)).2.1 else (dat1 V c).before 3 t d)
    (hQ : ∀ d, owns (c : Thread nD τ) (st1_3 t) fullShare (o' d) ⊢ Q) :
    iprop(Phi1 V c t.val ∗ (dat1 V c).owesAt () t.castSucc
        ∗ (∃ d : (cfg1.win 0).block.Idx → Elt F (cfg1.win 0).elt, owns (c : Thread nD τ) (st1_0 t) fullShare (iblk1 V c 0 t))
        ∗ (∃ d : (cfg1.win 1).block.Idx → Elt F (cfg1.win 1).elt, owns (c : Thread nD τ) (st1_1 t) fullShare (iblk1 V c 1 t))
        ∗ (∃ d : (cfg1.win 2).block.Idx → Elt F (cfg1.win 2).elt, owns (c : Thread nD τ) (st1_2 t) fullShare (iblk1 V c 2 t))
        ∗ (∃ d : (cfg1.win 3).block.Idx → Elt F (cfg1.win 3).elt, owns (c : Thread nD τ) (st1_3 t) fullShare ((dat1 V c).before 3 t d)))
      ⊢ wp frame (wpE (defs₀ (F := F)) Variants.none c none) Set.univ (bodyAt1 t) (fun _ =>
          iprop(Phi1 V c (t.val + 1) ∗ (dat1 V c).owesAt () t.castSucc
            ∗ owns (c : Thread nD τ) (st1_0 t) fullShare (iblk1 V c 0 t)
            ∗ owns (c : Thread nD τ) (st1_1 t) fullShare (iblk1 V c 1 t)
            ∗ owns (c : Thread nD τ) (st1_2 t) fullShare (iblk1 V c 2 t)
            ∗ Q)) := by
  have hp1 : cond1_1 (grid1.coords t) → cond1_2 (grid1.coords t) := fun h =>
    (hcond1_2 t).mpr (by have := (hcond1_1 t).mp h; omega)
  have hp3 : cond1_3 (grid1.coords t) → cond1_2 (grid1.coords t) := fun h =>
    (hcond1_2 t).mpr (by have := (hcond1_3 t).mp h; omega)
  unfold Phi1 bodyAt1
  iintro ⟨⟨%s, %hs, Hrest, S0, S1, S2⟩, Ho, ⟨%d0, H0⟩, ⟨%d1, H1⟩, ⟨%d2, H2⟩, ⟨%d3, H3⟩⟩
  have hstep := step_eq V c t s hs
  iapply (sound_kernel1 c Set.univ (grid1.coords t) _ _ _ _ _ _ _ _ hp1 hp3 (iblk1 V c 0 t) (iblk1 V c 1 t) (iblk1 V c 2 t)
    ((dat1 V c).before 3 t d3) s (scAt V c (t.val + 1)) hstep (o' d3) (by rw [ho' d3, hstep]) _)
  isplitl [H0]; · iexact H0
  isplitl [H1]; · iexact H1
  isplitl [H2]; · iexact H2
  isplitl [H3]; · iexact H3
  isplitl [S0]; · iexact S0
  isplitl [S1]; · iexact S1
  isplitl [S2]; · iexact S2
  iintro ⟨H0, H1, H2, H3, S0, S1, S2⟩
  isplitl [Hrest S0 S1 S2]
  · iexists (scAt V c (t.val + 1))
    isplitr; · ipureintro; exact .inr rfl
    isplitl [Hrest]; · iexact Hrest
    isplitl [S0]; · iexact S0
    isplitl [S1]; · iexact S1
    iexact S2
  isplitl [Ho]; · iexact Ho
  isplitl [H0]; · iexact H0
  isplitl [H1]; · iexact H1
  isplitl [H2]; · iexact H2
  iapply (hQ d3)
  iexact H3

set_option maxHeartbeats 1000000 in
/-- The body at any point. The output window: on the diagonal it is live and left at the quotient; elsewhere it is idle
    and untouched — which is what is asked where the point does not write it back, and where it does (the group's last
    point, past the diagonal) the buffer still holds the diagonal's quotient, which the stated contents carry. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  by_cases hc3 : cond1_3 (grid1.coords t)
  · -- the diagonal: live, left at the quotient
    rw [show (dat1 V c).leavesExact 3 t = owns (c : Thread nD τ) (st1_3 t) fullShare ((dat1 V c).after 3 t) from by
      unfold Dat.leavesExact; rw [live1_3 _ hc3], after1_3, out1_diag V c t hc3]
    exact sound_body1_at V c t _ (fun _ => k1_pay6 (scAt V c (t.val + 1)).2.2 (scAt V c (t.val + 1)).2.1)
      (fun d => (if_pos hc3).symm) (fun _ => Idealize.SL.BI.Entails.refl _)
  · have hi := idle1_3 _ hc3
    by_cases hf : (cfg1.win 3).flush t = true
    · -- idle and written back: the buffer holds what the point before left, which is what is stated of this point
      rw [show (dat1 V c).leavesExact 3 t = owns (c : Thread nD τ) (st1_3 t) fullShare ((dat1 V c).after 3 t) from by
        unfold Dat.leavesExact; rw [hi, hf]]
      exact sound_body1_at V c t _ (fun _ => (dat1 V c).after 3 t)
        (fun d => by
          rw [if_neg hc3, before1_3, notFresh1_3 t hi hf, if_neg Bool.false_ne_true, after1_3, after1_3, out1_off V c t hc3]; rfl)
        (fun _ => Idealize.SL.BI.Entails.refl _)
    · -- idle, not written back: handed back as found
      rw [Bool.not_eq_true] at hf
      rw [Dat.leavesExact_idle (dat1 V c) 3 t hi hf]
      exact sound_body1_at V c t _ (fun d => (dat1 V c).before 3 t d) (fun d => (if_neg hc3).symm)
        (fun d => by iintro H; iexists d; iexact H)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region — the generator register and the scoped rest, the scratch buffers at anything — is
    the invariant before the first point. -/
theorem phi_in1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [scopedRest1_eq, show (dat1 V c).Φ 0 = Phi1 V c 0 from rfl]
  unfold Phi1 rest1
  simp only [scM0, scM1, scM2, owns_whole]
  iintro ⟨Hg, B0, B1, B2, B3, B4, B5, B6, B7, B8, B9, B10, ⟨%f0, S0⟩, ⟨%f1, S1⟩, ⟨%f2, S2⟩⟩
  iexists ((f0, f1, f2) : Sc F)
  isplitr; · ipureintro; first | exact .inl rfl | exact .inl trivial | exact trivial
  isplitl [Hg B0 B1 B2 B3 B4 B5 B6 B7 B8 B9 B10]
  · isplitr [Hg]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hg
  isplitl [S0]; · iexact S0
  isplitl [S1]; · iexact S1
  iexact S2

/-- After the last point the invariant gives the scoped rest back: the scratch buffers' contents are forgotten. -/
theorem phi_out1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [scopedRest1_eq, show (dat1 V c).Φ (Fin.last cfg1.N) = Phi1 V c (Fin.last cfg1.N).val from rfl]
  unfold Phi1 rest1
  simp only [scM0, scM1, scM2, owns_whole]
  iintro ⟨%s, -, ⟨⟨B0, B1, B2, B3, B4, B5, B6, B7, B8, B9, B10⟩, Hg⟩, S0, S1, S2⟩
  isplitl [Hg]; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [S0]; · iexists _; iexact S0
  isplitl [S1]; · iexists _; iexact S1
  iexists _; iexact S2

end Region1

end Cert.KernelIdeal.Hand

end
-- ==== Proof.IRun.lean ====
/-
  The run of @main over its four segments — a stretch of host operations, the projection region, a stretch of host
  reshapes, the attention region — from the launch to the return.

  The contents of every unscoped buffer at each segment boundary are a fold through @main from the launch memory: a host
  stretch applies its operations; a region leaves its windows' arrays at what its write-backs produce and every other
  buffer as it found it. No operation and no region writes an argument array, so the fold read at an argument walks back
  to the launch memory; and the last boundary's contents are what every final state holds.
-/
import proofs.«148900_j618475290737_2_alg».proof.Proof.IRegion0
import proofs.«148900_j618475290737_2_alg».proof.Proof.IRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### A buffer no host operation writes and no region stages is, at the end, what it was at launch -/

theorem W3_of_unwritten (c : Dev nD) (b : Ref sig .tc)
    (h : b ∉ ([main_v5, main_v6, main_v7] : List (Ref sig .tc))) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, Finset.mem_singleton]
    refine ⟨?_, ?_, ?_⟩
    · exact StableHlo.devRef_ne_of_ne (List.ne_of_not_mem_cons h)
    · exact StableHlo.devRef_ne_of_ne (List.ne_of_not_mem_cons (List.not_mem_of_not_mem_cons h))
    · exact StableHlo.devRef_ne_of_ne (List.ne_of_not_mem_cons (List.not_mem_of_not_mem_cons (List.not_mem_of_not_mem_cons h)))))

theorem W1_of_unwritten (c : Dev nD) (b : Ref sig .tc)
    (h : b ∉ ([main_v0, main_v1, main_v2, main_v3] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, Finset.mem_singleton]
    refine ⟨?_, ?_, ?_, ?_⟩
    · exact StableHlo.devRef_ne_of_ne (List.ne_of_not_mem_cons h)
    · exact StableHlo.devRef_ne_of_ne (List.ne_of_not_mem_cons (List.not_mem_of_not_mem_cons h))
    · exact StableHlo.devRef_ne_of_ne (List.ne_of_not_mem_cons (List.not_mem_of_not_mem_cons (List.not_mem_of_not_mem_cons h)))
    · exact StableHlo.devRef_ne_of_ne (List.ne_of_not_mem_cons (List.not_mem_of_not_mem_cons (List.not_mem_of_not_mem_cons (List.not_mem_of_not_mem_cons h))))))

/-- An argument array is written by no host operation and staged by no region. -/
theorem W4_arg (c : Dev nD) (b : Ref sig .tc) (h1 : ∀ w, Pipeline.arrRef spec1 w ≠ b)
    (h2 : b ∉ ([main_v5, main_v6, main_v7] : List (Ref sig .tc))) (h3 : ∀ w, Pipeline.arrRef spec0 w ≠ b)
    (h4 : b ∉ ([main_v0, main_v1, main_v2, main_v3] : List (Ref sig .tc))) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := W3_of_unwritten m ρ c b h2
    _ = W1 m ρ c (Proc.devRef .tc b) := W2_of_ne m ρ c b h3
    _ = W0 m ρ c (Proc.devRef .tc b) := W1_of_unwritten m ρ c b h4
    _ = m ((c : Thread nD τ).loc b) := rfl

theorem W4_main_arg0 (c : Dev nD) : W4 m ρ c (Proc.devRef .tc main_arg0) = m ((c : Thread nD τ).loc main_arg0) :=
  W4_arg m ρ c main_arg0 (by decide) (by decide) (by decide) (by decide)
theorem W4_main_arg1 (c : Dev nD) : W4 m ρ c (Proc.devRef .tc main_arg1) = m ((c : Thread nD τ).loc main_arg1) :=
  W4_arg m ρ c main_arg1 (by decide) (by decide) (by decide) (by decide)
theorem W4_main_arg2 (c : Dev nD) : W4 m ρ c (Proc.devRef .tc main_arg2) = m ((c : Thread nD τ).loc main_arg2) :=
  W4_arg m ρ c main_arg2 (by decide) (by decide) (by decide) (by decide)
theorem W4_main_arg3 (c : Dev nD) : W4 m ρ c (Proc.devRef .tc main_arg3) = m ((c : Thread nD τ).loc main_arg3) :=
  W4_arg m ρ c main_arg3 (by decide) (by decide) (by decide) (by decide)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4. Its invariant
    carries the three scratch buffers: at entry they hold anything, at exit they are forgotten again. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (phi_in1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    iintro H
    ihave H' := (phi_out1 (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the output array ends at what the attention region's write-backs leave. -/
theorem run_value : θ_run defs (onTc (τ := τ) (main (F := F))) ⟨m, fun _ => 0, ρ⟩ (fun r => ∀ c : Dev nD,
      r.2.mem ((c.tc : Thread nD τ).loc main_v8) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.BRegion0.lean ====
/- Region 0 of @main (the projection kernel: one block of x against three whole weight matrices, giving the
   q, k and v blocks) at a parameter `V`, the TensorCore's buffer contents when the region is entered: each
   window's block at a point, what the body leaves in each output's buffer (its one whole-buffer store, which is
   the store's payload of the blocks), the body's triple, the pipeline's proof data and its body obligation. -/
import proofs.«148900_j618475290737_2_alg».proof.Proof.Gen.Kernel.Launch
import proofs.«148900_j618475290737_2_alg».proof.Proof.Gen.Kernel.Skeleton
import proofs.«148900_j618475290737_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: where the window is not fetched its block
    index has not moved, so the block of the point before is this point's. Window 0 (the x block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the first weight matrix, whole, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the second weight matrix). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3 (the third weight matrix). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The whole 512×1024 buffer as a rectangle: unit strides, zero offsets, the buffer's own sizes. -/
abbrev r0_0 : Rect S512x1024 := Rect.unit (s := S512x1024) ![0, 0] S512x1024.size inb_S512x1024_S512x1024_0_0
/-- The whole 1024×1024 buffer likewise. -/
abbrev r0_1 : Rect S1024x1024 := Rect.unit (s := S1024x1024) ![0, 0] S1024x1024.size inb_S1024x1024_S1024x1024_0_0

/-- The zero offsets, as the constant function. -/
theorem zeros2 : (![0, 0] : Fin 2 → Nat) = fun _ => 0 := funext fun a => by fin_cases a <;> rfl

/-! ## What the body leaves in each output window's buffer -/

/-- The q block's staging buffer after the body, from the x block and the first weight matrix: its one store. -/
def out0_4 (x0 : Vec F S512x1024 .f32) (x1 : Vec F S1024x1024 .bf16) : Vec F S512x1024 .bf16 :=
  View.canon [⟨r0_0, k0_pay2 (View.ld x0 r0_0) (View.ld x1 r0_1)⟩]
/-- The k block's, from the x block and the second weight matrix. -/
def out0_5 (x0 : Vec F S512x1024 .f32) (x2 : Vec F S1024x1024 .bf16) : Vec F S512x1024 .bf16 :=
  View.canon [⟨r0_0, k0_pay3 (View.ld x0 r0_0) (View.ld x2 r0_1)⟩]
/-- The v block's, from the x block and the third weight matrix. -/
def out0_6 (x0 : Vec F S512x1024 .f32) (x3 : Vec F S1024x1024 .bf16) : Vec F S512x1024 .bf16 :=
  View.canon [⟨r0_0, k0_pay4 (View.ld x0 r0_0) (View.ld x3 r0_1)⟩]

/-- One store over the whole buffer leaves its payload, and a load of a whole buffer reads the buffer. -/
theorem out0_4_eq (x0 : Vec F S512x1024 .f32) (x1 : Vec F S1024x1024 .bf16) : out0_4 x0 x1 = k0_pay2 x0 x1 := by
  unfold out0_4
  rw [View.canon_unit_zero zeros2]
  simp only [View.ld_unit_zero (S := S512x1024) zeros2, View.ld_unit_zero (S := S1024x1024) zeros2]
theorem out0_5_eq (x0 : Vec F S512x1024 .f32) (x2 : Vec F S1024x1024 .bf16) : out0_5 x0 x2 = k0_pay3 x0 x2 := by
  unfold out0_5
  rw [View.canon_unit_zero zeros2]
  simp only [View.ld_unit_zero (S := S512x1024) zeros2, View.ld_unit_zero (S := S1024x1024) zeros2]
theorem out0_6_eq (x0 : Vec F S512x1024 .f32) (x3 : Vec F S1024x1024 .bf16) : out0_6 x0 x3 = k0_pay4 x0 x3 := by
  unfold out0_6
  rw [View.canon_unit_zero zeros2]
  simp only [View.ld_unit_zero (S := S512x1024) zeros2, View.ld_unit_zero (S := S1024x1024) zeros2]

/-- The one whole-buffer store covers the buffer: every index is in its rectangle. -/
theorem cover0 (p0 : Vec F S512x1024 .bf16) (y : S512x1024.Idx) :
    ∃ pc ∈ ([⟨r0_0, p0⟩] : List (View.Piece (Elt F) S512x1024 .bf16)), y ∈ pc.1.set :=
  ⟨_, List.mem_singleton_self _, View.mem_set_unit_zero zeros2 inb_S512x1024_S512x1024_0_0 y⟩

/-! ## The body's triple -/

set_option maxHeartbeats 1000000 in
/-- The kernel body on whole staging memrefs, the inputs' at read contents and the outputs' at anything, runs to the
    continuation holding the inputs' as they were and each output's at its one store's payload of the inputs'. The
    body loads each output buffer before storing it; what it reads there is never used. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of pipeline 0 on core `c`: the arrays as the region finds them (`V`); after the body at point
    `t` each input's buffer at its block and each output's at its store's payload of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegion1.lean ====
/- Region 1 of the frame certificate: the causal flash-attention kernel's half — the three scratch buffers' trajectory
   over the grid, what the output window's buffer holds after each point, the kernel body's triple in each of its
   control cases, the pipeline's proof data and its body obligation — at a parameter `V`, the TensorCore's buffer
   contents when the region is entered. -/
import proofs.«148900_j618475290737_2_alg».proof.Proof.Gen.Kernel.Launch
import proofs.«148900_j618475290737_2_alg».proof.Proof.Gen.Kernel.Skeleton
import proofs.«148900_j618475290737_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Whole-buffer loads and stores

Every access of the kernel is through the unit rectangle at zero offsets of the buffer's own sizes: a load reads the
contents, a store leaves its payload whatever was stored before. -/

theorem zeros3 : (![0, 0, 0] : Fin 3 → ℕ) = fun _ => 0 := by funext a; fin_cases a <;> rfl

section Whole
variable {sig' : RefSig} {κ' : Kind} {sp' : Space} {S : Shape} {e : EltTy} {Val : EltTy → Type}

/-- Every index lies in the last-stored whole-buffer piece. -/
theorem cover_cons_whole {off : Fin S.rank → ℕ} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-- A whole-buffer load after a whole-buffer store reads that store's payload. -/
theorem readCov_cons_whole [∀ e, Nonempty (Val e)] (v : View sig' κ' sp' S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (cover_cons_whole h inb w L), View.canon_cons_unit_zero h inb, View.ld_unit_zero h inb]

/-- What a buffer reads after a whole-buffer store, the last of its stores: that store's payload. -/
theorem read_writes_cons_whole [∀ e, Nonempty (Val e)] (v : View sig' κ' sp' S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_cons_whole h inb w L), View.canon_cons_unit_zero h inb]

/-- A whole-buffer load of a whole memref held at the contents that read `X` reads `X`. -/
theorem readAt_whole_unread {m : Memref sig' κ' sp' S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h inb]

end Whole

/-- Closes `read (what the body left in a buffer) = the stated contents`: every whole-buffer load resolved to the
    contents it reads, every whole-buffer store to its payload. -/
macro "close_read" : tactic => `(tactic| (
  sl_unfold_run_names
  try simp only [read_writes_cons_whole (S := S1x512x1) _ _ zeros3, read_writes_cons_whole (S := S1x512x1024) _ _ zeros3,
    readCov_cons_whole (S := S1x512x1) _ zeros3, readCov_cons_whole (S := S1x512x1024) _ zeros3,
    View.readAt_eq_ld, Memref.view_whole, View.read_whole, Memref.IsWhole.read_unread,
    View.ld_unit_zero (S := S1x512x1) zeros3, View.ld_unit_zero (S := S1x512x1024) zeros3, View.writes_nil]
  try assumption))

section Region1

variable (V : (c : Dev nD) → (b : Ref sig .tc) → Buf (Elt F) ((c : Thread nD τ).loc b))

/-! ## The body's three tests on the grid coordinates -/

/-- The key block is the first (`ki = 0`): the scratch buffers are reset. As the kernel computes it. -/
abbrev cond1_1 (i : grid1.Coords) : Prop :=
  (Scalar.cmpi .ne (Scalar.extui (Scalar.cmpi .eq (BitVec.ofNat 32 (i 2).val) 0#32)) 0#32) = 1#1
/-- The key block is not after the query block (`ki ≤ qi`): it is folded into the scratch buffers. -/
abbrev cond1_2 (i : grid1.Coords) : Prop :=
  (Scalar.cmpi .ne (Scalar.extui (Scalar.cmpi .sle (BitVec.ofNat 32 (i 2).val) (BitVec.ofNat 32 (i 1).val))) 0#32) = 1#1
/-- The key block is the query block's own (`ki = qi`, the diagonal): the output block is stored. -/
abbrev cond1_3 (i : grid1.Coords) : Prop := k1_cond3 i = 1#1

/-- The three tests in closed form over the point's position, decided over the 64 points. -/
theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 ≤ t.val / 4 % 4 :=
  (by decide +kernel : ∀ t : Fin grid1.N, cond1_2 (grid1.coords t) ↔ t.val % 4 ≤ t.val / 4 % 4)
theorem hcond1_3 : ∀ t : Fin cfg1.N, cond1_3 (grid1.coords t) ↔ t.val % 4 = t.val / 4 % 4 :=
  (by decide +kernel : ∀ t : Fin grid1.N, cond1_3 (grid1.coords t) ↔ t.val % 4 = t.val / 4 % 4)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch buffers' trajectory -/

/-- The contents of the three scratch buffers: the running maximum `m`, the normalizer `l`, the accumulator `acc`. -/
abbrev Sc (F : FTy → Type) : Type := FVec F S1x512x1 .f32 × FVec F S1x512x1 .f32 × FVec F S1x512x1024 .f32

/-- ONE POINT'S EFFECT on the scratch buffers, at coordinates `i`, from the query, key and value blocks: reset where
    `ki = 0`; then, where `ki ≤ qi`, the new maximum, the rescaled normalizer plus this block's row sums, the rescaled
    accumulator plus this block's weighted values — each from the contents the reset left. -/
def stepSc (i : grid1.Coords) (q k v : Vec F S1x512x1024 .bf16) (s : Sc F) : Sc F :=
  let a1 : BitVec 32 := BitVec.ofNat 32 (i 1).val
  let a2 : BitVec 32 := BitVec.ofNat 32 (i 2).val
  let s0 : Sc F := if cond1_1 i then (k1_pay1, k1_pay2, k1_pay3) else s
  if cond1_2 i then
    (k1_pay5 (k1_pay8 a1 a2 q k s0.1),
     k1_pay11 a1 a2 q k s0.1 s0.1 s0.2.1,
     k1_pay4 (k1_pay9 a1 a2 q k s0.1 s0.1) (k1_pay10 a1 a2 q k s0.1) s0.2.2 v)
  else s0

/-- The scratch buffers BEFORE the point at position `n` (after the one at `n - 1`): before the first point anything
    (that point resets them), then one step per point over the windows' blocks. -/
def scAt (c : Dev nD) : ℕ → Sc F
  | 0 => (k1_pay1, k1_pay2, k1_pay3)
  | n + 1 =>
    if h : n < cfg1.N then
      stepSc (grid1.coords ⟨n, h⟩) (iblk1 V c 0 ⟨n, h⟩) (iblk1 V c 1 ⟨n, h⟩) (iblk1 V c 2 ⟨n, h⟩) (scAt c n)
    else scAt c n

theorem scAt_succ (c : Dev nD) (t : Fin cfg1.N) :
    scAt V c (t.val + 1) = stepSc (grid1.coords t) (iblk1 V c 0 t) (iblk1 V c 1 t) (iblk1 V c 2 t) (scAt V c t.val) := by
  rw [scAt, dif_pos t.isLt]

/-! ## The output window's buffer -/

/-- What the output window's current buffer holds after the body at position `n`: on the diagonal the accumulator over
    the normalizer, as the point leaves them; elsewhere what it held (the body stores nothing into it there). -/
def out1N (c : Dev nD) : ℕ → FVec F S1x512x1024 .f32
  | 0 => k1_pay6 (scAt V c 1).2.2 (scAt V c 1).2.1
  | n + 1 =>
    if h : n + 1 < cfg1.N then
      if cond1_3 (grid1.coords ⟨n + 1, h⟩) then k1_pay6 (scAt V c (n + 2)).2.2 (scAt V c (n + 2)).2.1 else out1N c n
    else out1N c n

/-- The same at a point. -/
def out1 (c : Dev nD) (t : Fin cfg1.N) : FVec F S1x512x1024 .f32 := out1N V c t.val

/-- On the diagonal: this point's quotient. -/
theorem out1_diag (c : Dev nD) (t : Fin cfg1.N) (h : cond1_3 (grid1.coords t)) :
    out1 V c t = k1_pay6 (scAt V c (t.val + 1)).2.2 (scAt V c (t.val + 1)).2.1 := by
  obtain ⟨n, hn⟩ := t
  cases n with
  | zero => unfold out1; rw [out1N]
  | succ n => unfold out1; rw [out1N, dif_pos hn, if_pos h]

/-- Off the diagonal: what the point before left. -/
theorem out1_off (c : Dev nD) (t : Fin cfg1.N) (h : ¬cond1_3 (grid1.coords t)) :
    out1 V c t = out1N V c (t.val - 1) := by
  obtain ⟨n, hn⟩ := t
  cases n with
  | zero => exact absurd ((hcond1_3 ⟨0, hn⟩).mpr (show (0 : ℕ) % 4 = 0 / 4 % 4 from by decide)) h
  | succ n => unfold out1; rw [out1N, dif_pos hn, if_neg h]; rfl

/-! ## The pipeline's proof data -/

/-- The scratch operands: whole scoped buffers of the kernel's own, passed beside the windows. -/
abbrev scM0 : Memref sig .tc .vmem S1x512x1 .f32 := Memref.whole cc1_scratch0
abbrev scM1 : Memref sig .tc .vmem S1x512x1 .f32 := Memref.whole cc1_scratch1
abbrev scM2 : Memref sig .tc .vmem S1x512x1024 .f32 := Memref.whole cc1_scratch2

/-- The core's scoped buffers that are neither a staging buffer of this pipeline nor a scratch buffer of its kernel
    (the other pipeline's staging buffers), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region invariant before position `n`: the scratch buffers at contents `s` that are the trajectory's unless
    `n = 0` (nothing is known of them when the region is entered), the other scoped buffers at some contents, the
    generator register at some state. -/
def Phi1 (c : Dev nD) (n : ℕ) : sProp 𝕄 :=
  iprop(∃ s : Sc F, ⌜n = 0 ∨ s = scAt V c n⌝ ∗ (rest1 (F := F) c ∗ (∃ r, prngReg c r))
    ∗ owns (c : Thread nD τ) scM0 fullShare s.1 ∗ owns (c : Thread nD τ) scM1 fullShare s.2.1 ∗ owns (c : Thread nD τ) scM2 fullShare s.2.2)

/-- The proof data of pipeline 1 on core `c`: the arrays as the region finds them (`V`); after the body at point `t`
    each input's buffer at its block and the output's at `out1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-! ## The body's triple, case by case

Each case's triple states what the body leaves in terms of `stepSc`, whose conditionals the case's hypotheses decide. -/

set_option maxHeartbeats 4000000 in
theorem run1_TTT (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : cond1_1 i) (hc2 : cond1_2 i) (hc3 : cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (k1_pay5 (k1_pay8 (BitVec.ofNat 32 (i 1).val) (BitVec.ofNat 32 (i 2).val) q k k1_pay1),
      k1_pay11 (BitVec.ofNat 32 (i 1).val) (BitVec.ofNat 32 (i 2).val) q k k1_pay1 k1_pay1 k1_pay2,
      k1_pay4 (k1_pay9 (BitVec.ofNat 32 (i 1).val) (BitVec.ofNat 32 (i 2).val) q k k1_pay1 k1_pay1) (k1_pay10 (BitVec.ofNat 32 (i 1).val) (BitVec.ofNat 32 (i 2).val) q k k1_pay1) k1_pay3 v) := by
    unfold stepSc; simp only [if_pos hc1, if_pos hc2]
  rw [hstep, if_pos hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

set_option maxHeartbeats 4000000 in
theorem run1_TTF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : cond1_1 i) (hc2 : cond1_2 i) (hc3 : ¬cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (k1_pay5 (k1_pay8 (BitVec.ofNat 32 (i 1).val) (BitVec.ofNat 32 (i 2).val) q k k1_pay1),
      k1_pay11 (BitVec.ofNat 32 (i 1).val) (BitVec.ofNat 32 (i 2).val) q k k1_pay1 k1_pay1 k1_pay2,
      k1_pay4 (k1_pay9 (BitVec.ofNat 32 (i 1).val) (BitVec.ofNat 32 (i 2).val) q k k1_pay1 k1_pay1) (k1_pay10 (BitVec.ofNat 32 (i 1).val) (BitVec.ofNat 32 (i 2).val) q k k1_pay1) k1_pay3 v) := by
    unfold stepSc; simp only [if_pos hc1, if_pos hc2]
  rw [hstep, if_neg hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

set_option maxHeartbeats 4000000 in
theorem run1_FTT (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : ¬cond1_1 i) (hc2 : cond1_2 i) (hc3 : cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (k1_pay5 (k1_pay8 (BitVec.ofNat 32 (i 1).val) (BitVec.ofNat 32 (i 2).val) q k m),
      k1_pay11 (BitVec.ofNat 32 (i 1).val) (BitVec.ofNat 32 (i 2).val) q k m m l,
      k1_pay4 (k1_pay9 (BitVec.ofNat 32 (i 1).val) (BitVec.ofNat 32 (i 2).val) q k m m) (k1_pay10 (BitVec.ofNat 32 (i 1).val) (BitVec.ofNat 32 (i 2).val) q k m) a v) := by
    unfold stepSc; simp only [if_neg hc1, if_pos hc2]
  rw [hstep, if_pos hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

set_option maxHeartbeats 4000000 in
theorem run1_FTF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : ¬cond1_1 i) (hc2 : cond1_2 i) (hc3 : ¬cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (k1_pay5 (k1_pay8 (BitVec.ofNat 32 (i 1).val) (BitVec.ofNat 32 (i 2).val) q k m),
      k1_pay11 (BitVec.ofNat 32 (i 1).val) (BitVec.ofNat 32 (i 2).val) q k m m l,
      k1_pay4 (k1_pay9 (BitVec.ofNat 32 (i 1).val) (BitVec.ofNat 32 (i 2).val) q k m m) (k1_pay10 (BitVec.ofNat 32 (i 1).val) (BitVec.ofNat 32 (i 2).val) q k m) a v) := by
    unfold stepSc; simp only [if_neg hc1, if_pos hc2]
  rw [hstep, if_neg hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

set_option maxHeartbeats 4000000 in
theorem run1_FFF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hc1 : ¬cond1_1 i) (hc2 : ¬cond1_2 i) (hc3 : ¬cond1_3 i)
    (q k v : Vec F S1x512x1024 .bf16) (o : Vec F S1x512x1024 .f32) (s : Sc F)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare (if cond1_3 i then k1_pay6 (stepSc i q k v s).2.2 (stepSc i q k v s).2.1 else o)
            ∗ owns (c : Thread nD τ) scM0 fullShare (stepSc i q k v s).1 ∗ owns (c : Thread nD τ) scM1 fullShare (stepSc i q k v s).2.1
            ∗ owns (c : Thread nD τ) scM2 fullShare (stepSc i q k v s).2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  obtain ⟨m, l, a⟩ := s
  have hstep : stepSc i q k v (m, l, a) = (m, l, a) := by
    unfold stepSc; simp only [if_neg hc1, if_neg hc2]
  rw [hstep, if_neg hc3]
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%g0, %hg0, S0⟩, ⟨%g1, %hg1, S1⟩, ⟨%g2, %hg2, S2⟩, Hk⟩
  obtain rfl := harg3.eq_unread hf3; obtain rfl := harg4.eq_unread hf4; obtain rfl := harg5.eq_unread hf5; obtain rfl := harg6.eq_unread hf6
  have e0 : g0 = m := by simpa only [Memref.view_whole, View.read_whole] using hg0
  have e1 : g1 = l := by simpa only [Memref.view_whole, View.read_whole] using hg1
  have e2 : g2 = a := by simpa only [Memref.view_whole, View.read_whole] using hg2
  subst e0 e1 e2
  sl_exec (disch := first | exact hc1 | exact hc2 | exact hc3)
  sl_step
  iapply Hk
  isplitl [H3]
  · iexists _; isplitr; swap; · iexact H3
    ipureintro; close_read
  isplitl [H4]
  · iexists _; isplitr; swap; · iexact H4
    ipureintro; close_read
  isplitl [H5]
  · iexists _; isplitr; swap; · iexact H5
    ipureintro; close_read
  isplitl [H6]
  · iexists _; isplitr; swap; · iexact H6
    ipureintro; close_read
  isplitl [S0]
  · iexists _; isplitr; swap; · iexact S0
    ipureintro; close_read
  isplitl [S1]
  · iexists _; isplitr; swap; · iexact S1
    ipureintro; close_read
  iexists _; isplitr; swap; · iexact S2
  ipureintro; close_read

/-! ## The body's triple, whatever the case -/

/-- The kernel body at coordinates whose tests are related as on the grid (`ki = 0` or `ki = qi` gives `ki ≤ qi`), on
    whole staging memrefs — the inputs' at `q`, `k`, `v`, the output's at `o` — and the scratch buffers at `s`, runs to
    the continuation holding the inputs' as they were, the scratch buffers one step on (`s'`), the output's at the
    quotient of the new accumulator by the new normalizer on the diagonal and as it was elsewhere (`o'`). -/
theorem sound_kernel1 (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (hp1 : cond1_1 i → cond1_2 i) (hp3 : cond1_3 i → cond1_2 i)
    (q k v : Vec F S1x512x1024 .bf16) (o : Vec F S1x512x1024 .f32) (s : Sc F)
    (s' : Sc F) (hs' : s' = stepSc i q k v s) (o' : Vec F S1x512x1024 .f32)
    (ho' : o' = if cond1_3 i then k1_pay6 (stepSc i q k v s).2.2 (stepSc i q k v s).2.1 else o)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) scM0 fullShare s.1 ∗ owns (c : Thread nD τ) scM1 fullShare s.2.1 ∗ owns (c : Thread nD τ) scM2 fullShare s.2.2
        ∗ (iprop(owns (c : Thread nD τ) arg3 fullShare q ∗ owns (c : Thread nD τ) arg4 fullShare k ∗ owns (c : Thread nD τ) arg5 fullShare v
            ∗ owns (c : Thread nD τ) arg6 fullShare o'
            ∗ owns (c : Thread nD τ) scM0 fullShare s'.1 ∗ owns (c : Thread nD τ) scM1 fullShare s'.2.1
            ∗ owns (c : Thread nD τ) scM2 fullShare s'.2.2) -∗ K ⟨⟩))
      ⊢ wp frame (wpE (defs₀ (F := F)) Variants.none c none) E (cc1_kernel i arg3 harg3 arg4 harg4 arg5 harg5 arg6 harg6 scM0 (Memref.isWhole_whole _) scM1 (Memref.isWhole_whole _) scM2 (Memref.isWhole_whole _)) K := by
  subst hs' ho'
  by_cases hc1 : cond1_1 i
  · have hc2 := hp1 hc1
    by_cases hc3 : cond1_3 i
    · exact run1_TTT c E i arg3 harg3 arg4 harg4 arg5 harg5 arg6 harg6 hc1 hc2 hc3 q k v o s K
    · exact run1_TTF c E i arg3 harg3 arg4 harg4 arg5 harg5 arg6 harg6 hc1 hc2 hc3 q k v o s K
  · by_cases hc2 : cond1_2 i
    · by_cases hc3 : cond1_3 i
      · exact run1_FTT c E i arg3 harg3 arg4 harg4 arg5 harg5 arg6 harg6 hc1 hc2 hc3 q k v o s K
      · exact run1_FTF c E i arg3 harg3 arg4 harg4 arg5 harg5 arg6 harg6 hc1 hc2 hc3 q k v o s K
    · exact run1_FFF c E i arg3 harg3 arg4 harg4 arg5 harg5 arg6 harg6 hc1 hc2 (fun h => hc2 (hp3 h)) q k v o s K

/-! ## The scratch trajectory at a point -/

/-- Where the scratch buffers are reset the step does not read them. -/
theorem stepSc_reset (i : grid1.Coords) (h : cond1_1 i) (q k v : Vec F S1x512x1024 .bf16) (s s' : Sc F) :
    stepSc i q k v s = stepSc i q k v s' := by
  unfold stepSc; simp only [if_pos h]

/-- One step from contents that are the trajectory's — or anything at the first point, which resets them — is the
    trajectory's next. -/
theorem step_eq (c : Dev nD) (t : Fin cfg1.N) (s : Sc F) (hs : t.val = 0 ∨ s = scAt V c t.val) :
    scAt V c (t.val + 1) = stepSc (grid1.coords t) (iblk1 V c 0 t) (iblk1 V c 1 t) (iblk1 V c 2 t) s := by
  rw [scAt_succ]
  rcases hs with h0 | rfl
  · exact stepSc_reset _ ((hcond1_1 t).mpr (by rw [h0])) _ _ _ _ _
  · rfl

/-! ## Where the output window is idle, and what its buffer holds there -/

/-- The output window is live exactly on the diagonal (the printed configuration's table). -/
theorem live1_3 (i : grid1.Coords) (h : cond1_3 i) : cfg1.idle 3 i = false := by
  show (!(k1_cond3 i == 1#1)) = false
  rw [h]; rfl
theorem idle1_3 (i : grid1.Coords) (h : ¬cond1_3 i) : cfg1.idle 3 i = true := by
  show (!(k1_cond3 i == 1#1)) = true
  rw [Bool.not_eq_true', beq_eq_false_iff_ne]; exact h
theorem not_cond_of_idle1_3 (i : grid1.Coords) (h : cfg1.idle 3 i = true) : ¬cond1_3 i := fun hc => by
  rw [live1_3 i hc] at h; exact Bool.false_ne_true h

/-- Where the output window is idle and yet written back (the group's last point, past the diagonal), its buffer is
    not fresh: the diagonal's store is in it. Decided over the grid. -/
theorem notFresh1_3 : ∀ t : Fin cfg1.N, cfg1.idle 3 (grid1.coords t) = true → (cfg1.win 3).flush t = true → cfg1.fresh 3 t.val = false :=
  (by decide +kernel : ∀ t : Fin grid1.N, cfg1.idle 3 (grid1.coords t) = true → win1_3.flush t = true → cfg1.fresh 3 t.val = false)

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The output's current buffer when the body runs: anything where nothing was stored since the last write-back, else
    what the point before left — the stated contents carry through the idle points. -/
theorem before1_3 (c : Dev nD) (t : Fin cfg1.N) (d) :
    (dat1 V c).before 3 t d = if cfg1.fresh 3 t.val then d else (dat1 V c).after 3 ⟨t.val - 1, Nat.lt_of_le_of_lt (Nat.sub_le _ _) t.isLt⟩ :=
  (dat1 V c).before_out_traj 3 rfl (fun _ _ => rfl)
    (fun t ht hi _ => by rw [after1_3, after1_3, out1_off V c t (not_cond_of_idle1_3 _ hi)]; rfl) t.val t rfl d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point, given what the output window's buffer is to be left at (`o'`: the quotient on the diagonal,
    what it held elsewhere): the inputs' memrefs hold their blocks, the invariant hands over the scratch buffers at the
    trajectory's contents (anything at the first point, which resets them) and takes them back one step on. -/
theorem sound_body1_at (c : Dev nD) (t : Fin cfg1.N) (Q : sProp 𝕄)
    (o' : (Vec F S1x512x1024 .f32) → Vec F S1x512x1024 .f32)
    (ho' : ∀ d, o' d = if cond1_3 (grid1.coords t) then k1_pay6 (scAt V c (t.val + 1)).2.2 (scAt V c (t.val + 1)).2.1 else (dat1 V c).before 3 t d)
    (hQ : ∀ d, owns (c : Thread nD τ) (st1_3 t) fullShare (o' d) ⊢ Q) :
    iprop(Phi1 V c t.val ∗ (dat1 V c).owesAt () t.castSucc
        ∗ (∃ d : (cfg1.win 0).block.Idx → Elt F (cfg1.win 0).elt, owns (c : Thread nD τ) (st1_0 t) fullShare (iblk1 V c 0 t))
        ∗ (∃ d : (cfg1.win 1).block.Idx → Elt F (cfg1.win 1).elt, owns (c : Thread nD τ) (st1_1 t) fullShare (iblk1 V c 1 t))
        ∗ (∃ d : (cfg1.win 2).block.Idx → Elt F (cfg1.win 2).elt, owns (c : Thread nD τ) (st1_2 t) fullShare (iblk1 V c 2 t))
        ∗ (∃ d : (cfg1.win 3).block.Idx → Elt F (cfg1.win 3).elt, owns (c : Thread nD τ) (st1_3 t) fullShare ((dat1 V c).before 3 t d)))
      ⊢ wp frame (wpE (defs₀ (F := F)) Variants.none c none) Set.univ (bodyAt1 t) (fun _ =>
          iprop(Phi1 V c (t.val + 1) ∗ (dat1 V c).owesAt () t.castSucc
            ∗ owns (c : Thread nD τ) (st1_0 t) fullShare (iblk1 V c 0 t)
            ∗ owns (c : Thread nD τ) (st1_1 t) fullShare (iblk1 V c 1 t)
            ∗ owns (c : Thread nD τ) (st1_2 t) fullShare (iblk1 V c 2 t)
            ∗ Q)) := by
  have hp1 : cond1_1 (grid1.coords t) → cond1_2 (grid1.coords t) := fun h =>
    (hcond1_2 t).mpr (by have := (hcond1_1 t).mp h; omega)
  have hp3 : cond1_3 (grid1.coords t) → cond1_2 (grid1.coords t) := fun h =>
    (hcond1_2 t).mpr (by have := (hcond1_3 t).mp h; omega)
  unfold Phi1 bodyAt1
  iintro ⟨⟨%s, %hs, Hrest, S0, S1, S2⟩, Ho, ⟨%d0, H0⟩, ⟨%d1, H1⟩, ⟨%d2, H2⟩, ⟨%d3, H3⟩⟩
  have hstep := step_eq V c t s hs
  iapply (sound_kernel1 c Set.univ (grid1.coords t) _ _ _ _ _ _ _ _ hp1 hp3 (iblk1 V c 0 t) (iblk1 V c 1 t) (iblk1 V c 2 t)
    ((dat1 V c).before 3 t d3) s (scAt V c (t.val + 1)) hstep (o' d3) (by rw [ho' d3, hstep]) _)
  isplitl [H0]; · iexact H0
  isplitl [H1]; · iexact H1
  isplitl [H2]; · iexact H2
  isplitl [H3]; · iexact H3
  isplitl [S0]; · iexact S0
  isplitl [S1]; · iexact S1
  isplitl [S2]; · iexact S2
  iintro ⟨H0, H1, H2, H3, S0, S1, S2⟩
  isplitl [Hrest S0 S1 S2]
  · iexists (scAt V c (t.val + 1))
    isplitr; · ipureintro; exact .inr rfl
    isplitl [Hrest]; · iexact Hrest
    isplitl [S0]; · iexact S0
    isplitl [S1]; · iexact S1
    iexact S2
  isplitl [Ho]; · iexact Ho
  isplitl [H0]; · iexact H0
  isplitl [H1]; · iexact H1
  isplitl [H2]; · iexact H2
  iapply (hQ d3)
  iexact H3

set_option maxHeartbeats 1000000 in
/-- The body at any point. The output window: on the diagonal it is live and left at the quotient; elsewhere it is idle
    and untouched — which is what is asked where the point does not write it back, and where it does (the group's last
    point, past the diagonal) the buffer still holds the diagonal's quotient, which the stated contents carry. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  by_cases hc3 : cond1_3 (grid1.coords t)
  · -- the diagonal: live, left at the quotient
    rw [show (dat1 V c).leavesExact 3 t = owns (c : Thread nD τ) (st1_3 t) fullShare ((dat1 V c).after 3 t) from by
      unfold Dat.leavesExact; rw [live1_3 _ hc3], after1_3, out1_diag V c t hc3]
    exact sound_body1_at V c t _ (fun _ => k1_pay6 (scAt V c (t.val + 1)).2.2 (scAt V c (t.val + 1)).2.1)
      (fun d => (if_pos hc3).symm) (fun _ => Idealize.SL.BI.Entails.refl _)
  · have hi := idle1_3 _ hc3
    by_cases hf : (cfg1.win 3).flush t = true
    · -- idle and written back: the buffer holds what the point before left, which is what is stated of this point
      rw [show (dat1 V c).leavesExact 3 t = owns (c : Thread nD τ) (st1_3 t) fullShare ((dat1 V c).after 3 t) from by
        unfold Dat.leavesExact; rw [hi, hf]]
      exact sound_body1_at V c t _ (fun _ => (dat1 V c).after 3 t)
        (fun d => by
          rw [if_neg hc3, before1_3, notFresh1_3 t hi hf, if_neg Bool.false_ne_true, after1_3, after1_3, out1_off V c t hc3]; rfl)
        (fun _ => Idealize.SL.BI.Entails.refl _)
    · -- idle, not written back: handed back as found
      rw [Bool.not_eq_true] at hf
      rw [Dat.leavesExact_idle (dat1 V c) 3 t hi hf]
      exact sound_body1_at V c t _ (fun d => (dat1 V c).before 3 t d) (fun d => (if_neg hc3).symm)
        (fun d => by iintro H; iexists d; iexact H)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region — the generator register and the scoped rest, the scratch buffers at anything — is
    the invariant before the first point. -/
theorem phi_in1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [scopedRest1_eq, show (dat1 V c).Φ 0 = Phi1 V c 0 from rfl]
  unfold Phi1 rest1
  simp only [scM0, scM1, scM2, owns_whole]
  iintro ⟨Hg, B0, B1, B2, B3, B4, B5, B6, B7, B8, B9, B10, ⟨%f0, S0⟩, ⟨%f1, S1⟩, ⟨%f2, S2⟩⟩
  iexists ((f0, f1, f2) : Sc F)
  isplitr; · ipureintro; first | exact .inl rfl | exact .inl trivial | exact trivial
  isplitl [Hg B0 B1 B2 B3 B4 B5 B6 B7 B8 B9 B10]
  · isplitr [Hg]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hg
  isplitl [S0]; · iexact S0
  isplitl [S1]; · iexact S1
  iexact S2

/-- After the last point the invariant gives the scoped rest back: the scratch buffers' contents are forgotten. -/
theorem phi_out1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [scopedRest1_eq, show (dat1 V c).Φ (Fin.last cfg1.N) = Phi1 V c (Fin.last cfg1.N).val from rfl]
  unfold Phi1 rest1
  simp only [scM0, scM1, scM2, owns_whole]
  iintro ⟨%s, -, ⟨⟨B0, B1, B2, B3, B4, B5, B6, B7, B8, B9, B10⟩, Hg⟩, S0, S1, S2⟩
  isplitl [Hg]; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [S0]; · iexists _; iexact S0
  isplitl [S1]; · iexists _; iexact S1
  iexists _; iexact S2

end Region1

end Cert.Kernel.Hand

end
-- ==== Proof.BRun.lean ====
/-
  The run of @main over its four segments — a stretch of host operations, the projection region, a stretch of host
  reshapes, the attention region — from the launch to the return.

  The contents of every unscoped buffer at each segment boundary are a fold through @main from the launch memory: a host
  stretch applies its operations; a region leaves its windows' arrays at what its write-backs produce and every other
  buffer as it found it. No operation and no region writes an argument array, so the fold read at an argument walks back
  to the launch memory; and the last boundary's contents are what every final state holds.
-/
import proofs.«148900_j618475290737_2_alg».proof.Proof.BRegion0
import proofs.«148900_j618475290737_2_alg».proof.Proof.BRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### A buffer no host operation writes and no region stages is, at the end, what it was at launch -/

theorem W3_of_unwritten (c : Dev nD) (b : Ref sig .tc)
    (h : b ∉ ([main_v5, main_v6, main_v7] : List (Ref sig .tc))) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, Finset.mem_singleton]
    refine ⟨?_, ?_, ?_⟩
    · exact StableHlo.devRef_ne_of_ne (List.ne_of_not_mem_cons h)
    · exact StableHlo.devRef_ne_of_ne (List.ne_of_not_mem_cons (List.not_mem_of_not_mem_cons h))
    · exact StableHlo.devRef_ne_of_ne (List.ne_of_not_mem_cons (List.not_mem_of_not_mem_cons (List.not_mem_of_not_mem_cons h)))))

theorem W1_of_unwritten (c : Dev nD) (b : Ref sig .tc)
    (h : b ∉ ([main_v0, main_v1, main_v2, main_v3] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, Finset.mem_singleton]
    refine ⟨?_, ?_, ?_, ?_⟩
    · exact StableHlo.devRef_ne_of_ne (List.ne_of_not_mem_cons h)
    · exact StableHlo.devRef_ne_of_ne (List.ne_of_not_mem_cons (List.not_mem_of_not_mem_cons h))
    · exact StableHlo.devRef_ne_of_ne (List.ne_of_not_mem_cons (List.not_mem_of_not_mem_cons (List.not_mem_of_not_mem_cons h)))
    · exact StableHlo.devRef_ne_of_ne (List.ne_of_not_mem_cons (List.not_mem_of_not_mem_cons (List.not_mem_of_not_mem_cons (List.not_mem_of_not_mem_cons h))))))

/-- An argument array is written by no host operation and staged by no region. -/
theorem W4_arg (c : Dev nD) (b : Ref sig .tc) (h1 : ∀ w, Pipeline.arrRef spec1 w ≠ b)
    (h2 : b ∉ ([main_v5, main_v6, main_v7] : List (Ref sig .tc))) (h3 : ∀ w, Pipeline.arrRef spec0 w ≠ b)
    (h4 : b ∉ ([main_v0, main_v1, main_v2, main_v3] : List (Ref sig .tc))) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := W3_of_unwritten m ρ c b h2
    _ = W1 m ρ c (Proc.devRef .tc b) := W2_of_ne m ρ c b h3
    _ = W0 m ρ c (Proc.devRef .tc b) := W1_of_unwritten m ρ c b h4
    _ = m ((c : Thread nD τ).loc b) := rfl

theorem W4_main_arg0 (c : Dev nD) : W4 m ρ c (Proc.devRef .tc main_arg0) = m ((c : Thread nD τ).loc main_arg0) :=
  W4_arg m ρ c main_arg0 (by decide) (by decide) (by decide) (by decide)
theorem W4_main_arg1 (c : Dev nD) : W4 m ρ c (Proc.devRef .tc main_arg1) = m ((c : Thread nD τ).loc main_arg1) :=
  W4_arg m ρ c main_arg1 (by decide) (by decide) (by decide) (by decide)
theorem W4_main_arg2 (c : Dev nD) : W4 m ρ c (Proc.devRef .tc main_arg2) = m ((c : Thread nD τ).loc main_arg2) :=
  W4_arg m ρ c main_arg2 (by decide) (by decide) (by decide) (by decide)
theorem W4_main_arg3 (c : Dev nD) : W4 m ρ c (Proc.devRef .tc main_arg3) = m ((c : Thread nD τ).loc main_arg3) :=
  W4_arg m ρ c main_arg3 (by decide) (by decide) (by decide) (by decide)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4. Its invariant
    carries the three scratch buffers: at entry they hold anything, at exit they are forgotten again. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (phi_in1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    iintro H
    ihave H' := (phi_out1 (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the output array ends at what the attention region's write-backs leave. -/
theorem run_value : θ_run defs (onTc (τ := τ) (main (F := F))) ⟨m, fun _ => 0, ρ⟩ (fun r => ∀ c : Dev nD,
      r.2.mem ((c.tc : Thread nD τ).loc main_v8) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.Spec.lean ====
/-
  Causal single-head attention over the extended reals, index by index.

  For a batch b, a query position q and an output feature o:
    Q = x·Wqᵀ, K = x·Wkᵀ, V = x·Wvᵀ                      (rows of x against rows of a weight matrix),
    z_k = (if k ≤ q then ∑_d Q[q,d]·K[k,d] else −∞) / 32   (a key after the query is masked out),
    out = ∑_k ( exp (z_k − M) / (0 + ∑_c exp (z_c − M)) ) · V[k,o],   M = max (−∞) (max_k z_k),
  the row's softmax weights applied to the values. Every row has the key k = 0 unmasked, so when the
  projections are real numbers M is real, the masked keys weigh exp (−∞) = 0, and the result is the
  softmax-weighted mean of the values over the keys k ≤ q.
-/
import Idealize.ShloMosaic.PureOps.Ideal
import Idealize.ShloMosaic.Lib.ValueIdx

noncomputable section

open scoped BigOperators

namespace Cert.Attn

open Idealize.ShloMosaic Idealize.ShloMosaic.ValueIdx

/-- The activations' shape [4, 2048, 1024] and a weight matrix's [1024, 1024]. -/
abbrev X3 : Shape := ⟨3, ![4, 2048, 1024]⟩
abbrev W2 : Shape := ⟨2, ![1024, 1024]⟩

/-- One entry of a projection x·Wᵀ: row s of batch b against row o of the weight matrix. -/
def proj (x : X3.Idx → EReal) (w : W2.Idx → EReal) (b : Fin 4) (s : Fin 2048) (o : Fin 1024) : EReal :=
  ∑ d : Fin 1024, x (ix3 b s d) * w (ix2 o d)

/-- The score of key k for query q: the two projections' inner product. -/
def dotQK (x : X3.Idx → EReal) (wq wk : W2.Idx → EReal) (b : Fin 4) (q k : Fin 2048) : EReal :=
  ∑ d : Fin 1024, proj x wq b q d * proj x wk b k d

/-- The scaling divisor, the square root of the feature count 1024. -/
def scale : EReal := ((32 : ℝ) : EReal)

/-- The masked and scaled score: a key after the query is −∞. -/
def logit (x : X3.Idx → EReal) (wq wk : W2.Idx → EReal) (b : Fin 4) (q k : Fin 2048) : EReal :=
  Ideal.div (if k.val ≤ q.val then dotQK x wq wk b q k else ⊥) scale

/-- The row's greatest score, folded from −∞ and taken once more against −∞. -/
def rowMax (x : X3.Idx → EReal) (wq wk : W2.Idx → EReal) (b : Fin 4) (q : Fin 2048) : EReal :=
  max ⊥ ((Finset.univ : Finset (Fin 2048)).fold max ⊥ fun k => logit x wq wk b q k)

/-- The unnormalized weight of key k. -/
def expo (x : X3.Idx → EReal) (wq wk : W2.Idx → EReal) (b : Fin 4) (q k : Fin 2048) : EReal :=
  Ideal.exp (logit x wq wk b q k - rowMax x wq wk b q)

/-- The row's normalizer. -/
def denom (x : X3.Idx → EReal) (wq wk : W2.Idx → EReal) (b : Fin 4) (q : Fin 2048) : EReal :=
  0 + ∑ k : Fin 2048, expo x wq wk b q k

/-- One entry of the attention output. -/
def attnAt (x : X3.Idx → EReal) (wq wk wv : W2.Idx → EReal) (b : Fin 4) (q : Fin 2048) (o : Fin 1024) : EReal :=
  ∑ k : Fin 2048, Ideal.div (expo x wq wk b q k) (denom x wq wk b q) * proj x wv b k o

/-- The attention output as one array of the four argument arrays. -/
def G (x : X3.Idx → EReal) (wq wk wv : W2.Idx → EReal) : X3.Idx → EReal :=
  fun i => attnAt x wq wk wv (i 0) (i 1) (i 2)

theorem G_apply (x : X3.Idx → EReal) (wq wk wv : W2.Idx → EReal) (b : Fin 4) (q : Fin 2048) (o : Fin 1024) :
    G x wq wk wv (ix3 b q o) = attnAt x wq wk wv b q o := rfl

end Cert.Attn

end
-- ==== Proof.RefValue.lean ====
/-
  The reference program's result, read index by index at the extended reals, is causal single-head attention:
  for a batch b, a query position q and an output feature o,
    out[b,q,o] = ∑_k softmax_k( (k ≤ q ? ⟨Q[b,q,:], K[b,k,:]⟩ : −∞) / 32 ) · V[b,k,o],
  with Q, K, V the three projections x·Wᵀ, the divisor 32 = 1024^(1/2), and the softmax written with the row's
  maximum subtracted. Each stage of the program is read at coordinates and identified with the corresponding
  definition of the specification.
-/
import proofs.«148900_j618475290737_2_alg».proof.Proof.Gen.ReferenceIdeal.Read
import proofs.«148900_j618475290737_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn

/-! ## The constants -/

/-- The pattern of −∞ denotes the bottom of the extended reals. -/
theorem ofBits_neg_inf : Ideal.ofBits .f32 0xFF800000#32 = (⊥ : EReal) := by
  simp [Ideal.ofBits, Ideal.ieee]

/-- The pattern of 1024.0 denotes 1024. -/
theorem ofBits_1024 : Ideal.ofBits .f32 0x44800000#32 = ((1024 : ℝ) : EReal) := by
  simp [Ideal.ofBits, Ideal.ieee, -EReal.coe_mul]; norm_num

/-- The pattern of 0.5 denotes 1/2. -/
theorem ofBits_half : Ideal.ofBits .f32 0x3F000000#32 = ((1 / 2 : ℝ) : EReal) := by
  simp [Ideal.ofBits, Ideal.ieee, -EReal.coe_mul]; norm_num

/-- The pattern of +0.0 denotes 0. -/
theorem ofBits_zero : Ideal.ofBits .f32 0x00000000#32 = (0 : EReal) := by
  simp [Ideal.ofBits, Ideal.ieee]

/-- 1024^(1/2) = 32, since 1024 = 32². -/
theorem pow_1024_half : Ideal.pow ((1024 : ℝ) : EReal) ((1 / 2 : ℝ) : EReal) = ((32 : ℝ) : EReal) := by
  show ((Real.rpow 1024 (1 / 2) : ℝ) : EReal) = _
  congr 1
  rw [show (1024 : ℝ) = 32 ^ (2 : ℝ) by norm_num, Real.rpow_eq_pow, ← Real.rpow_mul (by norm_num)]; norm_num

/-! ## The projections -/

theorem lidx_v0 (b : Fin 4) (s : Fin 2048) (o d : Fin 1024) : lidx_main_v0 (ix3 b s o) d = ix3 b s d := by
  funext a; match a with | ⟨0, _⟩ => rfl | ⟨1, _⟩ => rfl | ⟨2, _⟩ => rfl
theorem ridx_v0 (b : Fin 4) (s : Fin 2048) (o d : Fin 1024) : ridx_main_v0 (ix3 b s o) d = ix2 o d := by
  funext a; match a with | ⟨0, _⟩ => rfl | ⟨1, _⟩ => rfl

/-- One entry of x·Wᵀ. The three projections of the program are one function of their operands. -/
theorem proj_v0 (x : FVec Ideal S4x2048x1024 .f32) (w : FVec Ideal S1024x1024 .f32) (b : Fin 4) (s : Fin 2048) (o : Fin 1024) :
    val_main_v0 (F := Ideal) x w (ix3 b s o) = proj x w b s o := by
  rw [val_main_v0_apply]
  unfold proj
  refine Finset.sum_congr rfl fun d _ => ?_
  rw [lidx_v0, ridx_v0]

theorem proj_v1 (x : FVec Ideal S4x2048x1024 .f32) (w : FVec Ideal S1024x1024 .f32) (b : Fin 4) (s : Fin 2048) (o : Fin 1024) :
    val_main_v1 (F := Ideal) x w (ix3 b s o) = proj x w b s o := proj_v0 x w b s o

theorem proj_v2 (x : FVec Ideal S4x2048x1024 .f32) (w : FVec Ideal S1024x1024 .f32) (b : Fin 4) (s : Fin 2048) (o : Fin 1024) :
    val_main_v2 (F := Ideal) x w (ix3 b s o) = proj x w b s o := proj_v0 x w b s o

/-! ## The scores -/

theorem lidx_v3 (b : Fin 4) (q k : Fin 2048) (d : Fin 1024) : lidx_main_v3 (ix3 b q k) d = ix3 b q d := by
  funext a; match a with | ⟨0, _⟩ => rfl | ⟨1, _⟩ => rfl | ⟨2, _⟩ => rfl
theorem ridx_v3 (b : Fin 4) (q k : Fin 2048) (d : Fin 1024) : ridx_main_v3 (ix3 b q k) d = ix3 b k d := by
  funext a; match a with | ⟨0, _⟩ => rfl | ⟨1, _⟩ => rfl | ⟨2, _⟩ => rfl

/-- The score of key k for query q. -/
theorem score_v3 (x : FVec Ideal S4x2048x1024 .f32) (wq wk : FVec Ideal S1024x1024 .f32) (b : Fin 4) (q k : Fin 2048) :
    val_main_v3 (F := Ideal) x wq wk (ix3 b q k) = dotQK x wq wk b q k := by
  rw [val_main_v3_apply]
  unfold dotQK
  refine Finset.sum_congr rfl fun d _ => ?_
  rw [lidx_v3, ridx_v3, proj_v0, proj_v1]

/-! ## The mask -/

/-- A coordinate below 2048, as a 32-bit word read signed, is itself. -/
theorem toInt_small (n : Nat) (h : n < 2048) : (BitVec.ofNat 32 n).toInt = (n : Int) := by
  have h1 : (BitVec.ofNat 32 n).toNat = n := by simp; omega
  rw [BitVec.toInt_eq_toNat_cond, h1]; split <;> omega

/-- The lower-triangle condition on words: row + 0 ≥ column, selecting between the bits 1 and 0, is the bit of k ≤ q. -/
theorem mask_word (q k : Nat) (hq : q < 2048) (hk : k < 2048) :
    Scalar.select (IntOp.cmpi .sge (IntOp.addi (BitVec.ofNat 32 q) 0#32) (BitVec.ofNat 32 k)) (1#1) (0#1)
      = if k ≤ q then 1#1 else 0#1 := by
  have e : IntOp.addi (BitVec.ofNat 32 q) 0#32 = BitVec.ofNat 32 q := by simp [IntOp.addi]
  rw [e]
  have hiff := IntOp.cmpi_sge (x := BitVec.ofNat 32 q) (y := BitVec.ofNat 32 k)
  rw [toInt_small k hk, toInt_small q hq] at hiff
  by_cases h : k ≤ q
  · rw [if_pos h, hiff.2 (by exact_mod_cast h)]; rfl
  · have hz : IntOp.cmpi .sge (BitVec.ofNat 32 q) (BitVec.ofNat 32 k) = 0#1 :=
      eq_zero_of_ne_one (fun hc => h (by exact_mod_cast hiff.1 hc))
    rw [if_neg h, hz]; rfl

/-- The lower-triangular mask at (q, k): kept exactly when k ≤ q. -/
theorem tril_apply (q k : Fin 2048) :
    val_main_v5 (F := Ideal) (ix2 q k) = if k.val ≤ q.val then 1#1 else 0#1 := by
  rw [val_main_v5_apply, val_main_call0_v4_apply, val_main_call0_v2_apply, val_main_call0_v0_apply,
    val_main_call0_v1_apply, val_main_call0_c_apply, val_main_call0_v3_apply, val_main_v4_apply, val_main_c_apply,
    val_main_call0_v5_apply, val_main_call0_c_0_apply]
  exact mask_word q.val k.val q.isLt k.isLt

theorem idx_mask (b : Fin 4) (q k : Fin 2048) : idx_main_v6 (idx_main_call1_v1 (ix3 b q k)) = ix2 q k := by
  funext a; match a with | ⟨0, _⟩ => rfl | ⟨1, _⟩ => rfl

/-- The mask broadcast over the batch, at (b, q, k). -/
theorem mask_apply (b : Fin 4) (q k : Fin 2048) :
    val_main_call1_v1 (F := Ideal) (ix3 b q k) = if k.val ≤ q.val then 1#1 else 0#1 := by
  rw [val_main_call1_v1_apply, val_main_v6_apply, idx_mask, tril_apply]

/-- The masked score: a key after the query is −∞. -/
theorem where_apply (x : FVec Ideal S4x2048x1024 .f32) (wq wk : FVec Ideal S1024x1024 .f32) (b : Fin 4) (q k : Fin 2048) :
    val_main_v7 (F := Ideal) x wq wk (ix3 b q k) = if k.val ≤ q.val then dotQK x wq wk b q k else ⊥ := by
  rw [val_main_v7_apply, mask_apply, score_v3, val_main_call1_v2_apply, val_main_call1_v0_apply, val_main_cst_apply,
    Ideal.ofBits_def, ofBits_neg_inf]
  by_cases h : k.val ≤ q.val
  · rw [if_pos h, if_pos h, select_one]
  · rw [if_neg h, if_neg h, select_zero]

/-! ## The scaling -/

/-- The divisor, 1024^(1/2) broadcast, is 32 everywhere. -/
theorem scale_apply (i : S4x2048x2048.Idx) : val_main_v9 (F := Ideal) i = scale := by
  rw [val_main_v9_apply, val_main_v8_apply, val_main_cst_0_apply, val_main_cst_1_apply, Ideal.hostPowf_def,
    Ideal.ofBits_def, Ideal.ofBits_def, ofBits_1024, ofBits_half, pow_1024_half]
  rfl

/-- The masked and scaled score. -/
theorem logit_apply (x : FVec Ideal S4x2048x1024 .f32) (wq wk : FVec Ideal S1024x1024 .f32) (b : Fin 4) (q k : Fin 2048) :
    val_main_v10 (F := Ideal) x wq wk (ix3 b q k) = logit x wq wk b q k := by
  rw [val_main_v10_apply, where_apply, scale_apply, Ideal.hostDivf_def]
  rfl

/-! ## The row maximum -/

theorem lift_d2 (h : S4x2048x2048.Reduces [2] S4x2048) (b : Fin 4) (q k : Fin 2048) :
    h.lift (ix2 b q) k = ix3 b q k := by
  funext a; exact Fin.ext (by match a with | ⟨0, _⟩ => rfl | ⟨1, _⟩ => rfl | ⟨2, _⟩ => rfl)

/-- The maximum over the keys, folded from −∞. -/
theorem rowfold_apply (x : FVec Ideal S4x2048x1024 .f32) (wq wk : FVec Ideal S1024x1024 .f32) (b : Fin 4) (q : Fin 2048) :
    val_main_v11 (F := Ideal) x wq wk (ix2 b q)
      = (Finset.univ : Finset (Fin 2048)).fold max ⊥ fun k => logit x wq wk b q k := by
  unfold val_main_v11
  have h : S4x2048x2048.Reduces [2] S4x2048 := by decide
  rw [Host.reduce_eq_fold_single FloatOps.maximumf _ _ reducesTo_S4x2048x2048_S4x2048_d2 h h_S_]
  rw [val_main_cst_2_apply, Ideal.ofBits_def, ofBits_neg_inf]
  have e : ∀ k : Fin 2048, (val_main_v10 (F := Ideal) x wq wk ∘ h.lift (ix2 b q)) k = logit x wq wk b q k := by
    intro k
    show val_main_v10 (F := Ideal) x wq wk (h.lift (ix2 b q) k) = _
    rw [lift_d2, logit_apply]
  exact congrArg (fun f : Fin 2048 → EReal => (Finset.univ : Finset (Fin 2048)).fold max ⊥ f) (funext e)

/-- The row's greatest score, taken once more against −∞. -/
theorem rowmax_apply (x : FVec Ideal S4x2048x1024 .f32) (wq wk : FVec Ideal S1024x1024 .f32) (b : Fin 4) (q : Fin 2048) :
    val_main_v13 (F := Ideal) x wq wk (ix2 b q) = rowMax x wq wk b q := by
  rw [val_main_v13_apply, rowfold_apply, val_main_v12_apply, val_main_cst_3_apply, Ideal.ofBits_def, ofBits_neg_inf,
    Ideal.maximumf_def]
  rfl

/-! ## The weights -/

theorem idx_v15 (b : Fin 4) (q k : Fin 2048) : idx_main_v14 (idx_main_v15 (ix3 b q k)) = ix2 b q := by
  funext a; match a with | ⟨0, _⟩ => rfl | ⟨1, _⟩ => rfl

/-- The unnormalized weight of key k: the exponential of the score less the row maximum. -/
theorem expo_apply (x : FVec Ideal S4x2048x1024 .f32) (wq wk : FVec Ideal S1024x1024 .f32) (b : Fin 4) (q k : Fin 2048) :
    val_main_v17 (F := Ideal) x wq wk (ix3 b q k) = expo x wq wk b q k := by
  rw [val_main_v17_apply, val_main_v16_apply, logit_apply, val_main_v15_apply, val_main_v14_apply, idx_v15, rowmax_apply,
    Ideal.hostUnary_exp_def, Ideal.subf_def]
  rfl

theorem idx_v18 (b : Fin 4) (q k : Fin 2048) : idx_main_v18 (ix2 b q) k = ix3 b q k := by
  funext a; match a with | ⟨0, _⟩ => rfl | ⟨1, _⟩ => rfl | ⟨2, _⟩ => rfl

/-- The row's normalizer: zero plus the sum of the weights over the keys. -/
theorem denom_apply (x : FVec Ideal S4x2048x1024 .f32) (wq wk : FVec Ideal S1024x1024 .f32) (b : Fin 4) (q : Fin 2048) :
    val_main_v18 (F := Ideal) x wq wk (ix2 b q) = denom x wq wk b q := by
  rw [val_main_v18_apply, val_main_cst_4_apply, Ideal.ofBits_def, ofBits_zero]
  unfold denom
  refine congrArg (0 + ·) (Finset.sum_congr rfl fun k _ => ?_)
  rw [idx_v18, expo_apply]

theorem idx_v20 (b : Fin 4) (q k : Fin 2048) : idx_main_v19 (idx_main_v20 (ix3 b q k)) = ix2 b q := by
  funext a; match a with | ⟨0, _⟩ => rfl | ⟨1, _⟩ => rfl

/-- The normalized weight of key k. -/
theorem weight_apply (x : FVec Ideal S4x2048x1024 .f32) (wq wk : FVec Ideal S1024x1024 .f32) (b : Fin 4) (q k : Fin 2048) :
    val_main_v21 (F := Ideal) x wq wk (ix3 b q k) = Ideal.div (expo x wq wk b q k) (denom x wq wk b q) := by
  rw [val_main_v21_apply, expo_apply, val_main_v20_apply, val_main_v19_apply, idx_v20, denom_apply, Ideal.hostDivf_def]

/-! ## The output -/

theorem lidx_v22 (b : Fin 4) (q k : Fin 2048) (o : Fin 1024) : lidx_main_v22 (ix3 b q o) k = ix3 b q k := by
  funext a; match a with | ⟨0, _⟩ => rfl | ⟨1, _⟩ => rfl | ⟨2, _⟩ => rfl
theorem ridx_v22 (b : Fin 4) (q k : Fin 2048) (o : Fin 1024) : ridx_main_v22 (ix3 b q o) k = ix3 b k o := by
  funext a; match a with | ⟨0, _⟩ => rfl | ⟨1, _⟩ => rfl | ⟨2, _⟩ => rfl

/-- The reference's result array is the attention output of the four argument arrays. -/
theorem ref_eq_G (x : FVec Ideal S4x2048x1024 .f32) (wq wk wv : FVec Ideal S1024x1024 .f32) :
    val_main_v22 (F := Ideal) x wq wk wv = Cert.Attn.G x wq wk wv := by
  funext i
  obtain ⟨b, q, o, rfl⟩ : ∃ (b : Fin 4) (q : Fin 2048) (o : Fin 1024), i = ix3 b q o := ⟨i 0, i 1, i 2, eq_ix3 i⟩
  rw [val_main_v22_apply, G_apply]
  unfold attnAt
  refine Finset.sum_congr rfl fun k _ => ?_
  rw [lidx_v22, ridx_v22, weight_apply, proj_v2]

end Cert.ReferenceIdeal.RefValue

end
-- ==== Proof.Finite.lean ====
/-
  Finiteness of the inputs. The precondition is the conjunction, over the four argument arrays, of "every entry's
  absolute value is strictly below +∞". On the extended reals the absolute value of a is max a (−a), which is +∞ at
  both infinities, so an entry that passes is neither +∞ nor −∞: it is a real number. A conjunction over all entries of
  an array that holds, holds at each entry.
-/
import proofs.«148900_j618475290737_2_alg».proof.Pre_finite_inputs
import proofs.«148900_j618475290737_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- The pattern of +∞ denotes the top of the extended reals. -/
theorem ofBits_inf : Ideal.ofBits .f32 0x7F800000#32 = (⊤ : EReal) := by
  simp [Ideal.ofBits, Ideal.ieee]

/-- An extended real whose absolute value `max a (-a)` is strictly below +∞ is a real number. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- A conjunction over all entries of `|x i| < +∞` that holds makes every entry of the array a real number. -/
theorem real_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (h : Host.reduce IntOp.andi
        (cmpf .olt (Host.absf x) (broadcastInDim s ![] hb (constant (F := Ideal) S_ .f32 0x7F800000#32)))
        (constantI S_ 1 1#1) hr hu j = 1#1) :
    ∀ i, ∃ r : ℝ, x i = (r : EReal) := by
  intro i
  have e := Host.reduce_andi_all _ _ hr hu j h i
  exact real_of_abs_lt (x i) e

theorem real_of_pre [Cert.Pre_finite_inputs.Facts] (x : FVec Ideal S4x2048x1024 .f32) (wq wk wv : FVec Ideal S1024x1024 .f32)
    (h : Cert.Pre_finite_inputs.fn (F := Ideal) x wq wk wv = (fun _ => 1#1)) :
    (∀ i, ∃ r : ℝ, x i = (r : EReal)) ∧ (∀ i, ∃ r : ℝ, wq i = (r : EReal)) ∧ (∀ i, ∃ r : ℝ, wk i = (r : EReal)) ∧ (∀ i, ∃ r : ℝ, wv i = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all _ _ _ x _ h1, real_of_all _ _ _ wq _ h2, real_of_all _ _ _ wk _ h3, real_of_all _ _ _ wv _ h4⟩

end Cert.Finite
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«148900_j618475290737_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibSoftmaxLanes.lean ====
/-
  A softmax along the LANES (the last axis) of a rank-3 vector, read AT AN INDEX at the ideal values, for a kernel that
  spells it the numerically careful way with both reductions kept (`keepdims`) and broadcast back along the lanes:

  * `laneMax3_apply`: a `multi_reduction <maximumf>` over the last axis of a rank-3 vector, at (a, b), is the fold of
    `max` from the accumulator's value over the lane coordinate;
  * `softmaxLanes3_apply`: the whole chain (maximum, cast [a, b] → [a, b, 1], broadcast to [a, b, c], subtract,
    exponentiate, sum, cast, broadcast, divide) at (a, b, j) is `SoftmaxRows.softmaxAt` of the lane row at (a, b).

  Nothing here needs the entries to be finite.
-/
import Idealize.ShloMosaic.PureOps.Ideal.Laws
import Idealize.ShloMosaic.Lib.Pipeline.Value
import Idealize.ShloMosaic.Lib.ValueIdx
import proofs.«148900_j618475290737_2_alg».proof.Proof.LibKeepdims
import proofs.«148900_j618475290737_2_alg».proof.Proof.LibSoftmaxRows

noncomputable section

open scoped BigOperators

namespace Idealize.ShloMosaic.SoftmaxLanes

open Idealize.ShloMosaic Idealize.ShloMosaic.ValueIdx Idealize.ShloMosaic.SoftmaxRows

/-- A maximum over the last axis of a rank-3 vector, at (a, b): the fold of `max` over the lane coordinate. -/
theorem laneMax3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.maximumf.neutral φ hφ)
    (a : Fin n0) (b : Fin n1) :
    multiReduction .maximumf [2] ⟨2, ![n0, n1]⟩ v acc h hφ hacc (ix2 a b)
      = (Finset.univ : Finset (Fin n2)).fold max (Ideal.ofBits φ acc) (fun c => v (ix3 a b c)) :=
  (Ideal.multiReduction_maximumf_single v acc h hφ hacc (ix2 a b)).trans
    (Finset.fold_congr fun c _ => congrArg v (funext fun d => Fin.ext (by
      match d with | ⟨0, _⟩ => rfl | ⟨1, _⟩ => rfl | ⟨2, _⟩ => rfl)))

/-- The keepdims softmax chain of a kernel over the lanes of `s`, at (a, b, j). -/
theorem softmaxLanes3_apply {n0 n1 n2 : Nat} (s : FVec Ideal ⟨3, ![n0, n1, n2]⟩ .f32) (accM accS : BitVec 32)
    (hr : (⟨3, ![n0, n1, n2]⟩ : Shape).Reduces [2] ⟨2, ![n0, n1]⟩) (hc : (⟨2, ![n0, n1]⟩ : Shape).ShapeCasts ⟨3, ![n0, n1, 1]⟩)
    (hb : (⟨3, ![n0, n1, 1]⟩ : Shape).Broadcasts ⟨3, ![n0, n1, n2]⟩) (hφ : FKind.Formats .f32)
    (hM : accM = FKind.maximumf.neutral .f32 hφ) (hS : accS = FKind.add.neutral .f32 hφ) (a : Fin n0) (b : Fin n1) (j : Fin n2) :
    divf (exp (subf s (broadcastTo ⟨3, ![n0, n1, n2]⟩ (shapeCast ⟨3, ![n0, n1, 1]⟩ (multiReduction .maximumf [2] ⟨2, ![n0, n1]⟩ s accM hr hφ hM) hc) hb)))
        (broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb) (ix3 a b j)
      = softmaxAt (fun c => s (ix3 a b c)) (Ideal.ofBits .f32 accM) j := by
  have hmax : ∀ c : Fin n2, broadcastTo ⟨3, ![n0, n1, n2]⟩ (shapeCast ⟨3, ![n0, n1, 1]⟩ (multiReduction .maximumf [2] ⟨2, ![n0, n1]⟩ s accM hr hφ hM) hc) hb (ix3 a b c)
      = (Finset.univ : Finset (Fin n2)).fold max (Ideal.ofBits .f32 accM) (fun c => s (ix3 a b c)) := fun c =>
    (Keepdims.bcast_col3_apply _ hb a b c).trans ((Keepdims.cast_col3_apply _ hc a b 0).trans (laneMax3_apply s accM hr hφ hM a b))
  have hexp : ∀ c : Fin n2, exp (subf s (broadcastTo ⟨3, ![n0, n1, n2]⟩ (shapeCast ⟨3, ![n0, n1, 1]⟩ (multiReduction .maximumf [2] ⟨2, ![n0, n1]⟩ s accM hr hφ hM) hc) hb)) (ix3 a b c)
      = Ideal.exp (s (ix3 a b c) - (Finset.univ : Finset (Fin n2)).fold max (Ideal.ofBits .f32 accM) (fun c => s (ix3 a b c))) := fun c =>
    congrArg (fun m => Ideal.exp (s (ix3 a b c) - m)) (hmax c)
  have hsum : broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb (ix3 a b j)
      = ∑ c : Fin n2, Ideal.exp (s (ix3 a b c) - (Finset.univ : Finset (Fin n2)).fold max (Ideal.ofBits .f32 accM) (fun c => s (ix3 a b c))) :=
    (Keepdims.bcast_col3_apply _ hb a b j).trans ((Keepdims.cast_col3_apply _ hc a b 0).trans
      ((Keepdims.laneSum3_apply _ accS hr hφ hS a b).trans (Finset.sum_congr rfl fun c _ => hexp c)))
  show Ideal.div _ _ = _
  unfold softmaxAt
  exact congrArg₂ Ideal.div (hexp j) hsum

end Idealize.ShloMosaic.SoftmaxLanes

end
-- ==== Proof.LibCausalMask.lean ====
/-
  The causal mask both a kernel and a jnp reference build from two `iota`s: position words compared signed, `row ≥ col`,
  and a `select` on the result. For positions below 2³¹ the 32-bit words are the positions themselves, read signed or
  not, so the select is an `if col ≤ row`.

  * `toInt_ofNat32`: the signed reading of the word of a number below 2³¹ is the number;
  * `select_sge_ofNat`: `select (cmpi sge (word q) (word k)) a b = if k ≤ q then a else b`;
  * `addi_zero32`: adding the zero word (a `tril` with offset 0) changes nothing.
-/
import Idealize.ShloMosaic.PureOps
import Idealize.ShloMosaic.Lib.Affine

namespace Idealize.ShloMosaic.CausalMask

open Idealize.ShloMosaic

/-- The signed reading of the 32-bit word of a number below 2³¹ is the number. -/
theorem toInt_ofNat32 (k : Nat) (hk : k < 2147483648) : (BitVec.ofNat 32 k).toInt = (k : Int) := by
  rw [BitVec.toInt_eq_toNat_cond, BitVec.toNat_ofNat]
  have h : k % 2 ^ 32 = k := Nat.mod_eq_of_lt (by omega)
  rw [h]
  split
  · rfl
  · omega

/-- A select on `row ≥ col` over position words is an `if col ≤ row`. -/
theorem select_sge_ofNat {α : Type} (q k : Nat) (hq : q < 2147483648) (hk : k < 2147483648) (a b : α) :
    Scalar.select (IntOp.cmpi .sge (BitVec.ofNat 32 q) (BitVec.ofNat 32 k)) a b = if k ≤ q then a else b := by
  unfold Scalar.select
  have key : IntOp.cmpi .sge (BitVec.ofNat 32 q) (BitVec.ofNat 32 k) = 1#1 ↔ k ≤ q := by
    rw [IntOp.cmpi_sge, toInt_ofNat32 q hq, toInt_ofNat32 k hk]
    exact Int.ofNat_le
  by_cases h : k ≤ q
  · rw [if_pos h]; exact if_pos (key.mpr h)
  · rw [if_neg h]; exact if_neg (fun h1 => h (key.mp h1))

/-- Adding the zero word changes nothing. -/
theorem addi_zero32 (x : BitVec 32) : IntOp.addi x 0#32 = x := by
  unfold IntOp.addi
  exact BitVec.add_zero x

end Idealize.ShloMosaic.CausalMask
-- ==== Proof.KV1Step.lean ====
/-
  The attention kernel's arithmetic read entry by entry, on the extended reals.

  One grid point meets one tile of 512 keys. For query row r of the block and key column c of the tile the score is the
  inner product of the query's and the key's projections when the key's position does not exceed the query's, and −∞
  otherwise; the running maximum takes the tile's greatest score in; the old normalizer and accumulator are scaled by
  exp (old maximum − new maximum) and the tile's weights exp (score − new maximum) and weighted values are added; the
  output is the accumulator over the normalizer.
-/
import proofs.«148900_j618475290737_2_alg».proof.Proof.Gen.KernelIdeal.Skeleton
import proofs.«148900_j618475290737_2_alg».proof.Proof.LibSoftmaxLanes
import proofs.«148900_j618475290737_2_alg».proof.Proof.LibCausalMask
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.KernelIdeal.KV1

open Cert.KernelIdeal Cert.KernelIdeal.Gen Idealize.ShloMosaic Idealize.ShloMosaic.ValueIdx

/-! ## The two products -/

theorem qk_l_0 (i : _) (q : dot_S1x512x1024_S1x512x1024_S1x512x512_2_2_1_1_0_0.contr.Idx) :
    (dot_S1x512x1024_S1x512x1024_S1x512x512_2_2_1_1_0_0.lhsIdx i q 0).val = (i 0).val := by
  unfold DotDims.lhsIdx
  rw [dif_pos (show (0 : Fin S1x512x1024.rank) ∈ dot_S1x512x1024_S1x512x1024_S1x512x512_2_2_1_1_0_0.lhsBatch by decide)]
  rfl
theorem qk_l_1 (i : _) (q : dot_S1x512x1024_S1x512x1024_S1x512x512_2_2_1_1_0_0.contr.Idx) :
    (dot_S1x512x1024_S1x512x1024_S1x512x512_2_2_1_1_0_0.lhsIdx i q 1).val = (i 1).val := by
  unfold DotDims.lhsIdx
  rw [dif_neg (show ¬(1 : Fin S1x512x1024.rank) ∈ dot_S1x512x1024_S1x512x1024_S1x512x512_2_2_1_1_0_0.lhsBatch by decide), dif_pos (show (1 : Fin S1x512x1024.rank) ∈ dot_S1x512x1024_S1x512x1024_S1x512x512_2_2_1_1_0_0.lhsNonContracting by decide)]
  rfl
theorem qk_l_2 (i : _) (q : dot_S1x512x1024_S1x512x1024_S1x512x512_2_2_1_1_0_0.contr.Idx) :
    (dot_S1x512x1024_S1x512x1024_S1x512x512_2_2_1_1_0_0.lhsIdx i q 2).val = (q ⟨0, by decide⟩).val :=
  dot_S1x512x1024_S1x512x1024_S1x512x512_2_2_1_1_0_0.lhsIdx_val_of_single rfl i q
theorem qk_r_0 (i : _) (q : dot_S1x512x1024_S1x512x1024_S1x512x512_2_2_1_1_0_0.contr.Idx) :
    (dot_S1x512x1024_S1x512x1024_S1x512x512_2_2_1_1_0_0.rhsIdx i q 0).val = (i 0).val := by
  unfold DotDims.rhsIdx
  rw [dif_pos (show (0 : Fin S1x512x1024.rank) ∈ dot_S1x512x1024_S1x512x1024_S1x512x512_2_2_1_1_0_0.rhsBatch by decide)]
  rfl
theorem qk_r_1 (i : _) (q : dot_S1x512x1024_S1x512x1024_S1x512x512_2_2_1_1_0_0.contr.Idx) :
    (dot_S1x512x1024_S1x512x1024_S1x512x512_2_2_1_1_0_0.rhsIdx i q 1).val = (i 2).val := by
  unfold DotDims.rhsIdx
  rw [dif_neg (show ¬(1 : Fin S1x512x1024.rank) ∈ dot_S1x512x1024_S1x512x1024_S1x512x512_2_2_1_1_0_0.rhsBatch by decide), dif_pos (show (1 : Fin S1x512x1024.rank) ∈ dot_S1x512x1024_S1x512x1024_S1x512x512_2_2_1_1_0_0.rhsNonContracting by decide)]
  rfl
theorem qk_r_2 (i : _) (q : dot_S1x512x1024_S1x512x1024_S1x512x512_2_2_1_1_0_0.contr.Idx) :
    (dot_S1x512x1024_S1x512x1024_S1x512x512_2_2_1_1_0_0.rhsIdx i q 2).val = (q ⟨0, by decide⟩).val :=
  dot_S1x512x1024_S1x512x1024_S1x512x512_2_2_1_1_0_0.rhsIdx_val_of_single rfl i q
theorem pv_l_0 (i : _) (q : dot_S1x512x512_S1x512x1024_S1x512x1024_2_1_1_2_0_0.contr.Idx) :
    (dot_S1x512x512_S1x512x1024_S1x512x1024_2_1_1_2_0_0.lhsIdx i q 0).val = (i 0).val := by
  unfold DotDims.lhsIdx
  rw [dif_pos (show (0 : Fin S1x512x512.rank) ∈ dot_S1x512x512_S1x512x1024_S1x512x1024_2_1_1_2_0_0.lhsBatch by decide)]
  rfl
theorem pv_l_1 (i : _) (q : dot_S1x512x512_S1x512x1024_S1x512x1024_2_1_1_2_0_0.contr.Idx) :
    (dot_S1x512x512_S1x512x1024_S1x512x1024_2_1_1_2_0_0.lhsIdx i q 1).val = (i 1).val := by
  unfold DotDims.lhsIdx
  rw [dif_neg (show ¬(1 : Fin S1x512x512.rank) ∈ dot_S1x512x512_S1x512x1024_S1x512x1024_2_1_1_2_0_0.lhsBatch by decide), dif_pos (show (1 : Fin S1x512x512.rank) ∈ dot_S1x512x512_S1x512x1024_S1x512x1024_2_1_1_2_0_0.lhsNonContracting by decide)]
  rfl
theorem pv_l_2 (i : _) (q : dot_S1x512x512_S1x512x1024_S1x512x1024_2_1_1_2_0_0.contr.Idx) :
    (dot_S1x512x512_S1x512x1024_S1x512x1024_2_1_1_2_0_0.lhsIdx i q 2).val = (q ⟨0, by decide⟩).val :=
  dot_S1x512x512_S1x512x1024_S1x512x1024_2_1_1_2_0_0.lhsIdx_val_of_single rfl i q
theorem pv_r_0 (i : _) (q : dot_S1x512x512_S1x512x1024_S1x512x1024_2_1_1_2_0_0.contr.Idx) :
    (dot_S1x512x512_S1x512x1024_S1x512x1024_2_1_1_2_0_0.rhsIdx i q 0).val = (i 0).val := by
  unfold DotDims.rhsIdx
  rw [dif_pos (show (0 : Fin S1x512x1024.rank) ∈ dot_S1x512x512_S1x512x1024_S1x512x1024_2_1_1_2_0_0.rhsBatch by decide)]
  rfl
theorem pv_r_1 (i : _) (q : dot_S1x512x512_S1x512x1024_S1x512x1024_2_1_1_2_0_0.contr.Idx) :
    (dot_S1x512x512_S1x512x1024_S1x512x1024_2_1_1_2_0_0.rhsIdx i q 1).val = (q ⟨0, by decide⟩).val :=
  dot_S1x512x512_S1x512x1024_S1x512x1024_2_1_1_2_0_0.rhsIdx_val_of_single rfl i q
theorem pv_r_2 (i : _) (q : dot_S1x512x512_S1x512x1024_S1x512x1024_2_1_1_2_0_0.contr.Idx) :
    (dot_S1x512x512_S1x512x1024_S1x512x1024_2_1_1_2_0_0.rhsIdx i q 2).val = (i 2).val := by
  unfold DotDims.rhsIdx
  rw [dif_neg (show ¬(2 : Fin S1x512x1024.rank) ∈ dot_S1x512x512_S1x512x1024_S1x512x1024_2_1_1_2_0_0.rhsBatch by decide), dif_pos (show (2 : Fin S1x512x1024.rank) ∈ dot_S1x512x512_S1x512x1024_S1x512x1024_2_1_1_2_0_0.rhsNonContracting by decide)]
  rfl

/-- Query rows against key rows: entry (r, c) is the inner product over the 1024 features. -/
theorem qk_apply (q k : FVec Ideal S1x512x1024 .bf16) (r c : Fin 512) :
    matmul dot_S1x512x1024_S1x512x1024_S1x512x512_2_2_1_1_0_0 none q k (constant (F := Ideal) S1x512x512 .f32 0x00000000#32) (ix3 0 r c)
      = ∑ d : Fin 1024, q (ix3 0 r d) * k (ix3 0 c d) := by
  show FloatOps.matmul dot_S1x512x1024_S1x512x1024_S1x512x512_2_2_1_1_0_0 none q k _ _ = _
  rw [Ideal.matmul_constant_zero_apply, ← Equiv.sum_comp (contrEquiv1 dot_S1x512x1024_S1x512x1024_S1x512x512_2_2_1_1_0_0 1024 rfl rfl).symm]
  refine Finset.sum_congr rfl fun d _ => ?_
  have hk := contrEquiv1_symm_val dot_S1x512x1024_S1x512x1024_S1x512x512_2_2_1_1_0_0 1024 rfl rfl d
  have el : dot_S1x512x1024_S1x512x1024_S1x512x512_2_2_1_1_0_0.lhsIdx (ix3 0 r c) ((contrEquiv1 dot_S1x512x1024_S1x512x1024_S1x512x512_2_2_1_1_0_0 1024 rfl rfl).symm d) = ix3 0 r d :=
    funext fun a => Fin.ext (by
      match a with
      | ⟨0, _⟩ => exact qk_l_0 _ _
      | ⟨1, _⟩ => exact qk_l_1 _ _
      | ⟨2, _⟩ => exact (qk_l_2 _ _).trans hk)
  have er : dot_S1x512x1024_S1x512x1024_S1x512x512_2_2_1_1_0_0.rhsIdx (ix3 0 r c) ((contrEquiv1 dot_S1x512x1024_S1x512x1024_S1x512x512_2_2_1_1_0_0 1024 rfl rfl).symm d) = ix3 0 c d :=
    funext fun a => Fin.ext (by
      match a with
      | ⟨0, _⟩ => exact qk_r_0 _ _
      | ⟨1, _⟩ => exact qk_r_1 _ _
      | ⟨2, _⟩ => exact (qk_r_2 _ _).trans hk)
  rw [el, er]

/-- Weights against value rows: entry (r, o) is the sum over the tile's 512 keys. -/
theorem pv_apply (p : FVec Ideal S1x512x512 .bf16) (v : FVec Ideal S1x512x1024 .bf16) (r : Fin 512) (o : Fin 1024) :
    matmul dot_S1x512x512_S1x512x1024_S1x512x1024_2_1_1_2_0_0 none p v (constant (F := Ideal) S1x512x1024 .f32 0x00000000#32) (ix3 0 r o)
      = ∑ c : Fin 512, p (ix3 0 r c) * v (ix3 0 c o) := by
  show FloatOps.matmul dot_S1x512x512_S1x512x1024_S1x512x1024_2_1_1_2_0_0 none p v _ _ = _
  rw [Ideal.matmul_constant_zero_apply, ← Equiv.sum_comp (contrEquiv1 dot_S1x512x512_S1x512x1024_S1x512x1024_2_1_1_2_0_0 512 rfl rfl).symm]
  refine Finset.sum_congr rfl fun d _ => ?_
  have hk := contrEquiv1_symm_val dot_S1x512x512_S1x512x1024_S1x512x1024_2_1_1_2_0_0 512 rfl rfl d
  have el : dot_S1x512x512_S1x512x1024_S1x512x1024_2_1_1_2_0_0.lhsIdx (ix3 0 r o) ((contrEquiv1 dot_S1x512x512_S1x512x1024_S1x512x1024_2_1_1_2_0_0 512 rfl rfl).symm d) = ix3 0 r d :=
    funext fun a => Fin.ext (by
      match a with
      | ⟨0, _⟩ => exact pv_l_0 _ _
      | ⟨1, _⟩ => exact pv_l_1 _ _
      | ⟨2, _⟩ => exact (pv_l_2 _ _).trans hk)
  have er : dot_S1x512x512_S1x512x1024_S1x512x1024_2_1_1_2_0_0.rhsIdx (ix3 0 r o) ((contrEquiv1 dot_S1x512x512_S1x512x1024_S1x512x1024_2_1_1_2_0_0 512 rfl rfl).symm d) = ix3 0 d o :=
    funext fun a => Fin.ext (by
      match a with
      | ⟨0, _⟩ => exact pv_r_0 _ _
      | ⟨1, _⟩ => exact (pv_r_1 _ _).trans hk
      | ⟨2, _⟩ => exact pv_r_2 _ _)
  rw [el, er]

/-! ## The constants -/

/-- The masking fill is the named constant, −∞ on the extended reals. -/
theorem neg_big : Named.named (F := Ideal) κ "neg_big" (φ := .f32) 0xFF333332#32 = (⊥ : EReal) :=
  IdealRules.named_const.ideal_named_scalar _ _ _ _ rfl

/-- The f32 pattern of −∞. -/
theorem ninf_f32 : Ideal.ofBits .f32 0xFF800000#32 = (⊥ : EReal) := by simp [Ideal.ofBits, Ideal.ieee]

/-- Position 512·t + j as a 32-bit word, the way the kernel computes it. -/
theorem pos_word (t j : Nat) :
    IntOp.addi (Scalar.muli (BitVec.ofNat 32 t) 512#32) (BitVec.ofNat 32 j) = BitVec.ofNat 32 (512 * t + j) := by
  show BitVec.ofNat 32 t * BitVec.ofNat 32 512 + BitVec.ofNat 32 j = _
  rw [← BitVec.ofNat_mul, ← BitVec.ofNat_add, Nat.mul_comm]

/-! ## The tile's scores -/

/-- The score of key column c for query row r, in query block qi against key tile ki: the inner product when the key's
    position 512·ki + c does not exceed the query's 512·qi + r, and −∞ otherwise. -/
theorem score_apply (qi ki : Nat) (hq : qi < 4) (hk : ki < 4) (q k : Vec Ideal S1x512x1024 .bf16) (r c : Fin 512) :
    k1_pay7 (F := Ideal) (BitVec.ofNat 32 qi) (BitVec.ofNat 32 ki) q k (ix3 0 r c)
      = if 512 * ki + c.val ≤ 512 * qi + r.val then ∑ d : Fin 1024, q (ix3 0 r d) * k (ix3 0 c d) else ⊥ := by
  unfold k1_pay7
  simp only [select_apply, broadcast_apply]
  rw [shapeCast_self, shapeCast_self, qk_apply, neg_big]
  show Scalar.select (IntOp.cmpi .sge
      (IntOp.addi (Scalar.muli (BitVec.ofNat 32 qi) 512#32) (iota .tc S1x512x512 32 [1] iota_S1x512x512_d1_w32 (ix3 0 r c)))
      (IntOp.addi (Scalar.muli (BitVec.ofNat 32 ki) 512#32) (iota .tc S1x512x512 32 [2] iota_S1x512x512_d2_w32 (ix3 0 r c)))) _ _ = _
  rw [iota_single_apply, iota_single_apply]
  show Scalar.select (IntOp.cmpi .sge
      (IntOp.addi (Scalar.muli (BitVec.ofNat 32 qi) 512#32) (BitVec.ofNat 32 r.val))
      (IntOp.addi (Scalar.muli (BitVec.ofNat 32 ki) 512#32) (BitVec.ofNat 32 c.val))) _ _ = _
  rw [pos_word, pos_word, CausalMask.select_sge_ofNat _ _ (by have := r.isLt; omega) (by have := c.isLt; omega)]

/-! ## The running maximum, the rescaling factor and the tile's weights -/

theorem runmax_apply (a1 a2 : BitVec 32) (q k : Vec Ideal S1x512x1024 .bf16) (m : Vec Ideal S1x512x1 .f32) (r : Fin 512) :
    k1_pay8 (F := Ideal) a1 a2 q k m (ix3 0 r 0)
      = max (m (ix3 0 r 0)) ((Finset.univ : Finset (Fin 512)).fold max ⊥ fun c => k1_pay7 (F := Ideal) a1 a2 q k (ix3 0 r c)) := by
  unfold k1_pay8
  try dsimp only
  rw [maximumf_apply, Keepdims.cast_col3_apply]
  refine congrArg (max _) ((SoftmaxLanes.laneMax3_apply _ _ _ _ _ 0 r).trans ?_)
  rw [ninf_f32]

theorem alpha_apply (a1 a2 : BitVec 32) (q k : Vec Ideal S1x512x1024 .bf16) (m m' : Vec Ideal S1x512x1 .f32) (r : Fin 512) :
    k1_pay9 (F := Ideal) a1 a2 q k m m' (ix3 0 r 0)
      = Ideal.exp (m' (ix3 0 r 0) - k1_pay8 (F := Ideal) a1 a2 q k m (ix3 0 r 0)) := by
  unfold k1_pay9
  rfl

theorem weight_apply (a1 a2 : BitVec 32) (q k : Vec Ideal S1x512x1024 .bf16) (m : Vec Ideal S1x512x1 .f32) (r c : Fin 512) :
    k1_pay10 (F := Ideal) a1 a2 q k m (ix3 0 r c)
      = Ideal.exp (k1_pay7 (F := Ideal) a1 a2 q k (ix3 0 r c) - k1_pay8 (F := Ideal) a1 a2 q k m (ix3 0 r 0)) := by
  unfold k1_pay10
  show Ideal.exp (k1_pay7 (F := Ideal) a1 a2 q k (ix3 0 r c)
    - broadcastTo S1x512x512 (k1_pay8 (F := Ideal) a1 a2 q k m) broadcasts_S1x512x1_S1x512x512 (ix3 0 r c)) = _
  rw [Keepdims.bcast_col3_apply]

/-! ## The normalizer, the accumulator, the output -/

theorem norm_apply (a1 a2 : BitVec 32) (q k : Vec Ideal S1x512x1024 .bf16) (m m' l : Vec Ideal S1x512x1 .f32) (r : Fin 512) :
    k1_pay11 (F := Ideal) a1 a2 q k m m' l (ix3 0 r 0)
      = k1_pay9 (F := Ideal) a1 a2 q k m m' (ix3 0 r 0) * l (ix3 0 r 0)
        + ∑ c : Fin 512, k1_pay10 (F := Ideal) a1 a2 q k m (ix3 0 r c) := by
  unfold k1_pay11
  try dsimp only
  rw [shapeCast_self, addf_apply, mulf_apply, Keepdims.cast_col3_apply]
  exact congrArg (_ + ·) (Keepdims.laneSum3_apply _ _ _ _ _ 0 r)

theorem acc_apply (v31 : FVec Ideal S1x512x1 .f32) (v34 : FVec Ideal S1x512x512 .f32) (acc : Vec Ideal S1x512x1024 .f32)
    (v : Vec Ideal S1x512x1024 .bf16) (r : Fin 512) (o : Fin 1024) :
    k1_pay4 (F := Ideal) v31 v34 acc v (ix3 0 r o)
      = v31 (ix3 0 r 0) * acc (ix3 0 r o) + ∑ c : Fin 512, v34 (ix3 0 r c) * v (ix3 0 c o) := by
  unfold k1_pay4
  try dsimp only
  rw [shapeCast_self, addf_apply, mulf_apply, Keepdims.bcast_col3_apply, shapeCast_self, pv_apply]
  rfl

theorem keepmax_eq (v28 : FVec Ideal S1x512x1 .f32) : k1_pay5 (F := Ideal) v28 = v28 := by
  unfold k1_pay5
  exact shapeCast_self _ _

theorem out_apply (acc : Vec Ideal S1x512x1024 .f32) (l : Vec Ideal S1x512x1 .f32) (r : Fin 512) (o : Fin 1024) :
    k1_pay6 (F := Ideal) acc l (ix3 0 r o) = Ideal.div (acc (ix3 0 r o)) (l (ix3 0 r 0)) := by
  unfold k1_pay6
  try dsimp only
  rw [divf_apply, Keepdims.bcast_col3_apply]

/-! ## The reset -/

theorem init_max (i : S1x512x1.Idx) : k1_pay1 (F := Ideal) i = (⊥ : EReal) := by
  unfold k1_pay1
  try dsimp only
  rw [shapeCast_self]
  exact ninf_f32

theorem init_norm (i : S1x512x1.Idx) : k1_pay2 (F := Ideal) i = (0 : EReal) := by
  unfold k1_pay2
  try dsimp only
  rw [shapeCast_self]
  exact Ideal.ofBits_zero_f32

theorem init_acc (i : S1x512x1024.Idx) : k1_pay3 (F := Ideal) i = (0 : EReal) := by
  unfold k1_pay3
  try dsimp only
  rw [shapeCast_self]
  exact Ideal.ofBits_zero_f32

end Cert.KernelIdeal.KV1

end
-- ==== Proof.LibOnlineSoftmax.lean ====
/-
  The online softmax of one attention row, on the extended reals.

  A row of scores is met tile by tile. Before tile k the row carries a running maximum m_k, a running normalizer l_k and,
  for one output column, a running weighted sum a_k of that column's values; tile k replaces them by

      m_{k+1} = max m_k (max of the tile's scores),
      l_{k+1} = exp (m_k − m_{k+1}) · l_k + ∑_c exp (s_{k,c} − m_{k+1}),
      a_{k+1} = exp (m_k − m_{k+1}) · a_k + ∑_c exp (s_{k,c} − m_{k+1}) · v_{k,c},

  starting from m_0 = −∞, l_0 = a_0 = 0. When every score and value is a real number, then after n ≥ 1 tiles m_n is a
  real number and

      l_n = (∑_{k<n} ∑_c exp s_{k,c}) / exp m_n ,      a_n = (∑_{k<n} ∑_c exp s_{k,c} · v_{k,c}) / exp m_n :

  by induction, since exp (m − m') · (L / exp m) = L / exp m' and exp (s − m') = exp s / exp m'; the first tile is the same
  computation with exp (−∞ − m') · 0 = 0. So a_n / l_n is the softmax-weighted mean ∑ exp s · v / ∑ exp s, whatever the
  maxima were. The textbook form — subtract the row's maximum M, exponentiate, divide by the sum, then weight the values —
  is the same mean for the same reason (exp (s − M) = exp s / exp M cancels in the quotient). A sum over 4·1024 columns is
  the double sum over 4 tiles of 1024 columns.
-/
import Idealize.ShloMosaic.PureOps.Ideal
import Idealize.ShloMosaic.PureOps.Ideal.Laws

noncomputable section

open scoped BigOperators

namespace Cert.OnlineSoftmax

open Idealize.ShloMosaic

variable {W : Nat}

/-- The greatest score of a tile, folded from the starting value. -/
def tileMax (ninf : EReal) (σ : Fin W → EReal) : EReal := (Finset.univ : Finset (Fin W)).fold max ninf σ

/-- The running maximum before tile k. -/
def mSt (ninf : EReal) (σ : ℕ → Fin W → EReal) : ℕ → EReal
  | 0 => ninf
  | k + 1 => max (mSt ninf σ k) (tileMax ninf (σ k))

/-- The running normalizer before tile k. -/
def lSt (ninf z : EReal) (σ : ℕ → Fin W → EReal) : ℕ → EReal
  | 0 => z
  | k + 1 => Ideal.exp (mSt ninf σ k - mSt ninf σ (k + 1)) * lSt ninf z σ k
      + ∑ c : Fin W, Ideal.exp (σ k c - mSt ninf σ (k + 1))

/-- The running weighted sum of one output column before tile k. -/
def aSt (ninf z : EReal) (σ ν : ℕ → Fin W → EReal) : ℕ → EReal
  | 0 => z
  | k + 1 => Ideal.exp (mSt ninf σ k - mSt ninf σ (k + 1)) * aSt ninf z σ ν k
      + ∑ c : Fin W, Ideal.exp (σ k c - mSt ninf σ (k + 1)) * ν k c

/-- A finite sum of real numbers, taken on the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The greatest of finitely many reals, folded from −∞ over a nonempty index type, is a real number. -/
theorem fold_max_real {ι : Type*} [Fintype ι] [Nonempty ι] (f : ι → ℝ) :
    ∃ r : ℝ, (Finset.univ : Finset ι).fold max (⊥ : EReal) (fun k => (f k : EReal)) = r := by
  have hlt : (Finset.univ : Finset ι).fold max (⊥ : EReal) (fun k => (f k : EReal)) < ⊤ := by
    rw [Finset.fold_max_lt]
    exact ⟨bot_lt_top, fun k _ => EReal.coe_lt_top _⟩
  have hgt : (⊥ : EReal) < (Finset.univ : Finset ι).fold max (⊥ : EReal) (fun k => (f k : EReal)) := by
    rw [Finset.lt_fold_max]
    obtain ⟨k⟩ := ‹Nonempty ι›
    exact Or.inr ⟨k, Finset.mem_univ k, EReal.bot_lt_coe _⟩
  exact ⟨_, (EReal.coe_toReal hlt.ne hgt.ne').symm⟩

/-- One tile, for real scores and values: from a row state that is either the start (−∞, 0, 0) or real with
    l = L / exp m and a = A / exp m, the next state is real with the tile's terms added to L and A. -/
theorem step_real [NeZero W] (σr νr : Fin W → ℝ) (m l a : EReal) (L A : ℝ)
    (h : (m = ⊥ ∧ l = 0 ∧ a = 0 ∧ L = 0 ∧ A = 0)
      ∨ ∃ mr : ℝ, m = mr ∧ l = ((L / Real.exp mr : ℝ) : EReal) ∧ a = ((A / Real.exp mr : ℝ) : EReal)) :
    ∃ mr' : ℝ, max m (tileMax ⊥ (fun c => (σr c : EReal))) = mr'
      ∧ Ideal.exp (m - mr') * l + ∑ c : Fin W, Ideal.exp ((σr c : EReal) - mr')
          = (((L + ∑ c : Fin W, Real.exp (σr c)) / Real.exp mr' : ℝ) : EReal)
      ∧ Ideal.exp (m - mr') * a + ∑ c : Fin W, Ideal.exp ((σr c : EReal) - mr') * (νr c : EReal)
          = (((A + ∑ c : Fin W, Real.exp (σr c) * νr c) / Real.exp mr' : ℝ) : EReal) := by
  haveI : Nonempty (Fin W) := ⟨⟨0, Nat.pos_of_ne_zero (NeZero.ne W)⟩⟩
  obtain ⟨tm, htm⟩ := fold_max_real σr
  have hsum1 : ∀ mr' : ℝ, ∑ c : Fin W, Ideal.exp ((σr c : EReal) - mr')
      = ((∑ c : Fin W, Real.exp (σr c) / Real.exp mr' : ℝ) : EReal) := fun mr' => by
    rw [← coe_sum]
    refine Finset.sum_congr rfl fun c _ => ?_
    rw [← EReal.coe_sub, Ideal.exp_coe, Real.exp_sub]
  have hsum2 : ∀ mr' : ℝ, ∑ c : Fin W, Ideal.exp ((σr c : EReal) - mr') * (νr c : EReal)
      = ((∑ c : Fin W, Real.exp (σr c) * νr c / Real.exp mr' : ℝ) : EReal) := fun mr' => by
    rw [← coe_sum]
    refine Finset.sum_congr rfl fun c _ => ?_
    rw [← EReal.coe_sub, Ideal.exp_coe, Real.exp_sub, ← EReal.coe_mul]
    congr 1; ring
  rcases h with ⟨rfl, rfl, rfl, rfl, rfl⟩ | ⟨mr, rfl, rfl, rfl⟩
  · refine ⟨tm, ?_, ?_, ?_⟩
    · unfold tileMax; rw [htm]; exact max_eq_right bot_le
    · rw [hsum1, EReal.bot_sub, Ideal.exp_bot, zero_mul, zero_add, zero_add, Finset.sum_div]
    · rw [hsum2, EReal.bot_sub, Ideal.exp_bot, zero_mul, zero_add, zero_add, Finset.sum_div]
  · refine ⟨max mr tm, ?_, ?_, ?_⟩
    · unfold tileMax; rw [htm]; exact (EReal.coe_strictMono.monotone.map_max (a := mr) (b := tm)).symm
    · rw [hsum1, ← EReal.coe_sub, Ideal.exp_coe, ← EReal.coe_mul, ← EReal.coe_add, Real.exp_sub, add_div,
        Finset.sum_div]
      congr 2
      field_simp
    · rw [hsum2, ← EReal.coe_sub, Ideal.exp_coe, ← EReal.coe_mul, ← EReal.coe_add, Real.exp_sub, add_div,
        Finset.sum_div]
      congr 2
      field_simp

/-- After n ≥ 1 tiles of real scores and values the running maximum is real, and the normalizer and the weighted sum are
    the plain sums of exponentials divided by its exponential. -/
theorem state_real [NeZero W] (σr νr : ℕ → Fin W → ℝ) (n : ℕ) :
    ∃ mr : ℝ, mSt ⊥ (fun k c => (σr k c : EReal)) (n + 1) = mr
      ∧ lSt ⊥ 0 (fun k c => (σr k c : EReal)) (n + 1)
          = (((∑ k ∈ Finset.range (n + 1), ∑ c : Fin W, Real.exp (σr k c)) / Real.exp mr : ℝ) : EReal)
      ∧ aSt ⊥ 0 (fun k c => (σr k c : EReal)) (fun k c => (νr k c : EReal)) (n + 1)
          = (((∑ k ∈ Finset.range (n + 1), ∑ c : Fin W, Real.exp (σr k c) * νr k c) / Real.exp mr : ℝ) : EReal) := by
  induction n with
  | zero =>
    obtain ⟨mr', h1, h2, h3⟩ := step_real (σr 0) (νr 0) ⊥ 0 0 0 0 (Or.inl ⟨rfl, rfl, rfl, rfl, rfl⟩)
    refine ⟨mr', h1, ?_, ?_⟩
    · show Ideal.exp (⊥ - max ⊥ (tileMax ⊥ fun c => (σr 0 c : EReal))) * 0 + ∑ c : Fin W, Ideal.exp ((σr 0 c : EReal) - max ⊥ (tileMax ⊥ fun c => (σr 0 c : EReal))) = _
      rw [h1, h2, Finset.sum_range_one, zero_add]
    · show Ideal.exp (⊥ - max ⊥ (tileMax ⊥ fun c => (σr 0 c : EReal))) * 0 + ∑ c : Fin W, Ideal.exp ((σr 0 c : EReal) - max ⊥ (tileMax ⊥ fun c => (σr 0 c : EReal))) * (νr 0 c : EReal) = _
      rw [h1, h3, Finset.sum_range_one, zero_add]
  | succ n ih =>
    obtain ⟨mr, hm, hl, ha⟩ := ih
    obtain ⟨mr', h1, h2, h3⟩ := step_real (σr (n + 1)) (νr (n + 1)) _ _ _ _ _ (Or.inr ⟨mr, hm, hl, ha⟩)
    refine ⟨mr', h1, ?_, ?_⟩
    · show Ideal.exp (mSt ⊥ _ (n + 1) - max (mSt ⊥ _ (n + 1)) (tileMax ⊥ fun c => (σr (n + 1) c : EReal))) * lSt ⊥ 0 _ (n + 1) + ∑ c : Fin W, Ideal.exp ((σr (n + 1) c : EReal) - max (mSt ⊥ _ (n + 1)) (tileMax ⊥ fun c => (σr (n + 1) c : EReal))) = _
      rw [h1, h2, Finset.sum_range_succ _ (n + 1)]
    · show Ideal.exp (mSt ⊥ _ (n + 1) - max (mSt ⊥ _ (n + 1)) (tileMax ⊥ fun c => (σr (n + 1) c : EReal))) * aSt ⊥ 0 _ _ (n + 1) + ∑ c : Fin W, Ideal.exp ((σr (n + 1) c : EReal) - max (mSt ⊥ _ (n + 1)) (tileMax ⊥ fun c => (σr (n + 1) c : EReal))) * (νr (n + 1) c : EReal) = _
      rw [h1, h3, Finset.sum_range_succ _ (n + 1)]

/-- The ideal quotient of a real by a nonzero real is the real quotient. -/
theorem div_coe_coe (p q : ℝ) (hq : q ≠ 0) : Ideal.div (p : EReal) (q : EReal) = ((p / q : ℝ) : EReal) := by
  rw [Ideal.div_coe hq, ← EReal.coe_mul, mul_one_div]

/-- The online result: after n ≥ 1 tiles of real scores and values, weighted sum over normalizer is the softmax-weighted mean. -/
theorem online_quotient [NeZero W] (σr νr : ℕ → Fin W → ℝ) (n : ℕ) :
    Ideal.div (aSt ⊥ 0 (fun k c => (σr k c : EReal)) (fun k c => (νr k c : EReal)) (n + 1))
        (lSt ⊥ 0 (fun k c => (σr k c : EReal)) (n + 1))
      = (((∑ k ∈ Finset.range (n + 1), ∑ c : Fin W, Real.exp (σr k c) * νr k c)
          / (∑ k ∈ Finset.range (n + 1), ∑ c : Fin W, Real.exp (σr k c)) : ℝ) : EReal) := by
  obtain ⟨mr, -, hl, ha⟩ := state_real σr νr n
  have hpos : 0 < ∑ k ∈ Finset.range (n + 1), ∑ c : Fin W, Real.exp (σr k c) :=
    Finset.sum_pos (fun k _ => Finset.sum_pos (fun c _ => Real.exp_pos _)
      ⟨⟨0, Nat.pos_of_ne_zero (NeZero.ne W)⟩, Finset.mem_univ _⟩) ⟨0, Finset.mem_range.mpr (Nat.succ_pos n)⟩
  rw [hl, ha, div_coe_coe _ _ (div_ne_zero hpos.ne' (Real.exp_pos mr).ne')]
  congr 1
  field_simp

/-- The textbook form: for a nonempty row of real scores and real values, subtracting the row's maximum (taken once
    more against −∞), exponentiating, dividing by zero plus the sum, and weighting the values gives the same mean. -/
theorem textbook_quotient {ι : Type*} [Fintype ι] [Nonempty ι] (sr vr : ι → ℝ) :
    ∑ j : ι, Ideal.div (Ideal.exp ((sr j : EReal) - max ⊥ ((Finset.univ : Finset ι).fold max ⊥ fun j => (sr j : EReal))))
        (0 + ∑ j' : ι, Ideal.exp ((sr j' : EReal) - max ⊥ ((Finset.univ : Finset ι).fold max ⊥ fun j => (sr j : EReal))))
        * (vr j : EReal)
      = (((∑ j : ι, Real.exp (sr j) * vr j) / (∑ j : ι, Real.exp (sr j)) : ℝ) : EReal) := by
  obtain ⟨M, hM⟩ := fold_max_real sr
  have hpos : 0 < ∑ j : ι, Real.exp (sr j) :=
    Finset.sum_pos (fun j _ => Real.exp_pos _) (Finset.univ_nonempty)
  have hden : (0 : EReal) + ∑ j' : ι, Ideal.exp ((sr j' : EReal) - (M : EReal))
      = (((∑ j : ι, Real.exp (sr j)) / Real.exp M : ℝ) : EReal) := by
    rw [zero_add, Finset.sum_div, ← coe_sum]
    refine Finset.sum_congr rfl fun j _ => ?_
    rw [← EReal.coe_sub, Ideal.exp_coe, Real.exp_sub]
  rw [hM, max_eq_right bot_le, hden]
  refine ((Finset.sum_congr rfl fun j _ => ?_).trans
    (coe_sum Finset.univ (fun j => Real.exp (sr j) * vr j / ∑ j, Real.exp (sr j)))).trans (by rw [Finset.sum_div])
  rw [← EReal.coe_sub, Ideal.exp_coe, div_coe_coe _ _ (div_ne_zero hpos.ne' (Real.exp_pos M).ne'), ← EReal.coe_mul,
    Real.exp_sub]
  congr 1
  field_simp

/-- Column c of tile k among 4 · 1024 columns. -/
abbrev col (k : ℕ) (c : Fin 1024) : Fin 4096 := ⟨(1024 * k + c.val) % 4096, Nat.mod_lt _ (by decide)⟩

/-- A sum over the 4096 columns is the sum over the 4 tiles of the sums over a tile's 1024 columns. -/
theorem sum_cols (g : Fin 4096 → ℝ) :
    ∑ j : Fin 4096, g j = ∑ k ∈ Finset.range 4, ∑ c : Fin 1024, g (col k c) := by
  rw [Finset.sum_range (fun k => ∑ c : Fin 1024, g (col k c)), ← Equiv.sum_comp (finProdFinEquiv (m := 4) (n := 1024)),
    Fintype.sum_prod_type]
  refine Finset.sum_congr rfl fun k _ => Finset.sum_congr rfl fun c _ => congrArg g (Fin.ext ?_)
  have hk := k.isLt; have hc := c.isLt
  show c.val + 1024 * k.val = (1024 * k.val + c.val) % 4096
  omega

end Cert.OnlineSoftmax

end
-- ==== Proof.KV1Row.lean ====
/-
  A query block's rows through its key tiles: the scratch state is the online-softmax recursion.

  The 64 grid points are 16 groups (a batch and a query block) of 4 key tiles. In a group whose query block is qi the
  first tile resets the running maximum to −∞ and the normalizer and accumulator to 0, and tiles 0..qi each apply one
  step of the recursion; so after tile j ≤ qi the state of row r is (m_{j+1}, l_{j+1}, a_{j+1}) of the recursion over the
  tiles' scores and values of that row.
-/
import proofs.«148900_j618475290737_2_alg».proof.Proof.IRegion1
import proofs.«148900_j618475290737_2_alg».proof.Proof.KV1Step
import proofs.«148900_j618475290737_2_alg».proof.Proof.LibOnlineSoftmax

noncomputable section

open scoped BigOperators

namespace Cert.KernelIdeal.KV1

open Cert.KernelIdeal Cert.KernelIdeal.Gen Cert.KernelIdeal.Hand Idealize.ShloMosaic Idealize.ShloMosaic.TcCoe
open Idealize.ShloMosaic.ValueIdx Idealize.SL.Sem Cert.OnlineSoftmax

/-! ## One tile, abstractly -/

/-- One tile's step on the three scratch arrays. -/
def tileStep (a1 a2 : BitVec 32) (q k v : Vec Ideal S1x512x1024 .bf16) (s : Sc Ideal) : Sc Ideal :=
  (k1_pay5 (k1_pay8 a1 a2 q k s.1), k1_pay11 a1 a2 q k s.1 s.1 s.2.1,
    k1_pay4 (k1_pay9 a1 a2 q k s.1 s.1) (k1_pay10 a1 a2 q k s.1) s.2.2 v)

theorem tileStep_max (a1 a2 : BitVec 32) (q k v : Vec Ideal S1x512x1024 .bf16) (s : Sc Ideal) (r : Fin 512) :
    (tileStep a1 a2 q k v s).1 (ix3 0 r 0)
      = max (s.1 (ix3 0 r 0)) (tileMax ⊥ fun cc => k1_pay7 (F := Ideal) a1 a2 q k (ix3 0 r cc)) := by
  show k1_pay5 (F := Ideal) (k1_pay8 a1 a2 q k s.1) (ix3 0 r 0) = _
  rw [keepmax_eq, runmax_apply]
  rfl

theorem tileStep_norm (a1 a2 : BitVec 32) (q k v : Vec Ideal S1x512x1024 .bf16) (s : Sc Ideal) (r : Fin 512) :
    (tileStep a1 a2 q k v s).2.1 (ix3 0 r 0)
      = Ideal.exp (s.1 (ix3 0 r 0) - (tileStep a1 a2 q k v s).1 (ix3 0 r 0)) * s.2.1 (ix3 0 r 0)
        + ∑ cc : Fin 512, Ideal.exp (k1_pay7 (F := Ideal) a1 a2 q k (ix3 0 r cc) - (tileStep a1 a2 q k v s).1 (ix3 0 r 0)) := by
  have hm : (tileStep a1 a2 q k v s).1 (ix3 0 r 0) = k1_pay8 (F := Ideal) a1 a2 q k s.1 (ix3 0 r 0) := by
    show k1_pay5 (F := Ideal) (k1_pay8 a1 a2 q k s.1) (ix3 0 r 0) = _
    rw [keepmax_eq]
  rw [hm]
  show k1_pay11 (F := Ideal) a1 a2 q k s.1 s.1 s.2.1 (ix3 0 r 0) = _
  rw [norm_apply, alpha_apply]
  exact congrArg (_ + ·) (Finset.sum_congr rfl fun cc _ => weight_apply a1 a2 q k s.1 r cc)

theorem tileStep_acc (a1 a2 : BitVec 32) (q k v : Vec Ideal S1x512x1024 .bf16) (s : Sc Ideal) (r : Fin 512) (o : Fin 1024) :
    (tileStep a1 a2 q k v s).2.2 (ix3 0 r o)
      = Ideal.exp (s.1 (ix3 0 r 0) - (tileStep a1 a2 q k v s).1 (ix3 0 r 0)) * s.2.2 (ix3 0 r o)
        + ∑ cc : Fin 512, Ideal.exp (k1_pay7 (F := Ideal) a1 a2 q k (ix3 0 r cc) - (tileStep a1 a2 q k v s).1 (ix3 0 r 0))
            * v (ix3 0 cc o) := by
  have hm : (tileStep a1 a2 q k v s).1 (ix3 0 r 0) = k1_pay8 (F := Ideal) a1 a2 q k s.1 (ix3 0 r 0) := by
    show k1_pay5 (F := Ideal) (k1_pay8 a1 a2 q k s.1) (ix3 0 r 0) = _
    rw [keepmax_eq]
  rw [hm]
  show k1_pay4 (F := Ideal) (k1_pay9 a1 a2 q k s.1 s.1) (k1_pay10 a1 a2 q k s.1) s.2.2 v (ix3 0 r o) = _
  rw [acc_apply, alpha_apply]
  exact congrArg (_ + ·) (Finset.sum_congr rfl fun cc _ => congrArg (· * _) (weight_apply a1 a2 q k s.1 r cc))

/-- The body's effect on the scratch at a point that resets and steps, -/
theorem stepSc_first (i : grid1.Coords) (q k v : Vec Ideal S1x512x1024 .bf16) (s : Sc Ideal) (h1 : cond1_1 i) (h2 : cond1_2 i) :
    stepSc (F := Ideal) i q k v s
      = tileStep (BitVec.ofNat 32 (i 1).val) (BitVec.ofNat 32 (i 2).val) q k v (k1_pay1, k1_pay2, k1_pay3) := by
  unfold stepSc tileStep
  simp only [if_pos h1, if_pos h2]

/-- and at a point that only steps. -/
theorem stepSc_next (i : grid1.Coords) (q k v : Vec Ideal S1x512x1024 .bf16) (s : Sc Ideal) (h1 : ¬cond1_1 i) (h2 : cond1_2 i) :
    stepSc (F := Ideal) i q k v s
      = tileStep (BitVec.ofNat 32 (i 1).val) (BitVec.ofNat 32 (i 2).val) q k v s := by
  unfold stepSc tileStep
  simp only [if_neg h1, if_pos h2]

/-! ## The grid's coordinates -/

/-- Point t has batch t / 16, query block t / 4 mod 4 and key tile t mod 4. -/
theorem coords_eq : ∀ t : Fin cfg1.N, (grid1.coords t 0).val = t.val / 16 ∧ (grid1.coords t 1).val = t.val / 4 % 4
    ∧ (grid1.coords t 2).val = t.val % 4 :=
  (by decide +kernel : ∀ t : Fin grid1.N, (grid1.coords t 0).val = t.val / 16 ∧ (grid1.coords t 1).val = t.val / 4 % 4
    ∧ (grid1.coords t 2).val = t.val % 4)

/-- Tile j of group g. -/
def pt (g j : ℕ) (hg : g < 16) (hj : j < 4) : Fin cfg1.N := ⟨4 * g + j, by show 4 * g + j < grid1.N; rw [N_1]; omega⟩

section Row

variable (V : (c : Dev nD) → (b : Ref sig .tc) → Buf (Elt Ideal) ((c : Thread nD τ).loc b)) (c : Dev nD)

/-- Row r's scores against tile j, in group g (whose query block is g mod 4). -/
def rowScore (g : ℕ) (hg : g < 16) (r : Fin 512) : ℕ → Fin 512 → EReal := fun j cc =>
  if hj : j < 4 then
    k1_pay7 (F := Ideal) (BitVec.ofNat 32 (g % 4)) (BitVec.ofNat 32 j) (iblk1 V c 0 (pt g j hg hj)) (iblk1 V c 1 (pt g j hg hj)) (ix3 0 r cc)
  else ⊥

/-- Tile j's values for output feature o. -/
def rowVal (g : ℕ) (hg : g < 16) (o : Fin 1024) : ℕ → Fin 512 → EReal := fun j cc =>
  if hj : j < 4 then iblk1 V c 2 (pt g j hg hj) (ix3 0 cc o) else 0

theorem rowScore_at (g : ℕ) (hg : g < 16) (r : Fin 512) (j : ℕ) (hj : j < 4) :
    rowScore V c g hg r j = fun cc => k1_pay7 (F := Ideal) (BitVec.ofNat 32 (g % 4)) (BitVec.ofNat 32 j)
      (iblk1 V c 0 (pt g j hg hj)) (iblk1 V c 1 (pt g j hg hj)) (ix3 0 r cc) := by
  funext cc; unfold rowScore; rw [dif_pos hj]

theorem rowVal_at (g : ℕ) (hg : g < 16) (o : Fin 1024) (j : ℕ) (hj : j < 4) (cc : Fin 512) :
    rowVal V c g hg o j cc = iblk1 V c 2 (pt g j hg hj) (ix3 0 cc o) := by
  unfold rowVal; rw [dif_pos hj]

/-- The scratch after tile j of group g is one tile's step from the scratch before it — from the reset state at tile 0. -/
theorem scAt_tile (g j : ℕ) (hg : g < 16) (hj : j < 4) (hjq : j ≤ g % 4) :
    scAt V c (4 * g + j + 1)
      = tileStep (BitVec.ofNat 32 (g % 4)) (BitVec.ofNat 32 j) (iblk1 V c 0 (pt g j hg hj)) (iblk1 V c 1 (pt g j hg hj))
          (iblk1 V c 2 (pt g j hg hj)) (if j = 0 then (k1_pay1, k1_pay2, k1_pay3) else scAt V c (4 * g + j)) := by
  have hs := scAt_succ V c (pt g j hg hj)
  have hc := coords_eq (pt g j hg hj)
  have h1 : (grid1.coords (pt g j hg hj) 1).val = g % 4 := by rw [hc.2.1]; show (4 * g + j) / 4 % 4 = g % 4; omega
  have h2 : (grid1.coords (pt g j hg hj) 2).val = j := by rw [hc.2.2]; show (4 * g + j) % 4 = j; omega
  have hc2 : cond1_2 (grid1.coords (pt g j hg hj)) := (hcond1_2 (pt g j hg hj)).mpr (by
    show (4 * g + j) % 4 ≤ (4 * g + j) / 4 % 4; omega)
  have hc1 : cond1_1 (grid1.coords (pt g j hg hj)) ↔ j = 0 := (hcond1_1 (pt g j hg hj)).trans (by
    show (4 * g + j) % 4 = 0 ↔ j = 0; omega)
  show scAt V c ((pt g j hg hj).val + 1) = _
  rw [hs]
  by_cases h0 : j = 0
  · rw [stepSc_first _ _ _ _ _ (hc1.mpr h0) hc2, h1, h2, if_pos h0]
  · rw [stepSc_next _ _ _ _ _ (fun h => h0 (hc1.mp h)) hc2, h1, h2, if_neg h0]
    rfl

/-- After tile j ≤ qi of its group, row r's running maximum, normalizer and accumulator are the recursion's. -/
theorem row_state (g : ℕ) (hg : g < 16) (r : Fin 512) (j : ℕ) (hjq : j ≤ g % 4) :
    (scAt V c (4 * g + j + 1)).1 (ix3 0 r 0) = mSt ⊥ (rowScore V c g hg r) (j + 1)
    ∧ (scAt V c (4 * g + j + 1)).2.1 (ix3 0 r 0) = lSt ⊥ 0 (rowScore V c g hg r) (j + 1)
    ∧ ∀ o : Fin 1024, (scAt V c (4 * g + j + 1)).2.2 (ix3 0 r o)
        = aSt ⊥ 0 (rowScore V c g hg r) (rowVal V c g hg o) (j + 1) := by
  have hj : j < 4 := by omega
  induction j with
  | zero =>
    rw [scAt_tile V c g 0 hg hj hjq, if_pos rfl]
    have hm := tileStep_max (BitVec.ofNat 32 (g % 4)) (BitVec.ofNat 32 0) (iblk1 V c 0 (pt g 0 hg hj)) (iblk1 V c 1 (pt g 0 hg hj))
      (iblk1 V c 2 (pt g 0 hg hj)) (k1_pay1, k1_pay2, k1_pay3) r
    have hM : (tileStep (BitVec.ofNat 32 (g % 4)) (BitVec.ofNat 32 0) (iblk1 V c 0 (pt g 0 hg hj)) (iblk1 V c 1 (pt g 0 hg hj))
        (iblk1 V c 2 (pt g 0 hg hj)) (k1_pay1, k1_pay2, k1_pay3)).1 (ix3 0 r 0) = mSt ⊥ (rowScore V c g hg r) 1 := by
      rw [hm]
      show max (k1_pay1 (F := Ideal) (ix3 0 r 0)) _ = max ⊥ (tileMax ⊥ (rowScore V c g hg r 0))
      rw [init_max, rowScore_at V c g hg r 0 hj]
    refine ⟨hM, ?_, fun o => ?_⟩
    · rw [tileStep_norm, hM]
      show Ideal.exp (k1_pay1 (F := Ideal) (ix3 0 r 0) - _) * k1_pay2 (F := Ideal) (ix3 0 r 0) + _ = _
      rw [init_max, init_norm]
      show _ = Ideal.exp (⊥ - mSt ⊥ (rowScore V c g hg r) 1) * 0 + ∑ cc : Fin 512, Ideal.exp (rowScore V c g hg r 0 cc - mSt ⊥ (rowScore V c g hg r) 1)
      rw [rowScore_at V c g hg r 0 hj]
    · rw [tileStep_acc, hM]
      show Ideal.exp (k1_pay1 (F := Ideal) (ix3 0 r 0) - _) * k1_pay3 (F := Ideal) (ix3 0 r o) + _ = _
      rw [init_max, init_acc]
      show _ = Ideal.exp (⊥ - mSt ⊥ (rowScore V c g hg r) 1) * 0 + ∑ cc : Fin 512, Ideal.exp (rowScore V c g hg r 0 cc - mSt ⊥ (rowScore V c g hg r) 1) * rowVal V c g hg o 0 cc
      rw [rowScore_at V c g hg r 0 hj]
      exact congrArg (_ + ·) (Finset.sum_congr rfl fun cc _ => by rw [rowVal_at V c g hg o 0 hj cc])
  | succ j ih =>
    obtain ⟨im, il, ia⟩ := ih (by omega) (by omega)
    rw [show 4 * g + (j + 1) + 1 = 4 * g + (j + 1) + 1 from rfl, scAt_tile V c g (j + 1) hg hj hjq, if_neg (Nat.succ_ne_zero j),
      show 4 * g + (j + 1) = 4 * g + j + 1 from rfl]
    have hm := tileStep_max (BitVec.ofNat 32 (g % 4)) (BitVec.ofNat 32 (j + 1)) (iblk1 V c 0 (pt g (j + 1) hg hj)) (iblk1 V c 1 (pt g (j + 1) hg hj))
      (iblk1 V c 2 (pt g (j + 1) hg hj)) (scAt V c (4 * g + j + 1)) r
    have hM : (tileStep (BitVec.ofNat 32 (g % 4)) (BitVec.ofNat 32 (j + 1)) (iblk1 V c 0 (pt g (j + 1) hg hj)) (iblk1 V c 1 (pt g (j + 1) hg hj))
        (iblk1 V c 2 (pt g (j + 1) hg hj)) (scAt V c (4 * g + j + 1))).1 (ix3 0 r 0) = mSt ⊥ (rowScore V c g hg r) (j + 1 + 1) := by
      rw [hm, im]
      show max _ _ = max (mSt ⊥ (rowScore V c g hg r) (j + 1)) (tileMax ⊥ (rowScore V c g hg r (j + 1)))
      rw [rowScore_at V c g hg r (j + 1) hj]
    refine ⟨hM, ?_, fun o => ?_⟩
    · rw [tileStep_norm, hM, im, il]
      show _ = Ideal.exp (mSt ⊥ (rowScore V c g hg r) (j + 1) - mSt ⊥ (rowScore V c g hg r) (j + 1 + 1)) * lSt ⊥ 0 (rowScore V c g hg r) (j + 1)
        + ∑ cc : Fin 512, Ideal.exp (rowScore V c g hg r (j + 1) cc - mSt ⊥ (rowScore V c g hg r) (j + 1 + 1))
      rw [rowScore_at V c g hg r (j + 1) hj]
    · rw [tileStep_acc, hM, im, ia o]
      show _ = Ideal.exp (mSt ⊥ (rowScore V c g hg r) (j + 1) - mSt ⊥ (rowScore V c g hg r) (j + 1 + 1)) * aSt ⊥ 0 (rowScore V c g hg r) (rowVal V c g hg o) (j + 1)
        + ∑ cc : Fin 512, Ideal.exp (rowScore V c g hg r (j + 1) cc - mSt ⊥ (rowScore V c g hg r) (j + 1 + 1)) * rowVal V c g hg o (j + 1) cc
      rw [rowScore_at V c g hg r (j + 1) hj]
      exact congrArg (_ + ·) (Finset.sum_congr rfl fun cc _ => by rw [rowVal_at V c g hg o (j + 1) hj cc])

/-- Tile j of group g is the diagonal tile exactly when j is the group's query block. -/
theorem diag_arith : ∀ g < 16, ∀ j < 4, ((4 * g + j) % 4 = (4 * g + j) / 4 % 4 ↔ j = g % 4) := by decide

theorem cond3_pt (g j : ℕ) (hg : g < 16) (hj : j < 4) : cond1_3 (grid1.coords (pt g j hg hj)) ↔ j = g % 4 :=
  (hcond1_3 (pt g j hg hj)).trans (diag_arith g hg j hj)

/-- The output block is stored at the group's diagonal tile and carried unchanged through the tiles after it. -/
theorem out1_carry (g : ℕ) (hg : g < 16) (j : ℕ) (hj : j < 4) (hq : g % 4 ≤ j) :
    out1 V c (pt g j hg hj) = out1 V c (pt g (g % 4) hg (Nat.mod_lt _ (by decide))) := by
  induction j with
  | zero =>
    have h0 : g % 4 = 0 := by omega
    congr 1
    exact Fin.ext (by show 4 * g + 0 = 4 * g + g % 4; rw [h0])
  | succ j ih =>
    by_cases hd : g % 4 = j + 1
    · congr 1
      exact Fin.ext (by show 4 * g + (j + 1) = 4 * g + g % 4; rw [hd])
    · have hoff : ¬cond1_3 (grid1.coords (pt g (j + 1) hg hj)) := fun h =>
        hd ((cond3_pt g (j + 1) hg hj).mp h).symm
      rw [out1_off V c _ hoff]
      exact ih (by omega) (by omega)

/-- The block the group writes back: accumulator over normalizer after the diagonal tile. -/
theorem out_row (g : ℕ) (hg : g < 16) (r : Fin 512) (o : Fin 1024) :
    out1 V c (pt g 3 hg (by decide)) (ix3 0 r o)
      = Ideal.div (aSt ⊥ 0 (rowScore V c g hg r) (rowVal V c g hg o) (g % 4 + 1)) (lSt ⊥ 0 (rowScore V c g hg r) (g % 4 + 1)) := by
  have hq : g % 4 < 4 := Nat.mod_lt _ (by decide)
  rw [out1_carry V c g hg 3 (by decide) (by omega)]
  have hdiag : cond1_3 (grid1.coords (pt g (g % 4) hg hq)) := (cond3_pt g (g % 4) hg hq).mpr rfl
  rw [out1_diag V c _ hdiag, out_apply]
  obtain ⟨-, hl, ha⟩ := row_state V c g hg r (g % 4) (le_refl _)
  show Ideal.div ((scAt V c (4 * g + g % 4 + 1)).2.2 (ix3 0 r o)) ((scAt V c (4 * g + g % 4 + 1)).2.1 (ix3 0 r 0)) = _
  rw [hl, ha o]

end Row

end Cert.KernelIdeal.KV1

end
-- ==== Proof.KV1Top.lean ====
/- Region 1's block reads and its output array at the ideal floats. At tile j of group g (batch g / 4, query block
   g mod 4) the query window holds rows 512·(g mod 4) … of the batch's queries, and for j ≤ g mod 4 the key and
   value windows hold rows 512·j … of the batch's keys and values. The output window is written back at the last
   tile of each group only; the sixteen blocks those points write cover the output array, so the array after the
   region is any whole-array function that agrees with what each group's last tile leaves in the output buffer. -/
import proofs.«148900_j618475290737_2_alg».proof.Proof.KV1Row
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section
open scoped BigOperators
namespace Cert.KernelIdeal.KV1
open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## The windows' block indices over the grid -/

/-- The printed index maps, decided over the 64 points: the query and output windows are on block
    (batch, query block, 0), the key and value windows on block (batch, min (key tile) (query block), 0). -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4) ∧ win1_1.index t (2 : Fin 3) = 0
    ∧ win1_2.index t (0 : Fin 3) = t.val / 16 ∧ win1_2.index t (1 : Fin 3) = min (t.val % 4) (t.val / 4 % 4) ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

/-! ## The input blocks as rows of the arrays -/

/-- The query block of group g (any tile) is rows 512·(g mod 4) … of batch g / 4 of the query array. -/
theorem qblk_read (g j : ℕ) (hg : g < 16) (hj : j < 4) (r : Fin 512) (d : Fin 1024) :
    iblk1 V c 0 (pt g j hg hj) (ix3 (0 : Fin 1) r d)
      = V c main_v5 (ix3 (⟨g / 4, by omega⟩ : Fin 4) (⟨512 * (g % 4) + r.val, by have := r.isLt; omega⟩ : Fin 2048) d) := by
  obtain ⟨e0, e1, e2, -⟩ := idx_facts1 (pt g j hg hj)
  have hv : (pt g j hg hj).val = 4 * g + j := rfl
  unfold iblk1
  rw [View.read_apply]
  show (V c main_v5 : S4x2048x1024.Idx → EReal) _ = _
  refine congrArg _ (funext fun a => Fin.ext ?_)
  match a with
  | ⟨0, _⟩ => show win1_0.index (pt g j hg hj) (0 : Fin 3) * 1 + 1 * 0 = g / 4; rw [e0, hv]; omega
  | ⟨1, _⟩ => show win1_0.index (pt g j hg hj) (1 : Fin 3) * 512 + 1 * r.val = 512 * (g % 4) + r.val; rw [e1, hv]; omega
  | ⟨2, _⟩ => show win1_0.index (pt g j hg hj) (2 : Fin 3) * 1024 + 1 * d.val = d.val; rw [e2]; omega

/-- The key block at tile j ≤ g mod 4 of group g is rows 512·j … of batch g / 4 of the key array. -/
theorem kblk_read (g j : ℕ) (hg : g < 16) (hj : j < 4) (hjq : j ≤ g % 4) (cc : Fin 512) (d : Fin 1024) :
    iblk1 V c 1 (pt g j hg hj) (ix3 (0 : Fin 1) cc d)
      = V c main_v6 (ix3 (⟨g / 4, by omega⟩ : Fin 4) (⟨512 * j + cc.val, by have := cc.isLt; omega⟩ : Fin 2048) d) := by
  obtain ⟨-, -, -, e0, e1, e2, -⟩ := idx_facts1 (pt g j hg hj)
  have hv : (pt g j hg hj).val = 4 * g + j := rfl
  unfold iblk1
  rw [View.read_apply]
  show (V c main_v6 : S4x2048x1024.Idx → EReal) _ = _
  refine congrArg _ (funext fun a => Fin.ext ?_)
  match a with
  | ⟨0, _⟩ => show win1_1.index (pt g j hg hj) (0 : Fin 3) * 1 + 1 * 0 = g / 4; rw [e0, hv]; omega
  | ⟨1, _⟩ => show win1_1.index (pt g j hg hj) (1 : Fin 3) * 512 + 1 * cc.val = 512 * j + cc.val; rw [e1, hv]; omega
  | ⟨2, _⟩ => show win1_1.index (pt g j hg hj) (2 : Fin 3) * 1024 + 1 * d.val = d.val; rw [e2]; omega

/-- The value block likewise. -/
theorem vblk_read (g j : ℕ) (hg : g < 16) (hj : j < 4) (hjq : j ≤ g % 4) (cc : Fin 512) (o : Fin 1024) :
    iblk1 V c 2 (pt g j hg hj) (ix3 (0 : Fin 1) cc o)
      = V c main_v7 (ix3 (⟨g / 4, by omega⟩ : Fin 4) (⟨512 * j + cc.val, by have := cc.isLt; omega⟩ : Fin 2048) o) := by
  obtain ⟨-, -, -, -, -, -, e0, e1, e2, -⟩ := idx_facts1 (pt g j hg hj)
  have hv : (pt g j hg hj).val = 4 * g + j := rfl
  unfold iblk1
  rw [View.read_apply]
  show (V c main_v7 : S4x2048x1024.Idx → EReal) _ = _
  refine congrArg _ (funext fun a => Fin.ext ?_)
  match a with
  | ⟨0, _⟩ => show win1_2.index (pt g j hg hj) (0 : Fin 3) * 1 + 1 * 0 = g / 4; rw [e0, hv]; omega
  | ⟨1, _⟩ => show win1_2.index (pt g j hg hj) (1 : Fin 3) * 512 + 1 * cc.val = 512 * j + cc.val; rw [e1, hv]; omega
  | ⟨2, _⟩ => show win1_2.index (pt g j hg hj) (2 : Fin 3) * 1024 + 1 * o.val = o.val; rw [e2]; omega

/-! ## The output array: the last tile of each group writes the group's block back -/

/-- What a writing point (the last tile of its group) holds in the output buffer, as an entry of a whole-array
    function that agrees with every group's last tile. -/
theorem out_at_last (OutG : S4x2048x1024.Idx → EReal)
    (h : ∀ (g : ℕ) (hg : g < 16) (r : Fin 512) (o : Fin 1024), out1 V c (pt g 3 hg (by decide)) (ix3 (0 : Fin 1) r o)
      = OutG (ix3 (⟨g / 4, by omega⟩ : Fin 4) (⟨512 * (g % 4) + r.val, by have := r.isLt; omega⟩ : Fin 2048) o))
    (t : Fin cfg1.N) (ht : t.val % 4 = 3) (y : S1x512x1024.Idx) (i : S4x2048x1024.Idx)
    (hi0 : (i 0).val = t.val / 16) (hi1 : (i 1).val = 512 * (t.val / 4 % 4) + (y 1).val) (hi2 : (i 2).val = (y 2).val) :
    out1 V c t y = OutG i := by
  have hN : t.val < 64 := Nat.lt_of_lt_of_eq t.isLt N_1
  obtain ⟨g, hg, rfl⟩ : ∃ (g : ℕ) (hg : g < 16), t = pt g 3 hg (by decide) :=
    ⟨t.val / 4, by omega, Fin.ext (by show t.val = 4 * (t.val / 4) + 3; omega)⟩
  have hv : (pt g 3 hg (by decide)).val = 4 * g + 3 := rfl
  obtain ⟨z, r, o, rfl⟩ : ∃ (z : Fin 1) (r : Fin 512) (o : Fin 1024), y = ix3 z r o := ⟨y 0, y 1, y 2, eq_ix3 y⟩
  obtain rfl : z = 0 := Subsingleton.elim _ _
  rw [h g hg r o]
  refine congrArg OutG (funext fun a => Fin.ext ?_)
  match a with
  | ⟨0, _⟩ => show g / 4 = (i 0).val; rw [hi0, hv]; omega
  | ⟨1, _⟩ => show 512 * (g % 4) + r.val = (i 1).val; rw [hi1, hv]; show _ = 512 * ((4 * g + 3) / 4 % 4) + r.val; omega
  | ⟨2, _⟩ => show o.val = (i 2).val; rw [hi2]

/-- An index of the output array is in point t's block iff each coordinate is in the block's range on its axis. -/
theorem mem_blk3 (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v8).slice (win1_3.rect t)).set ↔ _
  rw [View.set_slice_whole, Rect.mem_set_unit]
  exact Iff.rfl

/-- Every index (b, s, o) of the output array is in the block the last tile of group 4·b + s / 512 writes back. -/
theorem cover3 (i : S4x2048x1024.Idx) : ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  have hg : 4 * (i 0).val + (i 1).val / 512 < 16 := by omega
  obtain ⟨t, ht⟩ : ∃ t : Fin cfg1.N, t.val = 4 * (4 * (i 0).val + (i 1).val / 512) + 3 := ⟨pt (4 * (i 0).val + (i 1).val / 512) 3 hg (by decide), rfl⟩
  obtain ⟨-, -, -, -, -, -, -, -, -, e0, e1, e2⟩ := idx_facts1 t
  refine ⟨t, (flush1_3 t).mpr (by rw [ht]; omega), ?_⟩
  rw [mem_blk3]
  intro a
  match a with
  | ⟨0, _⟩ => show win1_3.index t (0 : Fin 3) * 1 ≤ (i 0).val ∧ (i 0).val < win1_3.index t (0 : Fin 3) * 1 + 1; rw [e0, ht]; omega
  | ⟨1, _⟩ => show win1_3.index t (1 : Fin 3) * 512 ≤ (i 1).val ∧ (i 1).val < win1_3.index t (1 : Fin 3) * 512 + 512; rw [e1, ht]; omega
  | ⟨2, _⟩ => show win1_3.index t (2 : Fin 3) * 1024 ≤ (i 2).val ∧ (i 2).val < win1_3.index t (2 : Fin 3) * 1024 + 1024; rw [e2]; omega

/-- What a writing point writes back is its block of the whole-array function. -/
theorem flushed3_eq (OutG : S4x2048x1024.Idx → EReal)
    (h : ∀ (g : ℕ) (hg : g < 16) (r : Fin 512) (o : Fin 1024), out1 V c (pt g 3 hg (by decide)) (ix3 (0 : Fin 1) r o)
      = OutG (ix3 (⟨g / 4, by omega⟩ : Fin 4) (⟨512 * (g % 4) + r.val, by have := r.isLt; omega⟩ : Fin 2048) o))
    (t : Fin cfg1.N) (hf : (cfg1.win 3).flush t = true) :
    (dat1 (F := Ideal) V c).flushed 3 t = ((cfg1.win 3).blk t).view.read (Elt Ideal) OutG := by
  have ht : t.val % 4 = 3 := (flush1_3 t).mp hf
  obtain ⟨-, -, -, -, -, -, -, -, -, e0, e1, e2⟩ := idx_facts1 t
  show (cfg1.win 3).cut (grid1.coords t) ((dat1 V c).after 3 t) = _
  rw [after1_3]
  funext y
  rw [View.read_apply]
  show out1 V c t y = OutG (((cfg1.win 3).blk t).view.emb y)
  refine out_at_last V c OutG h t ht y _ ?_ ?_ ?_
  · show win1_3.index t (0 : Fin 3) * 1 + 1 * (y 0).val = t.val / 16; rw [e0]; have : (y 0).val < 1 := (y 0).isLt; omega
  · show win1_3.index t (1 : Fin 3) * 512 + 1 * (y 1).val = 512 * (t.val / 4 % 4) + (y 1).val; rw [e1]; omega
  · show win1_3.index t (2 : Fin 3) * 1024 + 1 * (y 2).val = (y 2).val; rw [e2]; omega

/-- THE OUTPUT ARRAY after the region is any whole-array function that agrees with what the last tile of each group
    leaves in the output buffer: the sixteen blocks those points write back cover the array. -/
theorem attn_arr (OutG : S4x2048x1024.Idx → EReal)
    (h : ∀ (g : ℕ) (hg : g < 16) (r : Fin 512) (o : Fin 1024), out1 V c (pt g 3 hg (by decide)) (ix3 (0 : Fin 1) r o)
      = OutG (ix3 (⟨g / 4, by omega⟩ : Fin 4) (⟨512 * (g % 4) + r.val, by have := r.isLt; omega⟩ : Fin 2048) o)) :
    (dat1 (F := Ideal) V c).arrAt 3 cfg1.N = OutG :=
  (dat1 V c).arrAt_eq_of_cover 3 OutG (fun t hf => flushed3_eq V c OutG h t hf) cover3

end Cert.KernelIdeal.KV1
end
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.KV0.lean ====
/- Region 0's values at the ideal floats: what the projection kernel leaves in its three output arrays, as
   whole-array functions of x and the three weight matrices as the region finds them. Each payload at an index is a
   row of the x block against a row of the weight matrix (both operands are contracted on their last axis; a change
   of float format is the identity on the extended reals), the q payload scaled by the constant 2⁻⁵. Point t of the
   grid reads rows 512·t … 512·t + 511 of x and the whole weight matrices and writes back the same rows of q, k and
   v, so each point writes block t of one whole-array function; the sixteen blocks cover the arrays. Also the two
   reshapes around the region, [4, 2048, 1024] ↔ [8192, 1024], read at an index. -/
import proofs.«148900_j618475290737_2_alg».proof.Proof.IRegion0
import proofs.«148900_j618475290737_2_alg».proof.Proof.LibTransposedRhsMatmul
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section
open scoped BigOperators
namespace Cert.KernelIdeal.KV0
open Cert.KernelIdeal Cert.KernelIdeal.Gen Cert.KernelIdeal.Hand
open Idealize.ShloMosaic Idealize.ShloMosaic.TcCoe Idealize.SL.Sem Idealize.ShloMosaic.ValueIdx
open Idealize.ShloMosaic.TransposedRhsMatmul
open Idealize.ShloMosaic.Pipeline (Dat)

/-! ## The projection's payloads at an index -/

/-- The printed contraction record is the library's: both operands contracted on their last axis. -/
theorem dot_eq : dot_S512x1024_S1024x1024_S512x1024_1_1_0_0_n_n = DotDims.transposedRhs 512 1024 1024 := rfl

/-- Rounding the x block to the shorter format is the identity on the extended reals. -/
theorem pay1_apply (x0 : Vec Ideal S512x1024 .f32) (i : S512x1024.Idx) : k0_pay1 x0 i = x0 i := by
  unfold k0_pay1
  rw [truncf_apply, shapeCast_self]

/-- The k (and v) payload at (p, o): row p of the x block against row o of the weight matrix. -/
theorem pay3_apply (x0 : Vec Ideal S512x1024 .f32) (w : Vec Ideal S1024x1024 .bf16) (p : Fin 512) (o : Fin 1024) :
    k0_pay3 x0 w (ix2 p o) = ∑ d : Fin 1024, x0 (ix2 p d) * w (ix2 o d) := by
  unfold k0_pay3
  rw [truncf_apply, shapeCast_self, dot_eq]
  show FloatOps.matmul (DotDims.transposedRhs 512 1024 1024) none (k0_pay1 x0) w (constant ⟨2, ![512, 1024]⟩ .f32 0x00000000#32) (ix2 p o) = _
  rw [transposedRhsMatmul_apply]
  simp only [pay1_apply]

theorem pay4_apply (x0 : Vec Ideal S512x1024 .f32) (w : Vec Ideal S1024x1024 .bf16) (p : Fin 512) (o : Fin 1024) :
    k0_pay4 x0 w (ix2 p o) = ∑ d : Fin 1024, x0 (ix2 p d) * w (ix2 o d) := by
  unfold k0_pay4
  rw [truncf_apply, shapeCast_self, dot_eq]
  show FloatOps.matmul (DotDims.transposedRhs 512 1024 1024) none (k0_pay1 x0) w (constant ⟨2, ![512, 1024]⟩ .f32 0x00000000#32) (ix2 p o) = _
  rw [transposedRhsMatmul_apply]
  simp only [pay1_apply]

/-- The q payload at (p, o): the same product, scaled by the constant 2⁻⁵. -/
theorem pay2_apply (x0 : Vec Ideal S512x1024 .f32) (w : Vec Ideal S1024x1024 .bf16) (p : Fin 512) (o : Fin 1024) :
    k0_pay2 x0 w (ix2 p o) = (∑ d : Fin 1024, x0 (ix2 p d) * w (ix2 o d)) * Ideal.ofBits .f32 0x3D000000#32 := by
  unfold k0_pay2
  rw [truncf_apply, mulf_apply, broadcast_apply, shapeCast_self, dot_eq]
  show FloatOps.matmul (DotDims.transposedRhs 512 1024 1024) none (k0_pay1 x0) w (constant ⟨2, ![512, 1024]⟩ .f32 0x00000000#32) (ix2 p o) * _ = _
  rw [transposedRhsMatmul_apply]
  simp only [pay1_apply]
  rfl

/-! ## The whole-array functions -/

/-- x · Wᵀ: entry (R, o) is row R of x against row o of W. -/
def proj (X : S8192x1024.Idx → EReal) (W : S1024x1024.Idx → EReal) : S8192x1024.Idx → EReal :=
  fun i => ∑ d : Fin 1024, X (ix2 (i 0) d) * W (ix2 (i 1) d)

/-- The same, scaled by the constant 2⁻⁵ (the q projection). -/
def projScaled (X : S8192x1024.Idx → EReal) (W : S1024x1024.Idx → EReal) : S8192x1024.Idx → EReal :=
  fun i => (∑ d : Fin 1024, X (ix2 (i 0) d) * W (ix2 (i 1) d)) * Ideal.ofBits .f32 0x3D000000#32

/-! A payload of block n of x and the whole weight matrix, at an index of the block, is the whole-array
    function at the array index the block's rectangle sends it to: row 512·n + p, the same column. -/

theorem pay2_block (X : S8192x1024.Idx → EReal) (W : S1024x1024.Idx → EReal)
    (x0 : Vec Ideal S512x1024 .f32) (w : Vec Ideal S1024x1024 .bf16) (n : Nat) (hn : n < 16)
    (hx : ∀ (p : Fin 512) (d : Fin 1024), x0 (ix2 p d) = X (ix2 (⟨n * 512 + p.val, by have := p.isLt; omega⟩ : Fin 8192) d))
    (hw : ∀ (o d : Fin 1024), w (ix2 o d) = W (ix2 o d))
    (j : S512x1024.Idx) (i : S8192x1024.Idx) (hi0 : (i 0).val = n * 512 + (j 0).val) (hi1 : (i 1).val = (j 1).val) :
    k0_pay2 x0 w j = projScaled X W i := by
  obtain ⟨p, o, rfl⟩ : ∃ (p : Fin 512) (o : Fin 1024), j = ix2 p o := ⟨j 0, j 1, eq_ix2 j⟩
  have ei : i = ix2 (⟨n * 512 + p.val, by have := p.isLt; omega⟩ : Fin 8192) o :=
    funext fun a => Fin.ext (by
      match a with
      | ⟨0, _⟩ => exact hi0
      | ⟨1, _⟩ => exact hi1)
  rw [pay2_apply, ei]
  show (∑ d : Fin 1024, x0 (ix2 p d) * w (ix2 o d)) * _ = (∑ d : Fin 1024, X (ix2 (⟨n * 512 + p.val, _⟩ : Fin 8192) d) * W (ix2 o d)) * _
  exact congrArg (· * Ideal.ofBits .f32 0x3D000000#32) (Finset.sum_congr rfl fun d _ => congrArg₂ (· * ·) (hx p d) (hw o d))

theorem pay3_block (X : S8192x1024.Idx → EReal) (W : S1024x1024.Idx → EReal)
    (x0 : Vec Ideal S512x1024 .f32) (w : Vec Ideal S1024x1024 .bf16) (n : Nat) (hn : n < 16)
    (hx : ∀ (p : Fin 512) (d : Fin 1024), x0 (ix2 p d) = X (ix2 (⟨n * 512 + p.val, by have := p.isLt; omega⟩ : Fin 8192) d))
    (hw : ∀ (o d : Fin 1024), w (ix2 o d) = W (ix2 o d))
    (j : S512x1024.Idx) (i : S8192x1024.Idx) (hi0 : (i 0).val = n * 512 + (j 0).val) (hi1 : (i 1).val = (j 1).val) :
    k0_pay3 x0 w j = proj X W i := by
  obtain ⟨p, o, rfl⟩ : ∃ (p : Fin 512) (o : Fin 1024), j = ix2 p o := ⟨j 0, j 1, eq_ix2 j⟩
  have ei : i = ix2 (⟨n * 512 + p.val, by have := p.isLt; omega⟩ : Fin 8192) o :=
    funext fun a => Fin.ext (by
      match a with
      | ⟨0, _⟩ => exact hi0
      | ⟨1, _⟩ => exact hi1)
  rw [pay3_apply, ei]
  show (∑ d : Fin 1024, x0 (ix2 p d) * w (ix2 o d)) = ∑ d : Fin 1024, X (ix2 (⟨n * 512 + p.val, _⟩ : Fin 8192) d) * W (ix2 o d)
  exact Finset.sum_congr rfl fun d _ => congrArg₂ (· * ·) (hx p d) (hw o d)

theorem pay4_block (X : S8192x1024.Idx → EReal) (W : S1024x1024.Idx → EReal)
    (x0 : Vec Ideal S512x1024 .f32) (w : Vec Ideal S1024x1024 .bf16) (n : Nat) (hn : n < 16)
    (hx : ∀ (p : Fin 512) (d : Fin 1024), x0 (ix2 p d) = X (ix2 (⟨n * 512 + p.val, by have := p.isLt; omega⟩ : Fin 8192) d))
    (hw : ∀ (o d : Fin 1024), w (ix2 o d) = W (ix2 o d))
    (j : S512x1024.Idx) (i : S8192x1024.Idx) (hi0 : (i 0).val = n * 512 + (j 0).val) (hi1 : (i 1).val = (j 1).val) :
    k0_pay4 x0 w j = proj X W i := by
  obtain ⟨p, o, rfl⟩ : ∃ (p : Fin 512) (o : Fin 1024), j = ix2 p o := ⟨j 0, j 1, eq_ix2 j⟩
  have ei : i = ix2 (⟨n * 512 + p.val, by have := p.isLt; omega⟩ : Fin 8192) o :=
    funext fun a => Fin.ext (by
      match a with
      | ⟨0, _⟩ => exact hi0
      | ⟨1, _⟩ => exact hi1)
  rw [pay4_apply, ei]
  show (∑ d : Fin 1024, x0 (ix2 p d) * w (ix2 o d)) = ∑ d : Fin 1024, X (ix2 (⟨n * 512 + p.val, _⟩ : Fin 8192) d) * W (ix2 o d)
  exact Finset.sum_congr rfl fun d _ => congrArg₂ (· * ·) (hx p d) (hw o d)

/-! ## The blocks as rows of the arrays -/

variable (V : (c : Dev nD) → (b : Ref sig .tc) → Buf (Elt Ideal) ((c : Thread nD τ).loc b))

/-- The printed index maps, decided over the grid: x and the three outputs are on row block t at point t,
    the weights on their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The x block at point t is rows 512·t … 512·t + 511 of x. -/
theorem xblk_apply (c : Dev nD) (t : Fin cfg0.N) (p : Fin 512) (d : Fin 1024) :
    (iblk0 V c 0 t : Vec Ideal S512x1024 .f32) (ix2 p d)
      = (V c main_v3 : S8192x1024.Idx → EReal) (ix2 ⟨t.val * 512 + p.val, by have := p.isLt; have := t.isLt; have : cfg0.N = 16 := rfl; omega⟩ d) := by
  obtain ⟨e0, e1, -⟩ := idx_facts0 t
  unfold iblk0
  rw [View.read_apply]
  show (V c main_v3 : S8192x1024.Idx → EReal) _ = _
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 1024 + 1 * d.val = d.val; rw [e1]; omega

theorem wblk1_apply (c : Dev nD) (t : Fin cfg0.N) (o d : Fin 1024) :
    (iblk0 V c 1 t : Vec Ideal S1024x1024 .bf16) (ix2 o d) = (V c main_v0 : S1024x1024.Idx → EReal) (ix2 o d) := by
  obtain ⟨-, -, e0, e1, -⟩ := idx_facts0 t
  unfold iblk0
  rw [View.read_apply]
  show (V c main_v0 : S1024x1024.Idx → EReal) _ = _
  refine congrArg _ (funext fun a => Fin.ext ?_)
  match a with
  | ⟨0, _⟩ => show win0_1.index t (0 : Fin 2) * 1024 + 1 * o.val = o.val; rw [e0]; omega
  | ⟨1, _⟩ => show win0_1.index t (1 : Fin 2) * 1024 + 1 * d.val = d.val; rw [e1]; omega

theorem wblk2_apply (c : Dev nD) (t : Fin cfg0.N) (o d : Fin 1024) :
    (iblk0 V c 2 t : Vec Ideal S1024x1024 .bf16) (ix2 o d) = (V c main_v1 : S1024x1024.Idx → EReal) (ix2 o d) := by
  obtain ⟨-, -, -, -, e0, e1, -⟩ := idx_facts0 t
  unfold iblk0
  rw [View.read_apply]
  show (V c main_v1 : S1024x1024.Idx → EReal) _ = _
  refine congrArg _ (funext fun a => Fin.ext ?_)
  match a with
  | ⟨0, _⟩ => show win0_2.index t (0 : Fin 2) * 1024 + 1 * o.val = o.val; rw [e0]; omega
  | ⟨1, _⟩ => show win0_2.index t (1 : Fin 2) * 1024 + 1 * d.val = d.val; rw [e1]; omega

theorem wblk3_apply (c : Dev nD) (t : Fin cfg0.N) (o d : Fin 1024) :
    (iblk0 V c 3 t : Vec Ideal S1024x1024 .bf16) (ix2 o d) = (V c main_v2 : S1024x1024.Idx → EReal) (ix2 o d) := by
  obtain ⟨-, -, -, -, -, -, e0, e1, -⟩ := idx_facts0 t
  unfold iblk0
  rw [View.read_apply]
  show (V c main_v2 : S1024x1024.Idx → EReal) _ = _
  refine congrArg _ (funext fun a => Fin.ext ?_)
  match a with
  | ⟨0, _⟩ => show win0_3.index t (0 : Fin 2) * 1024 + 1 * o.val = o.val; rw [e0]; omega
  | ⟨1, _⟩ => show win0_3.index t (1 : Fin 2) * 1024 + 1 * d.val = d.val; rw [e1]; omega

/-! ## What each point writes back, the cover, and the arrays after the region -/

/-- What point t writes back to the q array is block t of the scaled projection of x by the first weight matrix. -/
theorem flushed4_eq (c : Dev nD) (t : Fin cfg0.N) :
    (dat0 (F := Ideal) V c).flushed 4 t
      = ((cfg0.win 4).blk t).view.read (Elt Ideal) (projScaled (V c main_v3) (V c main_v0)) := by
  obtain ⟨-, -, -, -, -, -, -, -, e0, e1, -⟩ := idx_facts0 t
  show (cfg0.win 4).cut (grid0.coords t) ((dat0 V c).after 4 t) = _
  rw [after0_4, out0_4_eq]
  funext j
  rw [View.read_apply]
  show k0_pay2 (iblk0 V c 0 t) (iblk0 V c 1 t) j = projScaled (V c main_v3) (V c main_v0) (((cfg0.win 4).blk t).view.emb j)
  refine pay2_block _ _ _ _ t.val t.isLt (xblk_apply V c t) (wblk1_apply V c t) j _ ?_ ?_
  · show win0_4.index t (0 : Fin 2) * 512 + 1 * (j 0).val = t.val * 512 + (j 0).val; rw [e0]; omega
  · show win0_4.index t (1 : Fin 2) * 1024 + 1 * (j 1).val = (j 1).val; rw [e1]; omega

/-- An index of the array is in point t's block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_0).slice (win0_4.rect t)).set ↔ _
  rw [View.set_slice_whole, Rect.mem_set_unit]
  exact Iff.rfl

/-- Every row of the q array is in some point's block: row R in block R / 512. -/
theorem cover4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, by show _ < 16; omega⟩, rfl⟩
  obtain ⟨-, -, -, -, -, -, -, -, e0, e1, -⟩ := idx_facts0 t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 1024 ≤ (i 1).val ∧ (i 1).val < win0_4.index t (1 : Fin 2) * 1024 + 1024; rw [e1]; omega

/-- The q array after the region. -/
theorem final4 (c : Dev nD) : (dat0 (F := Ideal) V c).arrAt 4 cfg0.N = projScaled (V c main_v3) (V c main_v0) :=
  (dat0 V c).arrAt_eq_of_cover 4 (projScaled (V c main_v3) (V c main_v0)) (fun t _ => flushed4_eq V c t) cover4

/-- What point t writes back to the k array is block t of the projection of x by the second weight matrix. -/
theorem flushed5_eq (c : Dev nD) (t : Fin cfg0.N) :
    (dat0 (F := Ideal) V c).flushed 5 t
      = ((cfg0.win 5).blk t).view.read (Elt Ideal) (proj (V c main_v3) (V c main_v1)) := by
  obtain ⟨-, -, -, -, -, -, -, -, -, -, e0, e1, -⟩ := idx_facts0 t
  show (cfg0.win 5).cut (grid0.coords t) ((dat0 V c).after 5 t) = _
  rw [after0_5, out0_5_eq]
  funext j
  rw [View.read_apply]
  show k0_pay3 (iblk0 V c 0 t) (iblk0 V c 2 t) j = proj (V c main_v3) (V c main_v1) (((cfg0.win 5).blk t).view.emb j)
  refine pay3_block _ _ _ _ t.val t.isLt (xblk_apply V c t) (wblk2_apply V c t) j _ ?_ ?_
  · show win0_5.index t (0 : Fin 2) * 512 + 1 * (j 0).val = t.val * 512 + (j 0).val; rw [e0]; omega
  · show win0_5.index t (1 : Fin 2) * 1024 + 1 * (j 1).val = (j 1).val; rw [e1]; omega

/-- An index of the array is in point t's block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_1).slice (win0_5.rect t)).set ↔ _
  rw [View.set_slice_whole, Rect.mem_set_unit]
  exact Iff.rfl

/-- Every row of the k array is in some point's block. -/
theorem cover5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, by show _ < 16; omega⟩, rfl⟩
  obtain ⟨-, -, -, -, -, -, -, -, -, -, e0, e1, -⟩ := idx_facts0 t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- The k array after the region. -/
theorem final5 (c : Dev nD) : (dat0 (F := Ideal) V c).arrAt 5 cfg0.N = proj (V c main_v3) (V c main_v1) :=
  (dat0 V c).arrAt_eq_of_cover 5 (proj (V c main_v3) (V c main_v1)) (fun t _ => flushed5_eq V c t) cover5

/-- What point t writes back to the v array is block t of the projection of x by the third weight matrix. -/
theorem flushed6_eq (c : Dev nD) (t : Fin cfg0.N) :
    (dat0 (F := Ideal) V c).flushed 6 t
      = ((cfg0.win 6).blk t).view.read (Elt Ideal) (proj (V c main_v3) (V c main_v2)) := by
  obtain ⟨-, -, -, -, -, -, -, -, -, -, -, -, e0, e1⟩ := idx_facts0 t
  show (cfg0.win 6).cut (grid0.coords t) ((dat0 V c).after 6 t) = _
  rw [after0_6, out0_6_eq]
  funext j
  rw [View.read_apply]
  show k0_pay4 (iblk0 V c 0 t) (iblk0 V c 3 t) j = proj (V c main_v3) (V c main_v2) (((cfg0.win 6).blk t).view.emb j)
  refine pay4_block _ _ _ _ t.val t.isLt (xblk_apply V c t) (wblk3_apply V c t) j _ ?_ ?_
  · show win0_6.index t (0 : Fin 2) * 512 + 1 * (j 0).val = t.val * 512 + (j 0).val; rw [e0]; omega
  · show win0_6.index t (1 : Fin 2) * 1024 + 1 * (j 1).val = (j 1).val; rw [e1]; omega

/-- An index of the array is in point t's block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4_2).slice (win0_6.rect t)).set ↔ _
  rw [View.set_slice_whole, Rect.mem_set_unit]
  exact Iff.rfl

/-- Every row of the v array is in some point's block. -/
theorem cover6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, by show _ < 16; omega⟩, rfl⟩
  obtain ⟨-, -, -, -, -, -, -, -, -, -, -, -, e0, e1⟩ := idx_facts0 t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; rw [e0, ht]; omega
  | ⟨1, _⟩ => show win0_6.index t (1 : Fin 2) * 1024 ≤ (i 1).val ∧ (i 1).val < win0_6.index t (1 : Fin 2) * 1024 + 1024; rw [e1]; omega

/-- The v array after the region. -/
theorem final6 (c : Dev nD) : (dat0 (F := Ideal) V c).arrAt 6 cfg0.N = proj (V c main_v3) (V c main_v2) :=
  (dat0 V c).arrAt_eq_of_cover 6 (proj (V c main_v3) (V c main_v2)) (fun t _ => flushed6_eq V c t) cover6

/-! ## The three arrays, entry by entry -/

-- the product of two entries, read as extended reals
local notation:70 a:70 " ⬝ " b:71 => @HMul.hMul EReal EReal EReal _ a b

/-- q = (x · W_qᵀ) · 2⁻⁵. -/
theorem q_arr (V : (c : Dev nD) → (b : Ref sig .tc) → Buf (Elt Ideal) ((c : Thread nD τ).loc b)) (c : Dev nD) (R : Fin 8192) (o : Fin 1024) :
    (dat0 (F := Ideal) V c).arrAt 4 cfg0.N (ix2 R o)
      = (∑ d : Fin 1024, (V c main_v3 (ix2 R d) ⬝ V c main_v0 (ix2 o d))) ⬝ Ideal.ofBits .f32 0x3D000000#32 :=
  congrFun (final4 V c) (ix2 R o)

/-- k = x · W_kᵀ. -/
theorem k_arr (V : (c : Dev nD) → (b : Ref sig .tc) → Buf (Elt Ideal) ((c : Thread nD τ).loc b)) (c : Dev nD) (R : Fin 8192) (o : Fin 1024) :
    (dat0 (F := Ideal) V c).arrAt 5 cfg0.N (ix2 R o)
      = ∑ d : Fin 1024, (V c main_v3 (ix2 R d) ⬝ V c main_v1 (ix2 o d)) :=
  congrFun (final5 V c) (ix2 R o)

/-- v = x · W_vᵀ. -/
theorem v_arr (V : (c : Dev nD) → (b : Ref sig .tc) → Buf (Elt Ideal) ((c : Thread nD τ).loc b)) (c : Dev nD) (R : Fin 8192) (o : Fin 1024) :
    (dat0 (F := Ideal) V c).arrAt 6 cfg0.N (ix2 R o)
      = ∑ d : Fin 1024, (V c main_v3 (ix2 R d) ⬝ V c main_v2 (ix2 o d)) :=
  congrFun (final6 V c) (ix2 R o)

/-! ## The reshapes around the region -/

/-- [4, 2048, 1024] read as [8192, 1024]: row R is row R mod 2048 of batch R / 2048. -/
theorem rows_of_batches {α : Type} (X : S4x2048x1024.Idx → α) (h : S4x2048x1024.ShapeCasts S8192x1024) (R : Fin 8192) (d : Fin 1024) :
    shapeCast S8192x1024 X h (ix2 R d)
      = X (ix3 (⟨R.val / 2048, by have := R.isLt; omega⟩ : Fin 4) (⟨R.val % 2048, Nat.mod_lt _ (by decide)⟩ : Fin 2048) d) := by
  refine shapeCast_apply X h _ _ ?_
  rw [Shape.rowMajor_val_two, Shape.rowMajor_val_three]
  show (R.val / 2048 * 2048 + R.val % 2048) * 1024 + d.val = R.val * 1024 + d.val
  omega

/-- [8192, 1024] read as [4, 2048, 1024]: row s of batch b is row 2048·b + s. -/
theorem batches_of_rows {α : Type} (Y : S8192x1024.Idx → α) (h : S8192x1024.ShapeCasts S4x2048x1024) (b : Fin 4) (s : Fin 2048) (o : Fin 1024) :
    shapeCast S4x2048x1024 Y h (ix3 b s o)
      = Y (ix2 (⟨2048 * b.val + s.val, by have := b.isLt; have := s.isLt; omega⟩ : Fin 8192) o) := by
  refine shapeCast_apply Y h _ _ ?_
  rw [Shape.rowMajor_val_two, Shape.rowMajor_val_three]
  show (2048 * b.val + s.val) * 1024 + o.val = (b.val * 2048 + s.val) * 1024 + o.val
  omega

end Cert.KernelIdeal.KV0
end
-- ==== Proof.KVHost.lean ====
/-
  The three arrays the attention region is entered with, as functions of the arguments of the program.

  Before the projection region the host reshapes the activations x [4, 2048, 1024] to rows [8192, 1024] (row
  2048·b + s is position s of batch b) and narrows the three weight matrices, which on the extended reals is the
  identity. The projection region leaves, per row R and output feature o, the inner product of row R with row o of a
  weight matrix (the queries' scaled by a constant). The host then reshapes the three results back to
  [4, 2048, 1024]. So entry (b, s, o) of each is one entry of a projection x·Wᵀ.
-/
import proofs.«148900_j618475290737_2_alg».proof.Proof.IRun
import proofs.«148900_j618475290737_2_alg».proof.Proof.KV0
import proofs.«148900_j618475290737_2_alg».proof.Proof.Spec
import Idealize.ShloMosaic.Lib.StableHlo.Run
import Idealize.ShloMosaic.Lib.Pipeline.Value
import Idealize.ShloMosaic.Lib.ValueIdx

noncomputable section

open scoped BigOperators

namespace Cert.KernelIdeal.KVHost

open Idealize.ShloMosaic Idealize.ShloMosaic.TcCoe Idealize.ShloMosaic.ValueIdx Idealize.SL.Sem
open Cert.KernelIdeal Cert.KernelIdeal.Gen

/-- Multiplication of extended reals, spelt at the type so that entries of buffers multiply. -/
local notation:70 a:70 " ⬝ " b:71 => @HMul.hMul EReal EReal EReal _ a b

/-! ## The two reshapes read at coordinates -/

theorem row_lt (b : Fin 4) (s : Fin 2048) : 2048 * b.val + s.val < 8192 := by
  have := b.isLt; have := s.isLt; omega

/-- Rows from batches: row 2048·b + s of the reshaped array is position s of batch b. -/
theorem rows_of_batches_at {α : Type} (X : S4x2048x1024.Idx → α) (h : S4x2048x1024.ShapeCasts S8192x1024)
    (b : Fin 4) (s : Fin 2048) (d : Fin 1024) :
    shapeCast S8192x1024 X h (ix2 ⟨2048 * b.val + s.val, row_lt b s⟩ d) = X (ix3 b s d) := by
  refine shapeCast_apply X h _ (ix3 b s d) ?_
  rw [Shape.rowMajor_val_three, Shape.rowMajor_val_two]
  show (b.val * 2048 + s.val) * 1024 + d.val = (2048 * b.val + s.val) * 1024 + d.val
  omega

/-- Batches from rows: position s of batch b of the reshaped array is row 2048·b + s. -/
theorem batches_of_rows_at {α : Type} (Y : S8192x1024.Idx → α) (h : S8192x1024.ShapeCasts S4x2048x1024)
    (b : Fin 4) (s : Fin 2048) (o : Fin 1024) :
    shapeCast S4x2048x1024 Y h (ix3 b s o) = Y (ix2 ⟨2048 * b.val + s.val, row_lt b s⟩ o) := by
  refine shapeCast_apply Y h _ (ix2 ⟨2048 * b.val + s.val, row_lt b s⟩ o) ?_
  rw [Shape.rowMajor_val_three, Shape.rowMajor_val_two]
  show (2048 * b.val + s.val) * 1024 + o.val = (b.val * 2048 + s.val) * 1024 + o.val
  omega

/-! ## The host stretches read at their results -/

/-- After the second host stretch the first result array is the first projection array reshaped. -/
theorem after1_v5 (W : Valuation τ sig (Elt Ideal)) :
    StableHlo.after (hostOps1 (F := Ideal)) W (Proc.devRef .tc main_v5)
      = shapeCast S4x2048x1024 (W (Proc.devRef .tc main_v4_0)) shapeCasts_S8192x1024_S4x2048x1024 := by
  after_results; rfl

/-- … the second the second … -/
theorem after1_v6 (W : Valuation τ sig (Elt Ideal)) :
    StableHlo.after (hostOps1 (F := Ideal)) W (Proc.devRef .tc main_v6)
      = shapeCast S4x2048x1024 (W (Proc.devRef .tc main_v4_1)) shapeCasts_S8192x1024_S4x2048x1024 := by
  after_results; rfl

/-- … and the third the third. -/
theorem after1_v7 (W : Valuation τ sig (Elt Ideal)) :
    StableHlo.after (hostOps1 (F := Ideal)) W (Proc.devRef .tc main_v7)
      = shapeCast S4x2048x1024 (W (Proc.devRef .tc main_v4_2)) shapeCasts_S8192x1024_S4x2048x1024 := by
  after_results; rfl

/-- After the first host stretch the row array is the activations reshaped … -/
theorem after0_v3 (W : Valuation τ sig (Elt Ideal)) :
    StableHlo.after (hostOps0 (F := Ideal)) W (Proc.devRef .tc main_v3)
      = shapeCast S8192x1024 (W (Proc.devRef .tc main_arg0)) shapeCasts_S4x2048x1024_S8192x1024 := by
  after_results; rfl

/-- … and each narrowed weight matrix is the weight matrix: a change of format is the identity on extended reals. -/
theorem after0_v0 (W : Valuation τ sig (Elt Ideal)) :
    (StableHlo.after (hostOps0 (F := Ideal)) W (Proc.devRef .tc main_v0) : S1024x1024.Idx → EReal)
      = (W (Proc.devRef .tc main_arg1) : S1024x1024.Idx → EReal) := by
  after_results; rfl
theorem after0_v1 (W : Valuation τ sig (Elt Ideal)) :
    (StableHlo.after (hostOps0 (F := Ideal)) W (Proc.devRef .tc main_v1) : S1024x1024.Idx → EReal)
      = (W (Proc.devRef .tc main_arg2) : S1024x1024.Idx → EReal) := by
  after_results; rfl
theorem after0_v2 (W : Valuation τ sig (Elt Ideal)) :
    (StableHlo.after (hostOps0 (F := Ideal)) W (Proc.devRef .tc main_v2) : S1024x1024.Idx → EReal)
      = (W (Proc.devRef .tc main_arg3) : S1024x1024.Idx → EReal) := by
  after_results; rfl

/-! ## The projection region's operands, as the arguments -/

open Cert.KernelIdeal.Hand

variable (m : (ℓ : Loc nD τ sig) → Buf (Elt Ideal) ℓ) (ρ : Dev nD → PrngReg)

/-- Row 2048·b + s of the row array is position s of batch b of the activations. -/
theorem V1_v3 (c : Dev nD) (b : Fin 4) (s : Fin 2048) (d : Fin 1024) :
    V1 (F := Ideal) m ρ c main_v3 (ix2 ⟨2048 * b.val + s.val, row_lt b s⟩ d) = m ((c : Thread nD τ).loc main_arg0) (ix3 b s d) := by
  have e : V1 (F := Ideal) m ρ c main_v3
      = shapeCast S8192x1024 (W0 (F := Ideal) m ρ c (Proc.devRef .tc main_arg0)) shapeCasts_S4x2048x1024_S8192x1024 :=
    after0_v3 (W0 (F := Ideal) m ρ c)
  rw [e, rows_of_batches_at]

theorem V1_v0 (c : Dev nD) (o d : Fin 1024) :
    V1 (F := Ideal) m ρ c main_v0 (ix2 o d) = m ((c : Thread nD τ).loc main_arg1) (ix2 o d) := by
  exact congrFun (after0_v0 (W0 (F := Ideal) m ρ c)) (ix2 o d)
theorem V1_v1 (c : Dev nD) (o d : Fin 1024) :
    V1 (F := Ideal) m ρ c main_v1 (ix2 o d) = m ((c : Thread nD τ).loc main_arg2) (ix2 o d) := by
  exact congrFun (after0_v1 (W0 (F := Ideal) m ρ c)) (ix2 o d)
theorem V1_v2 (c : Dev nD) (o d : Fin 1024) :
    V1 (F := Ideal) m ρ c main_v2 (ix2 o d) = m ((c : Thread nD τ).loc main_arg3) (ix2 o d) := by
  exact congrFun (after0_v2 (W0 (F := Ideal) m ρ c)) (ix2 o d)

/-! ## The attention region's operands -/

/-- Entry (b, s, o) of the first array the attention region is entered with is row 2048·b + s, column o of the first array
    the projection region leaves. -/
theorem V3_v5 (c : Dev nD) (b : Fin 4) (s : Fin 2048) (o : Fin 1024) :
    V3 (F := Ideal) m ρ c main_v5 (ix3 b s o)
      = (dat0 (F := Ideal) (V1 m ρ) c).arrAt 4 cfg0.N (ix2 ⟨2048 * b.val + s.val, row_lt b s⟩ o) := by
  have e : V3 (F := Ideal) m ρ c main_v5
      = shapeCast S4x2048x1024 (W2 (F := Ideal) m ρ c (Proc.devRef .tc main_v4_0)) shapeCasts_S8192x1024_S4x2048x1024 :=
    after1_v5 (W2 (F := Ideal) m ρ c)
  rw [e, batches_of_rows_at]
  exact congrFun (W2_arr (F := Ideal) m ρ c 4) _
theorem V3_v6 (c : Dev nD) (b : Fin 4) (s : Fin 2048) (o : Fin 1024) :
    V3 (F := Ideal) m ρ c main_v6 (ix3 b s o)
      = (dat0 (F := Ideal) (V1 m ρ) c).arrAt 5 cfg0.N (ix2 ⟨2048 * b.val + s.val, row_lt b s⟩ o) := by
  have e : V3 (F := Ideal) m ρ c main_v6
      = shapeCast S4x2048x1024 (W2 (F := Ideal) m ρ c (Proc.devRef .tc main_v4_1)) shapeCasts_S8192x1024_S4x2048x1024 :=
    after1_v6 (W2 (F := Ideal) m ρ c)
  rw [e, batches_of_rows_at]
  exact congrFun (W2_arr (F := Ideal) m ρ c 5) _
theorem V3_v7 (c : Dev nD) (b : Fin 4) (s : Fin 2048) (o : Fin 1024) :
    V3 (F := Ideal) m ρ c main_v7 (ix3 b s o)
      = (dat0 (F := Ideal) (V1 m ρ) c).arrAt 6 cfg0.N (ix2 ⟨2048 * b.val + s.val, row_lt b s⟩ o) := by
  have e : V3 (F := Ideal) m ρ c main_v7
      = shapeCast S4x2048x1024 (W2 (F := Ideal) m ρ c (Proc.devRef .tc main_v4_2)) shapeCasts_S8192x1024_S4x2048x1024 :=
    after1_v7 (W2 (F := Ideal) m ρ c)
  rw [e, batches_of_rows_at]
  exact congrFun (W2_arr (F := Ideal) m ρ c 6) _

/-- A row's inner product with a weight row, over the projection region's operands, is one entry of x·Wᵀ. -/
theorem sum_v0 (c : Dev nD) (b : Fin 4) (s : Fin 2048) (o : Fin 1024) :
    (∑ d : Fin 1024, V1 (F := Ideal) m ρ c main_v3 (ix2 ⟨2048 * b.val + s.val, row_lt b s⟩ d) ⬝ V1 (F := Ideal) m ρ c main_v0 (ix2 o d))
      = Cert.Attn.proj (m ((c : Thread nD τ).loc main_arg0)) (m ((c : Thread nD τ).loc main_arg1)) b s o := by
  unfold Cert.Attn.proj
  exact Finset.sum_congr rfl fun d _ => by rw [V1_v3, V1_v0]
theorem sum_v1 (c : Dev nD) (b : Fin 4) (s : Fin 2048) (o : Fin 1024) :
    (∑ d : Fin 1024, V1 (F := Ideal) m ρ c main_v3 (ix2 ⟨2048 * b.val + s.val, row_lt b s⟩ d) ⬝ V1 (F := Ideal) m ρ c main_v1 (ix2 o d))
      = Cert.Attn.proj (m ((c : Thread nD τ).loc main_arg0)) (m ((c : Thread nD τ).loc main_arg2)) b s o := by
  unfold Cert.Attn.proj
  exact Finset.sum_congr rfl fun d _ => by rw [V1_v3, V1_v1]
theorem sum_v2 (c : Dev nD) (b : Fin 4) (s : Fin 2048) (o : Fin 1024) :
    (∑ d : Fin 1024, V1 (F := Ideal) m ρ c main_v3 (ix2 ⟨2048 * b.val + s.val, row_lt b s⟩ d) ⬝ V1 (F := Ideal) m ρ c main_v2 (ix2 o d))
      = Cert.Attn.proj (m ((c : Thread nD τ).loc main_arg0)) (m ((c : Thread nD τ).loc main_arg3)) b s o := by
  unfold Cert.Attn.proj
  exact Finset.sum_congr rfl fun d _ => by rw [V1_v3, V1_v2]

/-! ## The three entry arrays -/

/-- The queries the attention region is entered with: the projection x·Wqᵀ, scaled by the projection region's constant. -/
theorem Q_entry (c : Dev nD) (b : Fin 4) (s : Fin 2048) (o : Fin 1024) :
    V3 (F := Ideal) m ρ c main_v5 (ix3 b s o)
      = Cert.Attn.proj (m ((c : Thread nD τ).loc main_arg0)) (m ((c : Thread nD τ).loc main_arg1)) b s o
          ⬝ Ideal.ofBits .f32 0x3D000000#32 := by
  rw [V3_v5, Cert.KernelIdeal.KV0.q_arr, sum_v0]

/-- The keys: the projection x·Wkᵀ. -/
theorem K_entry (c : Dev nD) (b : Fin 4) (s : Fin 2048) (o : Fin 1024) :
    V3 (F := Ideal) m ρ c main_v6 (ix3 b s o)
      = Cert.Attn.proj (m ((c : Thread nD τ).loc main_arg0)) (m ((c : Thread nD τ).loc main_arg2)) b s o := by
  rw [V3_v6, Cert.KernelIdeal.KV0.k_arr, sum_v1]

/-- The values: the projection x·Wvᵀ. -/
theorem V_entry (c : Dev nD) (b : Fin 4) (s : Fin 2048) (o : Fin 1024) :
    V3 (F := Ideal) m ρ c main_v7 (ix3 b s o)
      = Cert.Attn.proj (m ((c : Thread nD τ).loc main_arg0)) (m ((c : Thread nD τ).loc main_arg3)) b s o := by
  rw [V3_v7, Cert.KernelIdeal.KV0.v_arr, sum_v2]

end Cert.KernelIdeal.KVHost

end
-- ==== Proof.LibMaskedSoftmax.lean ====
/-
  The online and the textbook softmax of an attention row whose scores may be masked, on the extended reals.

  A masked score is −∞; every other score is a real number. Write E z for the real number exp z, with E (−∞) = 0.
  For a real m, exp (z − m) = E z / exp m for every such z: a masked key weighs nothing. Hence the laws of a row of
  real scores carry over with E in place of exp, as long as the maximum is a real number — which holds from the first
  tile on as soon as the first tile has an unmasked score:

      l_n = (∑_{k<n} ∑_c E s_{k,c}) / exp m_n ,      a_n = (∑_{k<n} ∑_c E s_{k,c} · v_{k,c}) / exp m_n ,

  so a_n / l_n and the textbook form both are ∑ E s · v / ∑ E s.
-/
import proofs.«148900_j618475290737_2_alg».proof.Proof.LibOnlineSoftmax

noncomputable section

open scoped BigOperators

namespace Cert.MaskedSoftmax

open Idealize.ShloMosaic Cert.OnlineSoftmax

/-- exp z as a real number; 0 at −∞. -/
def E (z : EReal) : ℝ := (Ideal.exp z).toReal

theorem E_bot : E ⊥ = 0 := by unfold E; rw [Ideal.exp_bot]; rfl

theorem E_coe (r : ℝ) : E (r : EReal) = Real.exp r := by unfold E; rw [Ideal.exp_coe]; rfl

/-- A score: masked (−∞) or a real number. -/
def Score (z : EReal) : Prop := z = ⊥ ∨ ∃ r : ℝ, z = (r : EReal)

theorem Score.bot : Score ⊥ := Or.inl rfl
theorem Score.coe (r : ℝ) : Score (r : EReal) := Or.inr ⟨r, rfl⟩

theorem E_nonneg (z : EReal) (hz : Score z) : 0 ≤ E z := by
  rcases hz with rfl | ⟨r, rfl⟩
  · rw [E_bot]
  · rw [E_coe]; exact (Real.exp_pos r).le

theorem E_pos (r : ℝ) : 0 < E (r : EReal) := by rw [E_coe]; exact Real.exp_pos r

/-- Against a real maximum, a score's weight is its E over the maximum's exponential. -/
theorem exp_sub (z : EReal) (hz : Score z) (m : ℝ) :
    Ideal.exp (z - (m : EReal)) = ((E z / Real.exp m : ℝ) : EReal) := by
  rcases hz with rfl | ⟨r, rfl⟩
  · rw [EReal.bot_sub, Ideal.exp_bot, E_bot, zero_div, EReal.coe_zero]
  · rw [← EReal.coe_sub, Ideal.exp_coe, E_coe, Real.exp_sub]

/-- The greatest of finitely many scores, folded from −∞, is a score; -/
theorem fold_max_score {ι : Type*} (s : Finset ι) (f : ι → EReal) (hf : ∀ j, Score (f j)) :
    Score (s.fold max (⊥ : EReal) f) := by
  classical
  induction s using Finset.induction_on with
  | empty => rw [Finset.fold_empty]; exact Score.bot
  | insert a s ha ih =>
    rw [Finset.fold_insert ha]
    rcases le_total (f a) (s.fold max ⊥ f) with h | h
    · rw [max_eq_right h]; exact ih
    · rw [max_eq_left h]; exact hf a

/-- and a real number as soon as one of them is. -/
theorem fold_max_real_of {ι : Type*} [Fintype ι] (f : ι → EReal) (hf : ∀ j, Score (f j)) (j0 : ι) (r0 : ℝ)
    (h0 : f j0 = (r0 : EReal)) : ∃ r : ℝ, (Finset.univ : Finset ι).fold max (⊥ : EReal) f = (r : EReal) := by
  rcases fold_max_score Finset.univ f hf with h | h
  · exfalso
    have : (⊥ : EReal) < (Finset.univ : Finset ι).fold max (⊥ : EReal) f := by
      rw [Finset.lt_fold_max]
      exact Or.inr ⟨j0, Finset.mem_univ _, by rw [h0]; exact EReal.bot_lt_coe _⟩
    rw [h] at this; exact lt_irrefl _ this
  · exact h

variable {W : Nat}

/-- One tile of scores (masked or real) and real values: from a row state that is either the start (−∞, 0, 0) met by a
    tile with an unmasked score, or real with l = L / exp m and a = A / exp m, the next state is real with the tile's
    terms added to L and A. -/
theorem step (σ : Fin W → EReal) (hσ : ∀ c, Score (σ c)) (νr : Fin W → ℝ) (m l a : EReal) (L A : ℝ)
    (h : (m = ⊥ ∧ l = 0 ∧ a = 0 ∧ L = 0 ∧ A = 0 ∧ ∃ (c0 : Fin W) (r0 : ℝ), σ c0 = (r0 : EReal))
      ∨ ∃ mr : ℝ, m = mr ∧ l = ((L / Real.exp mr : ℝ) : EReal) ∧ a = ((A / Real.exp mr : ℝ) : EReal)) :
    ∃ mr' : ℝ, max m (tileMax ⊥ σ) = mr'
      ∧ Ideal.exp (m - mr') * l + ∑ c : Fin W, Ideal.exp (σ c - mr')
          = (((L + ∑ c : Fin W, E (σ c)) / Real.exp mr' : ℝ) : EReal)
      ∧ Ideal.exp (m - mr') * a + ∑ c : Fin W, Ideal.exp (σ c - mr') * (νr c : EReal)
          = (((A + ∑ c : Fin W, E (σ c) * νr c) / Real.exp mr' : ℝ) : EReal) := by
  have hsum1 : ∀ mr' : ℝ, ∑ c : Fin W, Ideal.exp (σ c - mr')
      = ((∑ c : Fin W, E (σ c) / Real.exp mr' : ℝ) : EReal) := fun mr' => by
    rw [← coe_sum]
    exact Finset.sum_congr rfl fun c _ => exp_sub (σ c) (hσ c) mr'
  have hsum2 : ∀ mr' : ℝ, ∑ c : Fin W, Ideal.exp (σ c - mr') * (νr c : EReal)
      = ((∑ c : Fin W, E (σ c) * νr c / Real.exp mr' : ℝ) : EReal) := fun mr' => by
    rw [← coe_sum]
    refine Finset.sum_congr rfl fun c _ => ?_
    rw [exp_sub (σ c) (hσ c) mr', ← EReal.coe_mul]
    congr 1; ring
  rcases h with ⟨rfl, rfl, rfl, rfl, rfl, c0, r0, h0⟩ | ⟨mr, rfl, rfl, rfl⟩
  · obtain ⟨tm, htm⟩ := fold_max_real_of σ hσ c0 r0 h0
    refine ⟨tm, ?_, ?_, ?_⟩
    · unfold tileMax; rw [htm]; exact max_eq_right bot_le
    · rw [hsum1, EReal.bot_sub, Ideal.exp_bot, zero_mul, zero_add, zero_add, Finset.sum_div]
    · rw [hsum2, EReal.bot_sub, Ideal.exp_bot, zero_mul, zero_add, zero_add, Finset.sum_div]
  · rcases fold_max_score Finset.univ σ hσ with hb | ⟨tm, htm⟩
    · refine ⟨mr, ?_, ?_, ?_⟩
      · unfold tileMax; rw [hb]; exact max_eq_left bot_le
      · rw [hsum1, ← EReal.coe_sub, Ideal.exp_coe, ← EReal.coe_mul, ← EReal.coe_add, sub_self, Real.exp_zero, one_mul,
          add_div, Finset.sum_div]
      · rw [hsum2, ← EReal.coe_sub, Ideal.exp_coe, ← EReal.coe_mul, ← EReal.coe_add, sub_self, Real.exp_zero, one_mul,
          add_div, Finset.sum_div]
    · refine ⟨max mr tm, ?_, ?_, ?_⟩
      · unfold tileMax; rw [htm]; exact (EReal.coe_strictMono.monotone.map_max (a := mr) (b := tm)).symm
      · rw [hsum1, ← EReal.coe_sub, Ideal.exp_coe, ← EReal.coe_mul, ← EReal.coe_add, Real.exp_sub, add_div,
          Finset.sum_div]
        congr 2
        field_simp
      · rw [hsum2, ← EReal.coe_sub, Ideal.exp_coe, ← EReal.coe_mul, ← EReal.coe_add, Real.exp_sub, add_div,
          Finset.sum_div]
        congr 2
        field_simp

/-- After n ≥ 1 tiles of scores (masked or real; the first tile with an unmasked score) and real values, the running
    maximum is real, and the normalizer and the weighted sum are the plain sums of E divided by its exponential. -/
theorem state (σ : ℕ → Fin W → EReal) (hσ : ∀ k c, Score (σ k c)) (νr : ℕ → Fin W → ℝ)
    (c0 : Fin W) (r0 : ℝ) (h0 : σ 0 c0 = (r0 : EReal)) (n : ℕ) :
    ∃ mr : ℝ, mSt ⊥ σ (n + 1) = mr
      ∧ lSt ⊥ 0 σ (n + 1)
          = (((∑ k ∈ Finset.range (n + 1), ∑ c : Fin W, E (σ k c)) / Real.exp mr : ℝ) : EReal)
      ∧ aSt ⊥ 0 σ (fun k c => (νr k c : EReal)) (n + 1)
          = (((∑ k ∈ Finset.range (n + 1), ∑ c : Fin W, E (σ k c) * νr k c) / Real.exp mr : ℝ) : EReal) := by
  induction n with
  | zero =>
    obtain ⟨mr', h1, h2, h3⟩ := step (σ 0) (hσ 0) (νr 0) ⊥ 0 0 0 0 (Or.inl ⟨rfl, rfl, rfl, rfl, rfl, c0, r0, h0⟩)
    refine ⟨mr', h1, ?_, ?_⟩
    · show Ideal.exp (⊥ - max ⊥ (tileMax ⊥ (σ 0))) * 0 + ∑ c : Fin W, Ideal.exp (σ 0 c - max ⊥ (tileMax ⊥ (σ 0))) = _
      rw [h1, h2, Finset.sum_range_one, zero_add]
    · show Ideal.exp (⊥ - max ⊥ (tileMax ⊥ (σ 0))) * 0 + ∑ c : Fin W, Ideal.exp (σ 0 c - max ⊥ (tileMax ⊥ (σ 0))) * (νr 0 c : EReal) = _
      rw [h1, h3, Finset.sum_range_one, zero_add]
  | succ n ih =>
    obtain ⟨mr, hm, hl, ha⟩ := ih
    obtain ⟨mr', h1, h2, h3⟩ := step (σ (n + 1)) (hσ (n + 1)) (νr (n + 1)) _ _ _ _ _ (Or.inr ⟨mr, hm, hl, ha⟩)
    refine ⟨mr', h1, ?_, ?_⟩
    · show Ideal.exp (mSt ⊥ σ (n + 1) - max (mSt ⊥ σ (n + 1)) (tileMax ⊥ (σ (n + 1)))) * lSt ⊥ 0 σ (n + 1) + ∑ c : Fin W, Ideal.exp (σ (n + 1) c - max (mSt ⊥ σ (n + 1)) (tileMax ⊥ (σ (n + 1)))) = _
      rw [h1, h2, Finset.sum_range_succ _ (n + 1)]
    · show Ideal.exp (mSt ⊥ σ (n + 1) - max (mSt ⊥ σ (n + 1)) (tileMax ⊥ (σ (n + 1)))) * aSt ⊥ 0 σ _ (n + 1) + ∑ c : Fin W, Ideal.exp (σ (n + 1) c - max (mSt ⊥ σ (n + 1)) (tileMax ⊥ (σ (n + 1)))) * (νr (n + 1) c : EReal) = _
      rw [h1, h3, Finset.sum_range_succ _ (n + 1)]

/-- The online result: weighted sum over normalizer is the E-weighted mean of the values. -/
theorem online_quotient (σ : ℕ → Fin W → EReal) (hσ : ∀ k c, Score (σ k c)) (νr : ℕ → Fin W → ℝ)
    (c0 : Fin W) (r0 : ℝ) (h0 : σ 0 c0 = (r0 : EReal)) (n : ℕ) :
    Ideal.div (aSt ⊥ 0 σ (fun k c => (νr k c : EReal)) (n + 1)) (lSt ⊥ 0 σ (n + 1))
      = (((∑ k ∈ Finset.range (n + 1), ∑ c : Fin W, E (σ k c) * νr k c)
          / (∑ k ∈ Finset.range (n + 1), ∑ c : Fin W, E (σ k c)) : ℝ) : EReal) := by
  obtain ⟨mr, -, hl, ha⟩ := state σ hσ νr c0 r0 h0 n
  have hpos : 0 < ∑ k ∈ Finset.range (n + 1), ∑ c : Fin W, E (σ k c) := by
    refine lt_of_lt_of_le ?_ (Finset.single_le_sum (f := fun k => ∑ c : Fin W, E (σ k c))
      (fun k _ => Finset.sum_nonneg fun c _ => E_nonneg _ (hσ k c)) (Finset.mem_range.mpr (Nat.succ_pos n)))
    refine lt_of_lt_of_le ?_ (Finset.single_le_sum (f := fun c => E (σ 0 c))
      (fun c _ => E_nonneg _ (hσ 0 c)) (Finset.mem_univ c0))
    rw [h0]; exact E_pos r0
  rw [hl, ha, div_coe_coe _ _ (div_ne_zero hpos.ne' (Real.exp_pos mr).ne')]
  congr 1
  field_simp

/-- The textbook form for a row of scores (masked or real, one of them real) and real values. -/
theorem textbook_quotient {ι : Type*} [Fintype ι] (z : ι → EReal) (hz : ∀ j, Score (z j)) (vr : ι → ℝ)
    (j0 : ι) (r0 : ℝ) (h0 : z j0 = (r0 : EReal)) :
    ∑ j : ι, Ideal.div (Ideal.exp (z j - max ⊥ ((Finset.univ : Finset ι).fold max ⊥ z)))
        (0 + ∑ j' : ι, Ideal.exp (z j' - max ⊥ ((Finset.univ : Finset ι).fold max ⊥ z)))
        * (vr j : EReal)
      = (((∑ j : ι, E (z j) * vr j) / (∑ j : ι, E (z j)) : ℝ) : EReal) := by
  obtain ⟨M, hM⟩ := fold_max_real_of z hz j0 r0 h0
  have hpos : 0 < ∑ j : ι, E (z j) := by
    refine lt_of_lt_of_le ?_ (Finset.single_le_sum (f := fun j => E (z j))
      (fun j _ => E_nonneg _ (hz j)) (Finset.mem_univ j0))
    rw [h0]; exact E_pos r0
  have hden : (0 : EReal) + ∑ j' : ι, Ideal.exp (z j' - (M : EReal))
      = (((∑ j : ι, E (z j)) / Real.exp M : ℝ) : EReal) := by
    rw [zero_add, Finset.sum_div, ← coe_sum]
    exact Finset.sum_congr rfl fun j _ => exp_sub (z j) (hz j) M
  rw [hM, max_eq_right bot_le, hden]
  refine ((Finset.sum_congr rfl fun j _ => ?_).trans
    (coe_sum Finset.univ (fun j => E (z j) * vr j / ∑ j, E (z j)))).trans (by rw [Finset.sum_div])
  rw [exp_sub (z j) (hz j) M, div_coe_coe _ _ (div_ne_zero hpos.ne' (Real.exp_pos M).ne'), ← EReal.coe_mul]
  congr 1
  field_simp

end Cert.MaskedSoftmax

end
-- ==== Proof.RowLaw.lean ====
/-
  The online recursion of a query row against the specification's attention entry.

  A query row q = 512·qi + r meets its keys tile by tile, 512 keys a tile, over the tiles 0..qi. The score of key
  j = 512·t + c is the query projection, scaled by 1/32 beforehand, against the key projection, and −∞ where j > q. The
  specification scales afterwards: it divides the inner product (−∞ where masked) by 32. For real arrays both are
  the real number (∑_d Q_d·K_d)/32 where j ≤ q and −∞ elsewhere, since ∑_d (Q_d·(1/32))·K_d = (∑_d Q_d·K_d)/32.

  With E z = exp z and E (−∞) = 0, the recursion's quotient after the tiles 0..qi is the E-weighted mean of the values
  over those tiles' keys, and the specification's entry is the E-weighted mean over all 2048 keys. A sum over the 2048
  keys is the sum over 4 tiles of 512; every key of a tile after qi is masked and weighs 0; so the two means agree.
-/
import proofs.«148900_j618475290737_2_alg».proof.Proof.Spec
import proofs.«148900_j618475290737_2_alg».proof.Proof.LibMaskedSoftmax

noncomputable section

open scoped BigOperators

namespace Cert.Attn

open Idealize.ShloMosaic Idealize.ShloMosaic.ValueIdx Cert.OnlineSoftmax

/-- Key (or query) position 512·t + c, among 2048. -/
def col (t : ℕ) (c : Fin 512) : Fin 2048 := ⟨(512 * t + c.val) % 2048, Nat.mod_lt _ (by decide)⟩

/-- The kernel's scale, the f32 pattern of 1/32. -/
def c32 : EReal := Ideal.ofBits .f32 0x3D000000#32

/-- The kernel's score of key c of tile t for query row r of query block qi: the pre-scaled query projection against
    the key projection, −∞ where the key's position exceeds the query's. -/
def tileScore (x : X3.Idx → EReal) (wq wk : W2.Idx → EReal) (b : Fin 4) (qi : ℕ) (r : Fin 512) (t : ℕ) (c : Fin 512) : EReal :=
  if 512 * t + c.val ≤ 512 * qi + r.val then ∑ d : Fin 1024, (proj x wq b (col qi r) d * c32) * proj x wk b (col t c) d else ⊥

/-- The value of key c of tile t at output feature o. -/
def tileVal (x : X3.Idx → EReal) (wv : W2.Idx → EReal) (b : Fin 4) (o : Fin 1024) (t : ℕ) (c : Fin 512) : EReal := proj x wv b (col t c) o

/-! ## Positions -/

/-- Within the 4 tiles a position is 512·t + c itself. -/
theorem col_val (t : ℕ) (ht : t < 4) (c : Fin 512) : (col t c).val = 512 * t + c.val := by
  have hc := c.isLt
  show (512 * t + c.val) % 2048 = 512 * t + c.val
  omega

/-- A sum over the 2048 keys is the sum over the 4 tiles of the sums over a tile's 512 keys. -/
theorem sum_keys (g : Fin 2048 → ℝ) :
    ∑ j : Fin 2048, g j = ∑ t ∈ Finset.range 4, ∑ c : Fin 512, g (col t c) := by
  rw [Finset.sum_range (fun t => ∑ c : Fin 512, g (col t c)), ← Equiv.sum_comp (finProdFinEquiv (m := 4) (n := 512)),
    Fintype.sum_prod_type]
  refine Finset.sum_congr rfl fun k _ => Finset.sum_congr rfl fun c _ => congrArg g (Fin.ext ?_)
  have hk := k.isLt; have hc := c.isLt
  show c.val + 512 * k.val = (512 * k.val + c.val) % 2048
  omega

/-- A sum over the keys of terms that vanish on the tiles after qi is the sum over the tiles up to qi. -/
theorem sum_keys_upto (g : Fin 2048 → ℝ) (qi : ℕ) (hqi : qi < 4)
    (hg : ∀ t, qi < t → t < 4 → ∀ c : Fin 512, g (col t c) = 0) :
    ∑ j : Fin 2048, g j = ∑ t ∈ Finset.range (qi + 1), ∑ c : Fin 512, g (col t c) := by
  rw [sum_keys]
  symm
  apply Finset.sum_subset
  · intro t ht
    rw [Finset.mem_range] at ht ⊢
    omega
  · intro t ht hnt
    rw [Finset.mem_range] at ht hnt
    exact Finset.sum_eq_zero fun c _ => hg t (by omega) ht c

/-! ## The scale -/

/-- The pattern 0x3D000000 is 2⁻⁵. -/
theorem c32_eq : c32 = ((1 / 32 : ℝ) : EReal) := by
  unfold c32
  simp [Ideal.ofBits, Ideal.ieee, -EReal.coe_mul]
  norm_num

/-! ## Real arrays: every projection and score is a real number -/

/-- A projection entry of real arrays. -/
def projR (xr : X3.Idx → ℝ) (wr : W2.Idx → ℝ) (b : Fin 4) (s : Fin 2048) (o : Fin 1024) : ℝ :=
  ∑ d : Fin 1024, xr (ix3 b s d) * wr (ix2 o d)

theorem proj_coe (xr : X3.Idx → ℝ) (wr : W2.Idx → ℝ) (b : Fin 4) (s : Fin 2048) (o : Fin 1024) :
    proj (fun i => (xr i : EReal)) (fun i => (wr i : EReal)) b s o = ((projR xr wr b s o : ℝ) : EReal) := by
  unfold proj projR
  rw [← coe_sum]
  exact Finset.sum_congr rfl fun d _ => (EReal.coe_mul _ _).symm

/-- The inner product of a query's and a key's projections, for real arrays. -/
def dotR (xr : X3.Idx → ℝ) (wqr wkr : W2.Idx → ℝ) (b : Fin 4) (q k : Fin 2048) : ℝ :=
  ∑ d : Fin 1024, projR xr wqr b q d * projR xr wkr b k d

theorem dotQK_coe (xr : X3.Idx → ℝ) (wqr wkr : W2.Idx → ℝ) (b : Fin 4) (q k : Fin 2048) :
    dotQK (fun i => (xr i : EReal)) (fun i => (wqr i : EReal)) (fun i => (wkr i : EReal)) b q k
      = ((dotR xr wqr wkr b q k : ℝ) : EReal) := by
  unfold dotQK dotR
  rw [← coe_sum]
  refine Finset.sum_congr rfl fun d _ => ?_
  rw [proj_coe, proj_coe, EReal.coe_mul]

/-- The specification's score: the inner product over 32 where the key is not after the query, −∞ elsewhere. -/
theorem logit_coe (xr : X3.Idx → ℝ) (wqr wkr : W2.Idx → ℝ) (b : Fin 4) (q k : Fin 2048) :
    logit (fun i => (xr i : EReal)) (fun i => (wqr i : EReal)) (fun i => (wkr i : EReal)) b q k
      = if k.val ≤ q.val then ((dotR xr wqr wkr b q k / 32 : ℝ) : EReal) else ⊥ := by
  unfold logit scale
  split_ifs with h
  · rw [dotQK_coe, div_coe_coe _ _ (by norm_num)]
  · rw [Ideal.div_coe (by norm_num : (32 : ℝ) ≠ 0)]
    exact EReal.bot_mul_coe_of_pos (by norm_num)

/-- The kernel's score: scaling the query beforehand gives the same real number. -/
theorem tileScore_coe (xr : X3.Idx → ℝ) (wqr wkr : W2.Idx → ℝ) (b : Fin 4) (qi : ℕ) (r : Fin 512) (t : ℕ) (c : Fin 512) :
    tileScore (fun i => (xr i : EReal)) (fun i => (wqr i : EReal)) (fun i => (wkr i : EReal)) b qi r t c
      = if 512 * t + c.val ≤ 512 * qi + r.val then ((dotR xr wqr wkr b (col qi r) (col t c) / 32 : ℝ) : EReal) else ⊥ := by
  unfold tileScore
  split_ifs with h
  · unfold dotR
    rw [Finset.sum_div, ← coe_sum]
    refine Finset.sum_congr rfl fun d _ => ?_
    rw [proj_coe, proj_coe, c32_eq, ← EReal.coe_mul, ← EReal.coe_mul]
    congr 1
    ring
  · rfl

/-- Every kernel score is −∞ or a real number. -/
theorem tileScore_score (xr : X3.Idx → ℝ) (wqr wkr : W2.Idx → ℝ) (b : Fin 4) (qi : ℕ) (r : Fin 512) (t : ℕ) (c : Fin 512) :
    MaskedSoftmax.Score (tileScore (fun i => (xr i : EReal)) (fun i => (wqr i : EReal)) (fun i => (wkr i : EReal)) b qi r t c) := by
  rw [tileScore_coe]
  split_ifs
  · exact MaskedSoftmax.Score.coe _
  · exact MaskedSoftmax.Score.bot

/-- Every key of a tile after the query's is masked. -/
theorem tileScore_masked (x : X3.Idx → EReal) (wq wk : W2.Idx → EReal) (b : Fin 4) (qi : ℕ) (r : Fin 512) (t : ℕ)
    (h : qi < t) (c : Fin 512) : tileScore x wq wk b qi r t c = ⊥ := by
  unfold tileScore
  have hr := r.isLt
  rw [if_neg (by omega)]

/-- Within the 4 tiles the specification's score of key 512·t + c for query 512·qi + r is the kernel's. -/
theorem logit_col (xr : X3.Idx → ℝ) (wqr wkr : W2.Idx → ℝ) (b : Fin 4) (qi : ℕ) (hqi : qi < 4) (r : Fin 512)
    (t : ℕ) (ht : t < 4) (c : Fin 512) :
    logit (fun i => (xr i : EReal)) (fun i => (wqr i : EReal)) (fun i => (wkr i : EReal)) b (col qi r) (col t c)
      = tileScore (fun i => (xr i : EReal)) (fun i => (wqr i : EReal)) (fun i => (wkr i : EReal)) b qi r t c := by
  rw [logit_coe, tileScore_coe, col_val t ht, col_val qi hqi]

/-- Every specification score is −∞ or a real number. -/
theorem logit_score (xr : X3.Idx → ℝ) (wqr wkr : W2.Idx → ℝ) (b : Fin 4) (q k : Fin 2048) :
    MaskedSoftmax.Score (logit (fun i => (xr i : EReal)) (fun i => (wqr i : EReal)) (fun i => (wkr i : EReal)) b q k) := by
  rw [logit_coe]
  split_ifs
  · exact MaskedSoftmax.Score.coe _
  · exact MaskedSoftmax.Score.bot

/-! ## The row law -/

/-- For real arrays, the online recursion over the tiles 0..qi of query row 512·qi + r, weighted sum over normalizer,
    is the specification's attention entry of that row. -/
theorem online_eq_attn (x : X3.Idx → EReal) (wq wk wv : W2.Idx → EReal)
    (hx : ∀ i, ∃ r : ℝ, x i = (r : EReal)) (hwq : ∀ i, ∃ r : ℝ, wq i = (r : EReal)) (hwk : ∀ i, ∃ r : ℝ, wk i = (r : EReal)) (hwv : ∀ i, ∃ r : ℝ, wv i = (r : EReal))
    (b : Fin 4) (qi : ℕ) (hqi : qi < 4) (r : Fin 512) (o : Fin 1024) :
    Ideal.div (aSt ⊥ 0 (tileScore x wq wk b qi r) (tileVal x wv b o) (qi + 1)) (lSt ⊥ 0 (tileScore x wq wk b qi r) (qi + 1))
      = attnAt x wq wk wv b (col qi r) o := by
  obtain ⟨xr, rfl⟩ : ∃ xr : X3.Idx → ℝ, x = fun i => (xr i : EReal) :=
    ⟨fun i => (hx i).choose, funext fun i => (hx i).choose_spec⟩
  obtain ⟨wqr, rfl⟩ : ∃ wr : W2.Idx → ℝ, wq = fun i => (wr i : EReal) :=
    ⟨fun i => (hwq i).choose, funext fun i => (hwq i).choose_spec⟩
  obtain ⟨wkr, rfl⟩ : ∃ wr : W2.Idx → ℝ, wk = fun i => (wr i : EReal) :=
    ⟨fun i => (hwk i).choose, funext fun i => (hwk i).choose_spec⟩
  obtain ⟨wvr, rfl⟩ : ∃ wr : W2.Idx → ℝ, wv = fun i => (wr i : EReal) :=
    ⟨fun i => (hwv i).choose, funext fun i => (hwv i).choose_spec⟩
  -- the first key of the first tile is never masked
  have h0 : tileScore (fun i => (xr i : EReal)) (fun i => (wqr i : EReal)) (fun i => (wkr i : EReal)) b qi r 0 (0 : Fin 512)
      = ((dotR xr wqr wkr b (col qi r) (col 0 (0 : Fin 512)) / 32 : ℝ) : EReal) := by
    rw [tileScore_coe, if_pos (by simp)]
  -- the recursion's quotient
  have hν : tileVal (fun i => (xr i : EReal)) (fun i => (wvr i : EReal)) b o
      = fun k c => ((projR xr wvr b (col k c) o : ℝ) : EReal) :=
    funext fun k => funext fun c => proj_coe xr wvr b (col k c) o
  rw [hν, MaskedSoftmax.online_quotient _ (fun k c => tileScore_score xr wqr wkr b qi r k c)
    (fun k c => projR xr wvr b (col k c) o) (0 : Fin 512) _ h0 qi]
  -- the specification's entry
  have hR : attnAt (fun i => (xr i : EReal)) (fun i => (wqr i : EReal)) (fun i => (wkr i : EReal)) (fun i => (wvr i : EReal)) b (col qi r) o
      = (((∑ j : Fin 2048, MaskedSoftmax.E (logit (fun i => (xr i : EReal)) (fun i => (wqr i : EReal)) (fun i => (wkr i : EReal)) b (col qi r) j) * projR xr wvr b j o)
          / (∑ j : Fin 2048, MaskedSoftmax.E (logit (fun i => (xr i : EReal)) (fun i => (wqr i : EReal)) (fun i => (wkr i : EReal)) b (col qi r) j)) : ℝ) : EReal) := by
    unfold attnAt expo denom rowMax
    simp only [proj_coe]
    exact MaskedSoftmax.textbook_quotient
      (fun k => logit (fun i => (xr i : EReal)) (fun i => (wqr i : EReal)) (fun i => (wkr i : EReal)) b (col qi r) k)
      (fun j => logit_score xr wqr wkr b (col qi r) j) (fun k => projR xr wvr b k o) (col 0 (0 : Fin 512)) _
      (by rw [logit_col xr wqr wkr b qi hqi r 0 (by decide) (0 : Fin 512), h0])
  rw [hR]
  -- the keys, tile by tile; the tiles after qi weigh nothing
  have hnum : ∑ j : Fin 2048, MaskedSoftmax.E (logit (fun i => (xr i : EReal)) (fun i => (wqr i : EReal)) (fun i => (wkr i : EReal)) b (col qi r) j) * projR xr wvr b j o
      = ∑ k ∈ Finset.range (qi + 1), ∑ c : Fin 512,
          MaskedSoftmax.E (tileScore (fun i => (xr i : EReal)) (fun i => (wqr i : EReal)) (fun i => (wkr i : EReal)) b qi r k c) * projR xr wvr b (col k c) o := by
    rw [sum_keys_upto _ qi hqi (fun t h1 h2 c => by
      rw [logit_col xr wqr wkr b qi hqi r t h2 c, tileScore_masked _ _ _ b qi r t h1 c, MaskedSoftmax.E_bot, zero_mul])]
    refine Finset.sum_congr rfl fun t ht => Finset.sum_congr rfl fun c _ => ?_
    rw [logit_col xr wqr wkr b qi hqi r t (by have := Finset.mem_range.mp ht; omega) c]
  have hden : ∑ j : Fin 2048, MaskedSoftmax.E (logit (fun i => (xr i : EReal)) (fun i => (wqr i : EReal)) (fun i => (wkr i : EReal)) b (col qi r) j)
      = ∑ k ∈ Finset.range (qi + 1), ∑ c : Fin 512,
          MaskedSoftmax.E (tileScore (fun i => (xr i : EReal)) (fun i => (wqr i : EReal)) (fun i => (wkr i : EReal)) b qi r k c) := by
    rw [sum_keys_upto _ qi hqi (fun t h1 h2 c => by
      rw [logit_col xr wqr wkr b qi hqi r t h2 c, tileScore_masked _ _ _ b qi r t h1 c, MaskedSoftmax.E_bot])]
    refine Finset.sum_congr rfl fun t ht => Finset.sum_congr rfl fun c _ => ?_
    rw [logit_col xr wqr wkr b qi hqi r t (by have := Finset.mem_range.mp ht; omega) c]
  rw [hnum, hden]

end Cert.Attn

end
-- ==== Proof.KVFinal.lean ====
/-
  The attention kernel's output array is the specification's attention, entry by entry.

  The output's [1, 512, 1024] blocks, one per batch and query block, tile the array, and each is accumulator over
  normalizer after the diagonal tile. Row r of query block qi has met the key tiles 0..qi; its scratch state is the
  online-softmax recursion over those tiles' scores and values. The region is entered with the pre-scaled query
  projection, the key projection and the value projection of the arguments, so the recursion's scores and values are
  the specification's tile scores and tile values, and for real arguments the recursion's quotient is the textbook
  softmax-weighted sum of the values.
-/
import proofs.«148900_j618475290737_2_alg».proof.Proof.IRun
import proofs.«148900_j618475290737_2_alg».proof.Proof.KV1Row
import proofs.«148900_j618475290737_2_alg».proof.Proof.KV1Top
import proofs.«148900_j618475290737_2_alg».proof.Proof.KVHost
import proofs.«148900_j618475290737_2_alg».proof.Proof.RowLaw

noncomputable section

open scoped BigOperators

namespace Cert.KernelIdeal.KVFinal

open Cert.KernelIdeal Cert.KernelIdeal.Gen Cert.KernelIdeal.Hand Cert.KernelIdeal.KV1 Idealize.ShloMosaic Idealize.ShloMosaic.TcCoe
open Idealize.ShloMosaic.ValueIdx Idealize.SL.Sem Cert.OnlineSoftmax

/-! ## The recursion reads only the tiles it has met -/

variable {W : Nat}

theorem mSt_congr (ninf : EReal) (σ σ' : ℕ → Fin W → EReal) (n : ℕ) (h : ∀ k, k < n → σ k = σ' k) :
    mSt ninf σ n = mSt ninf σ' n := by
  induction n with
  | zero => rfl
  | succ n ih =>
    show max (mSt ninf σ n) (tileMax ninf (σ n)) = max (mSt ninf σ' n) (tileMax ninf (σ' n))
    rw [ih (fun k hk => h k (by omega)), h n (by omega)]

theorem lSt_congr (ninf z : EReal) (σ σ' : ℕ → Fin W → EReal) (n : ℕ) (h : ∀ k, k < n → σ k = σ' k) :
    lSt ninf z σ n = lSt ninf z σ' n := by
  induction n with
  | zero => rfl
  | succ n ih =>
    show Ideal.exp (mSt ninf σ n - mSt ninf σ (n + 1)) * lSt ninf z σ n + ∑ c : Fin W, Ideal.exp (σ n c - mSt ninf σ (n + 1))
      = Ideal.exp (mSt ninf σ' n - mSt ninf σ' (n + 1)) * lSt ninf z σ' n + ∑ c : Fin W, Ideal.exp (σ' n c - mSt ninf σ' (n + 1))
    rw [ih (fun k hk => h k (by omega)), mSt_congr ninf σ σ' n (fun k hk => h k (by omega)), mSt_congr ninf σ σ' (n + 1) h,
      h n (by omega)]

theorem aSt_congr (ninf z : EReal) (σ σ' ν ν' : ℕ → Fin W → EReal) (n : ℕ) (h : ∀ k, k < n → σ k = σ' k)
    (hν : ∀ k, k < n → ν k = ν' k) : aSt ninf z σ ν n = aSt ninf z σ' ν' n := by
  induction n with
  | zero => rfl
  | succ n ih =>
    show Ideal.exp (mSt ninf σ n - mSt ninf σ (n + 1)) * aSt ninf z σ ν n + ∑ c : Fin W, Ideal.exp (σ n c - mSt ninf σ (n + 1)) * ν n c
      = Ideal.exp (mSt ninf σ' n - mSt ninf σ' (n + 1)) * aSt ninf z σ' ν' n + ∑ c : Fin W, Ideal.exp (σ' n c - mSt ninf σ' (n + 1)) * ν' n c
    rw [ih (fun k hk => h k (by omega)) (fun k hk => hν k (by omega)), mSt_congr ninf σ σ' n (fun k hk => h k (by omega)),
      mSt_congr ninf σ σ' (n + 1) h, h n (by omega), hν n (by omega)]

/-! ## The kernel's rows are the specification's tiles -/

section

variable (m : (ℓ : Loc nD τ sig) → Buf (Elt Ideal) ℓ) (ρ : Dev nD → PrngReg) (c : Dev nD)

/-- The arguments as arrays of extended reals. -/
abbrev argX : Cert.Attn.X3.Idx → EReal := m ((c.tc : Thread nD τ).loc main_arg0)
abbrev argWq : Cert.Attn.W2.Idx → EReal := m ((c.tc : Thread nD τ).loc main_arg1)
abbrev argWk : Cert.Attn.W2.Idx → EReal := m ((c.tc : Thread nD τ).loc main_arg2)
abbrev argWv : Cert.Attn.W2.Idx → EReal := m ((c.tc : Thread nD τ).loc main_arg3)

/-- Position 512·t + j of the 2048, for t < 4. -/
theorem col_eq (t : ℕ) (ht : t < 4) (j : Fin 512) (h : 512 * t + j.val < 2048) :
    (⟨512 * t + j.val, h⟩ : Fin 2048) = Cert.Attn.col t j :=
  Fin.ext (by show 512 * t + j.val = (512 * t + j.val) % 2048; omega)

/-- Row r's scores against tile j ≤ qi are the specification's tile scores. -/
theorem rowScore_eq (g : ℕ) (hg : g < 16) (r : Fin 512) (j : ℕ) (hjq : j ≤ g % 4) :
    rowScore (V3 m ρ) c g hg r j
      = Cert.Attn.tileScore (argX m c) (argWq m c) (argWk m c) ⟨g / 4, by omega⟩ (g % 4) r j := by
  have hj : j < 4 := by omega
  have hq : g % 4 < 4 := by omega
  funext cc
  rw [rowScore_at (V3 m ρ) c g hg r j hj]
  show k1_pay7 (F := Ideal) _ _ _ _ (ix3 0 r cc) = _
  rw [score_apply (g % 4) j hq hj]
  unfold Cert.Attn.tileScore
  refine if_congr Iff.rfl (Finset.sum_congr rfl fun d _ => ?_) rfl
  rw [qblk_read (V3 m ρ) c g j hg hj r d, kblk_read (V3 m ρ) c g j hg hj hjq cc d, KVHost.Q_entry m ρ c, KVHost.K_entry m ρ c,
    col_eq (g % 4) hq r (by have := r.isLt; omega), col_eq j hj cc (by have := cc.isLt; omega)]
  rfl

/-- Tile j's values are the specification's tile values. -/
theorem rowVal_eq (g : ℕ) (hg : g < 16) (o : Fin 1024) (j : ℕ) (hjq : j ≤ g % 4) :
    rowVal (V3 m ρ) c g hg o j = Cert.Attn.tileVal (argX m c) (argWv m c) ⟨g / 4, by omega⟩ o j := by
  have hj : j < 4 := by omega
  funext cc
  rw [rowVal_at (V3 m ρ) c g hg o j hj cc, vblk_read (V3 m ρ) c g j hg hj hjq cc o, KVHost.V_entry m ρ c,
    col_eq j hj cc (by have := cc.isLt; omega)]
  rfl

/-- The attention region's output array, for real arguments, is the specification's attention of the arguments. -/
theorem kernel_eq_G
    (hx : ∀ i, ∃ r : ℝ, m ((c.tc : Thread nD τ).loc main_arg0) i = (r : EReal))
    (hwq : ∀ i, ∃ r : ℝ, m ((c.tc : Thread nD τ).loc main_arg1) i = (r : EReal))
    (hwk : ∀ i, ∃ r : ℝ, m ((c.tc : Thread nD τ).loc main_arg2) i = (r : EReal))
    (hwv : ∀ i, ∃ r : ℝ, m ((c.tc : Thread nD τ).loc main_arg3) i = (r : EReal)) :
    (dat1 (F := Ideal) (V3 m ρ) c).arrAt 3 cfg1.N
      = Cert.Attn.G (m ((c.tc : Thread nD τ).loc main_arg0)) (m ((c.tc : Thread nD τ).loc main_arg1))
          (m ((c.tc : Thread nD τ).loc main_arg2)) (m ((c.tc : Thread nD τ).loc main_arg3)) := by
  refine attn_arr (V3 m ρ) c _ (fun g hg r o => ?_)
  have hq : g % 4 < 4 := by omega
  rw [out_row (V3 m ρ) c g hg r o,
    aSt_congr ⊥ 0 _ (Cert.Attn.tileScore (argX m c) (argWq m c) (argWk m c) ⟨g / 4, by omega⟩ (g % 4) r) _
      (Cert.Attn.tileVal (argX m c) (argWv m c) ⟨g / 4, by omega⟩ o) (g % 4 + 1)
      (fun k hk => rowScore_eq m ρ c g hg r k (by omega)) (fun k hk => rowVal_eq m ρ c g hg o k (by omega)),
    lSt_congr ⊥ 0 _ (Cert.Attn.tileScore (argX m c) (argWq m c) (argWk m c) ⟨g / 4, by omega⟩ (g % 4) r) (g % 4 + 1)
      (fun k hk => rowScore_eq m ρ c g hg r k (by omega)),
    Cert.Attn.online_eq_attn (argX m c) (argWq m c) (argWk m c) (argWv m c) hx hwq hwk hwv ⟨g / 4, by omega⟩ (g % 4) hq r o,
    col_eq (g % 4) hq r (by have := r.isLt; omega)]
  rfl

end

end Cert.KernelIdeal.KVFinal

end
-- ==== Proof.lean ====
/- The proof of `Cert.Claim`: a causal single-head attention kernel against its reference.

   Both programs project the activations x against three weight matrices (Q = x·Wqᵀ, K = x·Wkᵀ, V = x·Wvᵀ) and return,
   for every batch, query position q and feature o, the softmax over the keys k ≤ q of the scores Q[q]·K[k]/32 applied to
   V[·,o]. The reference computes the row's maximum, the exponentials and their sum directly. The kernel scales Q by 1/32
   beforehand, meets the keys 512 at a time over the key tiles 0..q/512 only, and carries a running maximum m, a running
   normalizer l and an un-normalized accumulator a, rescaling l and a by exp (m − m') whenever the maximum moves, and
   divides a by l after the last tile. On the extended reals, for real arguments, with E z = exp z and E (−∞) = 0: after
   n tiles l = (∑ E s)/exp m and a = (∑ E s·v)/exp m over the keys met, so a/l = ∑ E s·v / ∑ E s whatever the maxima
   were; the textbook form is the same mean because exp (s − M) = E s/exp M cancels in the quotient; a key after the query
   scores −∞ in both and weighs 0, so the tiles the kernel skips contribute nothing; and (∑_d (Q_d/32)·K_d) = (∑_d Q_d·K_d)/32.
   The frames: every argument array ends as launched, since each region writes only its own output arrays. The one
   idealization names the kernel's large negative mask constant −∞. -/
import proofs.«148900_j618475290737_2_alg».proof.Defs
import proofs.«148900_j618475290737_2_alg».proof.Proof.Gen.Kernel
import proofs.«148900_j618475290737_2_alg».proof.Proof.Gen.Kernel.Skeleton
import proofs.«148900_j618475290737_2_alg».proof.Proof.Gen.Kernel.Launch
import proofs.«148900_j618475290737_2_alg».proof.Proof.Gen.Kernel.Regions
import proofs.«148900_j618475290737_2_alg».proof.Proof.Gen.Kernel.Points
import proofs.«148900_j618475290737_2_alg».proof.Proof.Gen.KernelIdeal
import proofs.«148900_j618475290737_2_alg».proof.Proof.Gen.KernelIdeal.Skeleton
import proofs.«148900_j618475290737_2_alg».proof.Proof.Gen.KernelIdeal.Launch
import proofs.«148900_j618475290737_2_alg».proof.Proof.Gen.KernelIdeal.Regions
import proofs.«148900_j618475290737_2_alg».proof.Proof.Gen.KernelIdeal.Points
import proofs.«148900_j618475290737_2_alg».proof.Proof.Gen.ReferenceIdeal
import proofs.«148900_j618475290737_2_alg».proof.Proof.Gen.ReferenceIdeal.Run
import proofs.«148900_j618475290737_2_alg».proof.Proof.Gen.ReferenceIdeal.Read
import proofs.«148900_j618475290737_2_alg».proof.Proof.Gen.Pre_finite_inputs
import proofs.«148900_j618475290737_2_alg».proof.Proof.IRun
import proofs.«148900_j618475290737_2_alg».proof.Proof.BRun
import proofs.«148900_j618475290737_2_alg».proof.Proof.RefValue
import proofs.«148900_j618475290737_2_alg».proof.Proof.Finite
import proofs.«148900_j618475290737_2_alg».proof.Proof.KVFinal
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the idealized reference: its run's post without the result. -/
theorem frame_ri : Cert.frame_ReferenceIdeal := fun m ρ _ =>
  (θ_run Cert.ReferenceIdeal.defs _ _).mono (fun _ h c => (h c).2) (Cert.ReferenceIdeal.Value.run (F := Ideal) m ρ)

/-- The one idealization: the mask constant −2.38…·10³⁸ is named, and the name's value on the extended reals is −∞. -/
theorem preserves : Cert.preserves_Kernel_KernelIdeal :=
  IdealRules.named_const.statement Cert.KernelIdeal.κ "neg_big" .f32 0xFF333332#32 ⊥ rfl

/-- On the extended reals, from real arguments that agree, the kernel's output array and the reference's result array
    both are the attention of the arguments: the kernel's by the online recursion's quotient, the reference's term
    by term. -/
theorem algebraic : Cert.algebraic_KernelIdeal_ReferenceIdeal := by
  intro m ρ m' ρ' hpre hagree
  refine ⟨fun c => Cert.Attn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Hand.run_value (F := Ideal) m ρ)
    obtain ⟨hx, hwq, hwk, hwv⟩ := Cert.Finite.real_of_pre _ _ _ _ (hpre c)
    exact Cert.KernelIdeal.KVFinal.kernel_eq_G m ρ c hx hwq hwk hwv
  · refine (θ_run Cert.ReferenceIdeal.defs _ _).mono (fun _ h c => ⟨?_, (h c).2⟩)
      (Cert.ReferenceIdeal.Value.run (F := Ideal) m' ρ')
    rw [(h c).1, Cert.ReferenceIdeal.Read.val_main_v22_eq, Cert.ReferenceIdeal.RefValue.ref_eq_G,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
